-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S256 .f32) (main_arg7 : FVec F S256 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S800000 .f32) (main_arg2 : FVec F S128x128 .f32) (main_arg3 : FVec F S128x128 .f32) (main_arg4 : FVec F S128 .f32) (main_arg5 : FVec F S128 .f32) (main_arg6 : FVec F S256 .f32) (main_arg7 : FVec F S256 .f32) (main_arg8 : IVec S800000 32) (main_arg9 : IVec S800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S256 : Shape := ⟨1, ![256]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S200x256 : Shape := ⟨2, ![200, 256]⟩
abbrev S4000x128 : Shape := ⟨2, ![4000, 128]⟩
abbrev S8x256 : Shape := ⟨2, ![8, 256]⟩
abbrev S1x256 : Shape := ⟨2, ![1, 256]⟩
abbrev S100000x256 : Shape := ⟨2, ![100000, 256]⟩
abbrev S4000x256 : Shape := ⟨2, ![4000, 256]⟩

abbrev nBuf : Space → Nat
  | .hbm => 53
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S800000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S256, .f32⟩
  | .hbm, ⟨7, _⟩ => ⟨S256, .f32⟩
  | .hbm, ⟨8, _⟩ => ⟨S800000, .i32⟩
  | .hbm, ⟨9, _⟩ => ⟨S800000, .i32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S100000x128, .f32⟩
  | .hbm, ⟨24, _⟩ => ⟨S800000x1, .i32⟩
  | .hbm, ⟨25, _⟩ => ⟨S100000x128, .f32⟩
  | .hbm, ⟨26, _⟩ => ⟨S1x128, .f32⟩
  | .hbm, ⟨27, _⟩ => ⟨S1x128, .f32⟩
  | .hbm, ⟨28, _⟩ => ⟨S200x256, .f32⟩
  | .hbm, ⟨29, _⟩ => ⟨S200x256, .f32⟩
  | .hbm, ⟨30, _⟩ => ⟨S_, .f32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S_, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S1x128, .f32⟩
  | .hbm, ⟨47, _⟩ => ⟨S1x128, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S100000x256, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S4000x256, .f32⟩
  | .local _ .vmem, ⟨25, _⟩ => ⟨S4000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4000x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S128 : S4000x128.Reduces [0] S128
  inb_S8x256_S8x256_0_0 : ∀ a, (![0, 0] : Fin 2 → Nat) a + S8x256.size a ≤ S8x256.size a
  h_S8x256 : 0 < S8x256.numel
  inb_S8x256_S1x128_0_0 : ∀ a, (![0, 0] : Fin 2 → Nat) a + S1x128.size a ≤ S8x256.size a
  inb_S8x256_S1x128_0_128 : ∀ a, (![0, 128] : Fin 2 → Nat) a + S1x128.size a ≤ S8x256.size a
  reducesTo_S200x256_S256_d0 : S200x256.ReducesTo [0] S256
  h_S_ : 0 < S_.numel
  bcast_S_S256 : S_.BroadcastsInDim S256 (![] : Fin 0 → Fin S256.rank)
  shapeCasts_S256_S1x256 : S256.ShapeCasts S1x256
  inb_S1x256_S1x128_0_0 : ∀ a, (![0, 0] : Fin 2 → Nat) a + S1x128.size a ≤ S1x256.size a
  inb_S1x256_S1x128_0_128 : ∀ a, (![0, 128] : Fin 2 → Nat) a + S1x128.size a ≤ S1x256.size a
  inb_S4000x256_S4000x128_0_0 : ∀ a, (![0, 0] : Fin 2 → Nat) a + S4000x128.size a ≤ S4000x256.size a
  inb_S4000x256_S4000x128_0_128 : ∀ a, (![0, 128] : Fin 2 → Nat) a + S4000x128.size a ≤ S4000x256.size a
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x256.size a ≤ S200x256.size a
  hwx0_6 : ∀ i : grid0.Coords, EltTy.bits .f32 = 32 ∨ (Rect.block (s := S200x256) S8x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x256.size a ≤ S200x256.size a
  hwx0_7 : ∀ i : grid0.Coords, EltTy.bits .f32 = 32 ∨ (Rect.block (s := S200x256) S8x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x256.size a ≤ S100000x256.size a
  hwx1_10 : ∀ i : grid1.Coords, EltTy.bits .f32 = 32 ∨ (Rect.block (s := S100000x256) S4000x256.size (cc1_transform_10 i) (hinb1_10 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_0) S8x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15_1) S8x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v31) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v32) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v33) S4000x256.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S256 : Shape := ⟨1, ![256]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S100000x256 : Shape := ⟨2, ![100000, 256]⟩
abbrev S1x256 : Shape := ⟨2, ![1, 256]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S256, .f32⟩
  | .hbm, ⟨7, _⟩ => ⟨S256, .f32⟩
  | .hbm, ⟨8, _⟩ => ⟨S800000, .i32⟩
  | .hbm, ⟨9, _⟩ => ⟨S800000, .i32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S100000x128, .f32⟩
  | .hbm, ⟨24, _⟩ => ⟨S800000x1, .i32⟩
  | .hbm, ⟨25, _⟩ => ⟨S100000x128, .f32⟩
  | .hbm, ⟨26, _⟩ => ⟨S100000x128, .f32⟩
  | .hbm, ⟨27, _⟩ => ⟨S_, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x256, .f32⟩
  | .hbm, ⟨41, _⟩ => ⟨S_, .f32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S_, .i32⟩
  | .hbm, ⟨47, _⟩ => ⟨S_, .f32⟩
  | .hbm, ⟨48, _⟩ => ⟨S256, .f32⟩
  | .hbm, ⟨49, _⟩ => ⟨S1x256, .f32⟩
  | .hbm, ⟨50, _⟩ => ⟨S_, .f32⟩
  | .hbm, ⟨51, _⟩ => ⟨S1x256, .f32⟩
  | .hbm, ⟨52, _⟩ => ⟨S1x256, .f32⟩
  | .hbm, ⟨53, _⟩ => ⟨S100000x256, .f32⟩
  | .hbm, ⟨54, _⟩ => ⟨S100000x256, .f32⟩
  | .hbm, ⟨55, _⟩ => ⟨S100000x256, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S_, .f32⟩
  | .hbm, ⟨64, _⟩ => ⟨S_, .i1⟩
  | .hbm, ⟨65, _⟩ => ⟨S_, .f32⟩
  | .hbm, ⟨66, _⟩ => ⟨S_, .f32⟩
  | .hbm, ⟨67, _⟩ => ⟨S256, .f32⟩
  | .hbm, ⟨68, _⟩ => ⟨S256, .f32⟩
  | .hbm, ⟨69, _⟩ => ⟨S1x256, .f32⟩
  | .hbm, ⟨70, _⟩ => ⟨S100000x256, .f32⟩
  | .hbm, ⟨71, _⟩ => ⟨S100000x256, .f32⟩
  | .hbm, ⟨72, _⟩ => ⟨S_, .f32⟩
  | .hbm, ⟨73, _⟩ => ⟨S256, .f32⟩
  | .hbm, ⟨74, _⟩ => ⟨S256, .f32⟩
  | .hbm, ⟨75, _⟩ => ⟨S256, .f32⟩
  | .hbm, ⟨76, _⟩ => ⟨S1x256, .f32⟩
  | .hbm, ⟨77, _⟩ => ⟨S100000x256, .f32⟩
  | .hbm, ⟨78, _⟩ => ⟨S100000x256, .f32⟩
  | .hbm, ⟨79, _⟩ => ⟨S1x256, .f32⟩
  | .hbm, ⟨80, _⟩ => ⟨S100000x256, .f32⟩
  | .hbm, ⟨81, _⟩ => ⟨S100000x256, .f32⟩
  | .hbm, ⟨82, _⟩ => ⟨S1x256, .f32⟩
  | .hbm, ⟨83, _⟩ => ⟨S100000x256, .f32⟩
  | .hbm, ⟨84, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_cst : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call1_cst : Ref sig .tc := ⟨.hbm, 34, rfl⟩
abbrev main_call1_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_c_3 : Ref sig .tc := ⟨.hbm, 46, rfl⟩
abbrev main_call2_cst : Ref sig .tc := ⟨.hbm, 47, rfl⟩
abbrev main_call2_v0 : Ref sig .tc := ⟨.hbm, 48, rfl⟩
abbrev main_call2_v1 : Ref sig .tc := ⟨.hbm, 49, rfl⟩
abbrev main_call2_cst_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_cst_1 : Ref sig .tc := ⟨.hbm, 57, rfl⟩
abbrev main_call2_v8 : Ref sig .tc := ⟨.hbm, 58, rfl⟩
abbrev main_call2_cst_2 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_cst_3 : Ref sig .tc := ⟨.hbm, 63, rfl⟩
abbrev main_call2_v12 : Ref sig .tc := ⟨.hbm, 64, rfl⟩
abbrev main_call2_cst_4 : Ref sig .tc := ⟨.hbm, 65, rfl⟩
abbrev main_call2_call0_v0 : Ref sig .tc := ⟨.hbm, 66, rfl⟩
abbrev main_call2_call0_v1 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_cst_4 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  reducesTo_S100000x256_S256_d0 : S100000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S100000x256_0_1 : S1x256.BroadcastsInDim S100000x256 (![0, 1] : Fin 2 → Fin S100000x256.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's program, run from any memory with zero counters: every weakly fair execution terminates
  without a fault, the ten argument arrays end as they were, and the result array ends at the contents the two
  regions' write-backs and the host lines between them leave — the last term of the fold of buffer contents through
  the program (host lines before the first region, the first region's two arrays of partial sums, the host lines
  that turn them into a mean and a reciprocal standard deviation, the second region's normalised rows).
-/
import proofs.«124260_j60301340836383_2_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array named: after the last region every unscoped buffer holds the last boundary's
    contents, and the result array is one of them. -/
theorem run_result : θ_run defs (onTc (τ := τ) (main (F := F))) ⟨m, fun _ => 0, ρ⟩ (fun r => ∀ c : Dev nD,
      r.2.mem ((c.tc : Thread nD τ).loc main_v33) = W4 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v33 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Result

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibRowLayouts.lean ====
/-
  Three re-layouts of a matrix read at an entry, for any element type.

  A [1, b] row broadcast to [a, b] reads, at (p, q), the row's entry q. An array [1, a, b] cast to the matrix
  [a, b] reads, at (p, q), the array at (0, p, q), and the cast back reads, at (0, p, q), the matrix at (p, q):
  a leading unit axis does not move the row-major position.
-/
import Idealize.ShloMosaic.Lib.ValueIdx
import Idealize.ShloMosaic.Lib.Pipeline.Value

noncomputable section

namespace LibRowLayouts

open Idealize.ShloMosaic Idealize.ShloMosaic.ValueIdx

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An array [1, a, b] cast to the matrix [a, b] reads, at (p, q), the array at (0, p, q). -/
theorem shapeCast_drop_unit_apply {α : Type} {a b : ℕ} (x : (⟨3, ![1, a, b]⟩ : Shape).Idx → α)
    (h : (⟨3, ![1, a, b]⟩ : Shape).ShapeCasts ⟨2, ![a, b]⟩) (p : Fin a) (q : Fin b) :
    shapeCast ⟨2, ![a, b]⟩ x h (ix2 p q) = x (ix3 (0 : Fin 1) p q) := by
  refine shapeCast_apply x h _ _ ?_
  rw [Shape.rowMajor_val_three, Shape.rowMajor_val_two]
  show (0 * a + p.val) * b + q.val = p.val * b + q.val
  rw [Nat.zero_mul, Nat.zero_add]

/-- A matrix [a, b] cast to the array [1, a, b] reads, at (0, p, q), the matrix at (p, q). -/
theorem shapeCast_add_unit_apply {α : Type} {a b : ℕ} (x : (⟨2, ![a, b]⟩ : Shape).Idx → α)
    (h : (⟨2, ![a, b]⟩ : Shape).ShapeCasts ⟨3, ![1, a, b]⟩) (z : Fin 1) (p : Fin a) (q : Fin b) :
    shapeCast ⟨3, ![1, a, b]⟩ x h (ix3 z p q) = x (ix2 p q) := by
  refine shapeCast_apply x h _ _ ?_
  rw [Shape.rowMajor_val_three, Shape.rowMajor_val_two]
  show p.val * b + q.val = (z.val * a + p.val) * b + q.val
  have hz : z.val = 0 := by have := z.isLt; omega
  rw [hz, Nat.zero_mul, Nat.zero_add]

end LibRowLayouts

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibERealMatrix.lean ====
/-
  General facts about finite sums and products of extended reals, as a matrix computation at exact
  arithmetic needs them.

  On the extended reals addition and multiplication are commutative and associative, so regrouping a
  sum (a reduction axis cut into blocks and accumulated block by block) needs no hypothesis. Distributing a
  product over a sum does need one: it fails at the infinities. A triple matrix product can therefore be
  re-associated, (sᵀ A) t = sᵀ (A t), once every entry is a real number; the proof passes to the reals, where
  it is the interchange of two finite sums.
-/
import Mathlib.Data.EReal.Operations
import Mathlib.Algebra.BigOperators.Fin
import Mathlib.Algebra.BigOperators.Ring.Finset
import Mathlib.Algebra.BigOperators.Group.Finset.Sigma
import Mathlib.Logic.Equiv.Fin.Basic
import Mathlib.Tactic.Ring

namespace LibERealMatrix

open Finset

/-- An extended real is FINITE when it is neither infinity: it is the image of a real number. -/
def Fin' (x : EReal) : Prop := x ≠ ⊤ ∧ x ≠ ⊥

theorem Fin'.coe (r : ℝ) : Fin' (r : EReal) := ⟨EReal.coe_ne_top r, EReal.coe_ne_bot r⟩

theorem Fin'.exists_real {x : EReal} (h : Fin' x) : ∃ r : ℝ, x = (r : EReal) :=
  ⟨x.toReal, (EReal.coe_toReal h.1 h.2).symm⟩

/-- A family of finite extended reals is the image of a family of reals. -/
theorem exists_real_family {ι : Type*} (f : ι → EReal) (h : ∀ i, Fin' (f i)) :
    ∃ g : ι → ℝ, ∀ i, f i = (g i : EReal) :=
  ⟨fun i => (f i).toReal, fun i => (EReal.coe_toReal (h i).1 (h i).2).symm⟩

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.add {x y : EReal} (hx : Fin' x) (hy : Fin' y) : Fin' (x + y) := by
  obtain ⟨a, rfl⟩ := hx.exists_real
  obtain ⟨b, rfl⟩ := hy.exists_real
  rw [← EReal.coe_add]; exact Fin'.coe _

theorem Fin'.mul {x y : EReal} (hx : Fin' x) (hy : Fin' y) : Fin' (x * y) := by
  obtain ⟨a, rfl⟩ := hx.exists_real
  obtain ⟨b, rfl⟩ := hy.exists_real
  rw [← EReal.coe_mul]; exact Fin'.coe _

/-- A finite sum of finite extended reals is finite. -/
theorem Fin'.sum {ι : Type*} (s : Finset ι) (f : ι → EReal) (h : ∀ i, Fin' (f i)) :
    Fin' (∑ i ∈ s, f i) := by
  obtain ⟨g, hg⟩ := exists_real_family f h
  simp only [hg]
  rw [← coe_sum]; exact Fin'.coe _

/-- A sum over `Fin (n * b)` is the sum over the `n` blocks of the sums over the `b` positions inside a
    block; the element at block `k`, position `r` is the one numbered `r + b * k`. No hypothesis: only
    commutativity and associativity of the addition are used. -/
theorem sum_fin_mul {M : Type*} [AddCommMonoid M] (n b : ℕ) (f : Fin (n * b) → M) :
    ∑ x, f x = ∑ k : Fin n, ∑ r : Fin b, f (finProdFinEquiv (k, r)) :=
  ((finProdFinEquiv (m := n) (n := b)).sum_comp f).symm.trans (Fintype.sum_prod_type _)

theorem finProdFinEquiv_val (n b : ℕ) (k : Fin n) (r : Fin b) :
    ((finProdFinEquiv (k, r) : Fin (n * b)) : ℕ) = r.val + b * k.val := rfl

/-- A scalar product whose index set is cut into `n` blocks of `b` is the sum of the `n` partial scalar
    products, whatever the entries (infinite ones included). -/
theorem dot_blocked (n b : ℕ) (u v : Fin (n * b) → EReal) :
    ∑ x, u x * v x = ∑ k : Fin n, ∑ r : Fin b, u (finProdFinEquiv (k, r)) * v (finProdFinEquiv (k, r)) :=
  sum_fin_mul n b fun x => u x * v x

/-- The same over ranges of naturals: the numbers below `n * b` are the `r + b * s` with `s < n`, `r < b`. -/
theorem sum_range_mul {M : Type*} [AddCommMonoid M] (n b : ℕ) (f : ℕ → M) :
    ∑ J ∈ range (n * b), f J = ∑ s ∈ range n, ∑ r ∈ range b, f (r + b * s) := by
  rw [← Fin.sum_univ_eq_sum_range f (n * b), sum_fin_mul n b (fun x => f x.val),
    ← Fin.sum_univ_eq_sum_range (fun s => ∑ r ∈ range b, f (r + b * s)) n]
  refine Finset.sum_congr rfl fun s _ => ?_
  rw [← Fin.sum_univ_eq_sum_range (fun r => f (r + b * s.val)) b]
  rfl

/-- An accumulator that starts at zero and takes four partial sums in turn ends at their sum. -/
theorem acc_four {M : Type*} [AddCommMonoid M] (d : Fin 4 → M) :
    (((0 + d 0) + d 1) + d 2) + d 3 = ∑ k, d k := by
  rw [Fin.sum_univ_four, zero_add]

/-- Re-association of a triple product of matrices with FINITE entries:
    `∑ j, (∑ i, s i * A i j) * t j = ∑ i, s i * ∑ j, A i j * t j`. With an infinite entry this fails
    (the product does not distribute over a sum of opposite infinities). -/
theorem sum_mul_sum_assoc {ι κ : Type*} [Fintype ι] [Fintype κ]
    (s : ι → EReal) (A : ι → κ → EReal) (t : κ → EReal)
    (hs : ∀ i, Fin' (s i)) (hA : ∀ i j, Fin' (A i j)) (ht : ∀ j, Fin' (t j)) :
    ∑ j, (∑ i, s i * A i j) * t j = ∑ i, s i * ∑ j, A i j * t j := by
  obtain ⟨s', hs'⟩ := exists_real_family s hs
  obtain ⟨A', hA'⟩ : ∃ g : ι → κ → ℝ, ∀ i j, A i j = (g i j : EReal) :=
    ⟨fun i j => (A i j).toReal, fun i j => (EReal.coe_toReal (hA i j).1 (hA i j).2).symm⟩
  obtain ⟨t', ht'⟩ := exists_real_family t ht
  have hL : ∀ j, (∑ i, s i * A i j) * t j = (((∑ i, s' i * A' i j) * t' j : ℝ) : EReal) := by
    intro j
    rw [EReal.coe_mul, coe_sum, ht']
    refine congrArg (· * (t' j : EReal)) (Finset.sum_congr rfl fun i _ => ?_)
    rw [hs', hA', EReal.coe_mul]
  have hR : ∀ i, s i * ∑ j, A i j * t j = ((s' i * ∑ j, A' i j * t' j : ℝ) : EReal) := by
    intro i
    rw [EReal.coe_mul, coe_sum, hs']
    refine congrArg ((s' i : EReal) * ·) (Finset.sum_congr rfl fun j _ => ?_)
    rw [hA', ht', EReal.coe_mul]
  simp only [hL, hR]
  rw [← coe_sum, ← coe_sum]
  refine congrArg _ ?_
  simp only [Finset.sum_mul, Finset.mul_sum]
  rw [Finset.sum_comm]
  exact Finset.sum_congr rfl fun i _ => Finset.sum_congr rfl fun j _ => by ring

end LibERealMatrix
-- ==== Proof.LibIdealFinite.lean ====
/-
  A finiteness calculus for the exact-arithmetic reading of a program's operations.

  At exact arithmetic a float value is an extended real. Sums and products of extended reals commute and
  associate, but a product distributes over a sum only away from the infinities; so a matrix computation can
  be re-associated once every entry is known to be a real number. This file proves that the operations a
  host program is made of keep entries real ("finite": neither infinity):

  * elementwise sums, differences, products and maxima of finite entries are finite;
  * a re-indexing (broadcast, transpose, slice, reshape, concatenation) only moves entries;
  * a contraction (a finite sum of products) and a sum along axes of finite entries are finite, and a sum of
    non-negative entries from zero is non-negative;
  * a quotient of a finite entry by a nonzero real is finite, and non-negative if the entry is non-negative
    and the divisor positive;
  * the reciprocal square root of a positive real is a positive real;
  * the exponential of a real is a positive real;
  * a maximum along a non-empty axis of finite entries, started from minus infinity, is finite;
  * a row of positive reals divided by its sum is a row of reals (the normalisation of a softmax).

  Nothing here mentions a particular program.
-/
import Idealize.ShloMosaic.PureOps.Ideal.Laws
import proofs.«124260_j60301340836383_2_alg».proof.Proof.LibERealMatrix

noncomputable section

namespace LibIdealFinite

open Idealize.ShloMosaic LibERealMatrix

/-! ### Finite extended reals -/

theorem fin_zero : Fin' (0 : EReal) := by
  have h := Fin'.coe 0
  rwa [EReal.coe_zero] at h

theorem fin_neg {x : EReal} (hx : Fin' x) : Fin' (-x) := by
  obtain ⟨a, rfl⟩ := hx.exists_real
  rw [← EReal.coe_neg]; exact Fin'.coe _

theorem fin_sub {x y : EReal} (hx : Fin' x) (hy : Fin' y) : Fin' (x - y) := by
  obtain ⟨a, rfl⟩ := hx.exists_real
  obtain ⟨b, rfl⟩ := hy.exists_real
  rw [← EReal.coe_sub]; exact Fin'.coe _

theorem fin_max {x y : EReal} (hx : Fin' x) (hy : Fin' y) : Fin' (max x y) := by
  rcases max_choice x y with h | h <;> rw [h] <;> assumption

theorem fin_min {x y : EReal} (hx : Fin' x) (hy : Fin' y) : Fin' (min x y) := by
  rcases min_choice x y with h | h <;> rw [h] <;> assumption

/-- A finite extended real that is positive is the image of a positive real. -/
theorem fin_exists_pos_real {x : EReal} (hx : Fin' x) (h0 : 0 < x) : ∃ r : ℝ, 0 < r ∧ x = (r : EReal) := by
  obtain ⟨a, rfl⟩ := hx.exists_real
  exact ⟨a, EReal.coe_pos.mp h0, rfl⟩

/-- A finite extended real that is non-negative is the image of a non-negative real. -/
theorem fin_exists_nonneg_real {x : EReal} (hx : Fin' x) (h0 : 0 ≤ x) : ∃ r : ℝ, 0 ≤ r ∧ x = (r : EReal) := by
  obtain ⟨a, rfl⟩ := hx.exists_real
  exact ⟨a, EReal.coe_nonneg.mp h0, rfl⟩

/-- The square of a finite extended real is non-negative. -/
theorem fin_mul_self_nonneg {x : EReal} (hx : Fin' x) : 0 ≤ x * x := by
  obtain ⟨a, rfl⟩ := hx.exists_real
  rw [← EReal.coe_mul]; exact EReal.coe_nonneg.mpr (mul_self_nonneg a)

/-- The sum of a non-negative and a positive finite extended real is positive. -/
theorem add_pos_of_nonneg_of_pos' {x y : EReal} (hx : 0 ≤ x) (hy : 0 < y) : 0 < x + y :=
  lt_of_lt_of_le hy (le_add_of_nonneg_left hx)

/-! ### Vectors with finite entries -/

/-- Every entry of the vector is a real number. -/
def AllFin {s : Shape} (v : s.Idx → EReal) : Prop := ∀ i, Fin' (v i)

section Elementwise
variable {s : Shape} {φ : FTy}

theorem allFin_addf {a b : FVec Ideal s φ} (ha : AllFin a) (hb : AllFin b) : AllFin (addf (F := Ideal) a b) :=
  fun i => (ha i).add (hb i)

theorem allFin_subf {a b : FVec Ideal s φ} (ha : AllFin a) (hb : AllFin b) : AllFin (subf (F := Ideal) a b) :=
  fun i => fin_sub (ha i) (hb i)

theorem allFin_mulf {a b : FVec Ideal s φ} (ha : AllFin a) (hb : AllFin b) : AllFin (mulf (F := Ideal) a b) :=
  fun i => (ha i).mul (hb i)

theorem allFin_maximumf {a b : FVec Ideal s φ} (ha : AllFin a) (hb : AllFin b) :
    AllFin (maximumf (F := Ideal) a b) :=
  fun i => fin_max (ha i) (hb i)

theorem allFin_minimumf {a b : FVec Ideal s φ} (ha : AllFin a) (hb : AllFin b) :
    AllFin (minimumf (F := Ideal) a b) :=
  fun i => fin_min (ha i) (hb i)

theorem allFin_negf {a : FVec Ideal s φ} (ha : AllFin a) : AllFin (negf (F := Ideal) a) :=
  fun i => fin_neg (ha i)

/-- The entries of an elementwise sum, difference, product and maximum, spelled out. -/
theorem addf_apply (a b : FVec Ideal s φ) (i : s.Idx) : addf (F := Ideal) a b i = a i + b i := rfl
theorem subf_apply (a b : FVec Ideal s φ) (i : s.Idx) : subf (F := Ideal) a b i = a i - b i := rfl
theorem mulf_apply (a b : FVec Ideal s φ) (i : s.Idx) : mulf (F := Ideal) a b i = a i * b i := rfl
theorem maximumf_apply (a b : FVec Ideal s φ) (i : s.Idx) : maximumf (F := Ideal) a b i = max (a i) (b i) := rfl

/-- A square of finite entries has non-negative entries. -/
theorem mulf_self_nonneg {d : FVec Ideal s φ} (hd : AllFin d) (i : s.Idx) : 0 ≤ mulf (F := Ideal) d d i :=
  fin_mul_self_nonneg (hd i)

/-- A maximum against a non-negative vector (a rectifier's zero) is non-negative. -/
theorem maximumf_nonneg_right (a b : FVec Ideal s φ) (hb : ∀ i, 0 ≤ b i) (i : s.Idx) :
    0 ≤ maximumf (F := Ideal) a b i :=
  le_max_of_le_right (hb i)

theorem maximumf_nonneg_left (a b : FVec Ideal s φ) (ha : ∀ i, 0 ≤ a i) (i : s.Idx) :
    0 ≤ maximumf (F := Ideal) a b i :=
  le_max_of_le_left (ha i)

end Elementwise

/-! ### Contractions and sums along axes -/

section Contract

/-- A host contraction of finite operands is finite: each entry is a finite sum of products. -/
theorem allFin_dotGeneral {sl sr so : Shape} {φ₁ φ₂ : FTy} (d : DotDims sl sr so) (prec : Option ContractPrecision)
    {l : FVec Ideal sl φ₁} {r : FVec Ideal sr φ₂} (hl : AllFin l) (hr : AllFin r) :
    AllFin (Host.dotGeneral (F := Ideal) d prec l r) := by
  intro j
  show Fin' (FloatOps.dotGeneral (F := Ideal) d prec .single l r j)
  rw [Ideal.dotGeneral_apply]
  exact Fin'.sum _ _ fun k => (hl _).mul (hr _)

/-- The same from a description of the entries as sums of products, whatever the index type of the sum. -/
theorem allFin_of_sum_mul {sl sr so : Shape} {κ : Type*} [Fintype κ] {l : sl.Idx → EReal} {r : sr.Idx → EReal}
    (res : so.Idx → EReal) (li : so.Idx → κ → sl.Idx) (ri : so.Idx → κ → sr.Idx)
    (h : ∀ i, res i = ∑ k, l (li i k) * r (ri i k)) (hl : AllFin l) (hr : AllFin r) : AllFin res := by
  intro i
  rw [h i]
  exact Fin'.sum _ _ fun k => (hl _).mul (hr _)

/-- A kernel's contraction onto a finite accumulator is finite as well. -/
theorem allFin_matmul {sl sr so : Shape} {φ₁ φ₂ : FTy} (d : DotDims sl sr so) (prec : Option ContractPrecision)
    {l : FVec Ideal sl φ₁} {r : FVec Ideal sr φ₂} {acc : FVec Ideal so .f32} (hl : AllFin l) (hr : AllFin r)
    (hacc : AllFin acc) : AllFin (matmul (F := Ideal) d prec l r acc) := by
  intro j
  show Fin' (FloatOps.matmul (F := Ideal) d prec l r acc j)
  rw [Ideal.matmul_apply]
  exact (hacc j).add (Fin'.sum _ _ fun k => (hl _).mul (hr _))

variable {s t u : Shape} {φ : FTy} {axes : List (Fin s.rank)}

/-- An entry of a host sum along axes: the initial value plus the sum of the entries that reduce to it. -/
theorem reduceAdd_apply (x : FVec Ideal s φ) (init : u.Idx → Ideal φ) (h : s.ReducesTo axes t) (hu : 0 < u.numel)
    (j : t.Idx) :
    Host.reduceAdd (F := Ideal) x init h hu j
      = init (Shape.Idx.first hu) + ∑ i ∈ Finset.univ.filter (fun i => h.drop i = j), x i := rfl

/-- A host sum along axes of finite entries, from a finite initial value, is finite. -/
theorem allFin_reduceAdd {x : FVec Ideal s φ} {init : u.Idx → Ideal φ} (h : s.ReducesTo axes t) (hu : 0 < u.numel)
    (hx : AllFin x) (hinit : Fin' (init (Shape.Idx.first hu))) :
    AllFin (Host.reduceAdd (F := Ideal) x init h hu) := by
  intro j
  rw [reduceAdd_apply]
  exact hinit.add (Fin'.sum _ _ fun i => hx i)

/-- A host sum along axes of non-negative entries, from zero, is non-negative. -/
theorem reduceAdd_nonneg {x : FVec Ideal s φ} {init : u.Idx → Ideal φ} (h : s.ReducesTo axes t) (hu : 0 < u.numel)
    (hx : ∀ i, 0 ≤ x i) (hinit : init (Shape.Idx.first hu) = 0) (j : t.Idx) :
    0 ≤ Host.reduceAdd (F := Ideal) x init h hu j := by
  rw [reduceAdd_apply, hinit, zero_add]
  exact Finset.sum_nonneg fun i _ => hx i

/-- A host sum along axes of positive entries, from zero, is positive wherever some entry reduces to the index. -/
theorem reduceAdd_pos {x : FVec Ideal s φ} {init : u.Idx → Ideal φ} (h : s.ReducesTo axes t) (hu : 0 < u.numel)
    (hx : ∀ i, 0 < x i) (hinit : init (Shape.Idx.first hu) = 0) (j : t.Idx) (hj : ∃ i, h.drop i = j) :
    0 < Host.reduceAdd (F := Ideal) x init h hu j := by
  rw [reduceAdd_apply, hinit, zero_add]
  obtain ⟨i₀, hi₀⟩ := hj
  have hmem : i₀ ∈ Finset.univ.filter (fun i => h.drop i = j) := Finset.mem_filter.2 ⟨Finset.mem_univ _, hi₀⟩
  rw [← Finset.add_sum_erase _ _ hmem]
  exact lt_of_lt_of_le (hx i₀) (le_add_of_nonneg_right (Finset.sum_nonneg fun i _ => (hx i).le))

/-- Along ONE axis of positive extent every result index has an entry reducing to it. -/
theorem exists_drop_eq {a : Fin s.rank} (h' : s.ReducesTo [a] t) (h : s.Reduces [a] t) (ha : 0 < s.size a) (j : t.Idx) :
    ∃ i, h'.drop i = j :=
  ⟨h.lift j ⟨0, ha⟩, by rw [Shape.ReducesTo.drop_eq_drop h' h]; exact h.drop_lift j _⟩

end Contract

/-! ### Re-indexings: the entries of the result are entries of the operand -/

section Reindex

/-- Every entry of `b` is an entry of `w`. What a broadcast, a transpose, a slice or a reshape does. -/
def EntriesOf {ι κ α : Type*} (b : ι → α) (w : κ → α) : Prop := ∀ i, ∃ j, b i = w j

theorem EntriesOf.refl {ι α : Type*} (w : ι → α) : EntriesOf w w := fun i => ⟨i, rfl⟩

theorem EntriesOf.trans {ι κ μ α : Type*} {a : ι → α} {b : κ → α} {c : μ → α} (hab : EntriesOf a b)
    (hbc : EntriesOf b c) : EntriesOf a c := fun i => by
  obtain ⟨j, hj⟩ := hab i
  obtain ⟨k, hk⟩ := hbc j
  exact ⟨k, hj.trans hk⟩

/-- Any property of single entries passes from the operand to the result. -/
theorem EntriesOf.forall {ι κ α : Type*} {b : ι → α} {w : κ → α} (h : EntriesOf b w) (P : α → Prop)
    (hw : ∀ j, P (w j)) (i : ι) : P (b i) := by
  obtain ⟨j, hj⟩ := h i
  rw [hj]; exact hw j

variable {s t : Shape} {α : Type}

theorem entriesOf_broadcastInDim (t : Shape) (dims : Fin s.rank → Fin t.rank) (h : s.BroadcastsInDim t dims)
    (x : s.Idx → α) : EntriesOf (broadcastInDim t dims h x) x := fun _ => ⟨_, rfl⟩

theorem entriesOf_broadcastTo (t : Shape) (x : s.Idx → α) (h : s.Broadcasts t) : EntriesOf (broadcastTo t x h) x :=
  fun _ => ⟨_, rfl⟩

theorem entriesOf_transpose (t : Shape) (perm : List (Fin s.rank)) (x : s.Idx → α) (h : s.Transposes perm t) :
    EntriesOf (transpose t perm x h) x := fun _ => ⟨_, rfl⟩

theorem entriesOf_shapeCast (t : Shape) (x : s.Idx → α) (h : s.ShapeCasts t) : EntriesOf (shapeCast t x h) x :=
  fun _ => ⟨_, rfl⟩

theorem entriesOf_extractStridedSlice (t : Shape) (off : Fin s.rank → Nat) (x : s.Idx → α) (h : s.Slices off t) :
    EntriesOf (extractStridedSlice t off x h) x := fun _ => ⟨_, rfl⟩

theorem entriesOf_hostSlice (t : Shape) (start strides : Fin s.rank → Nat) (x : s.Idx → α)
    (h : s.SlicesBy start strides t) : EntriesOf (Host.slice t start strides x h) x := fun _ => ⟨_, rfl⟩

/-- Every entry of a concatenation is an entry of one of the pieces. -/
theorem concatenate_entry (t : Shape) (a : Fin t.rank) (xs : List ((s : Shape) × (s.Idx → α)))
    (h : Shape.Concatenates (xs.map (·.1)) t a) (j : t.Idx) : ∃ p ∈ xs, ∃ i, concatenate t a xs h j = p.2 i := by
  unfold concatenate
  exact ⟨_, List.getElem_mem _, _, rfl⟩

theorem allFin_of_entriesOf {ι : Type*} {b : s.Idx → EReal} {w : ι → EReal} (h : EntriesOf b w)
    (hw : ∀ j, Fin' (w j)) : AllFin b := h.forall Fin' hw

theorem allFin_broadcastInDim (t : Shape) (dims : Fin s.rank → Fin t.rank) (h : s.BroadcastsInDim t dims)
    {x : s.Idx → EReal} (hx : AllFin x) : AllFin (broadcastInDim t dims h x) := fun _ => hx _

theorem allFin_broadcastTo (t : Shape) {x : s.Idx → EReal} (h : s.Broadcasts t) (hx : AllFin x) :
    AllFin (broadcastTo t x h) := fun _ => hx _

theorem allFin_transpose (t : Shape) (perm : List (Fin s.rank)) {x : s.Idx → EReal} (h : s.Transposes perm t)
    (hx : AllFin x) : AllFin (transpose t perm x h) := fun _ => hx _

theorem allFin_shapeCast (t : Shape) {x : s.Idx → EReal} (h : s.ShapeCasts t) (hx : AllFin x) :
    AllFin (shapeCast t x h) := fun _ => hx _

theorem allFin_extractStridedSlice (t : Shape) (off : Fin s.rank → Nat) {x : s.Idx → EReal} (h : s.Slices off t)
    (hx : AllFin x) : AllFin (extractStridedSlice t off x h) := fun _ => hx _

theorem allFin_hostSlice (t : Shape) (start strides : Fin s.rank → Nat) {x : s.Idx → EReal}
    (h : s.SlicesBy start strides t) (hx : AllFin x) : AllFin (Host.slice t start strides x h) := fun _ => hx _

/-- A concatenation of vectors with finite entries has finite entries. -/
theorem allFin_concatenate (t : Shape) (a : Fin t.rank) (xs : List ((s : Shape) × (s.Idx → EReal)))
    (h : Shape.Concatenates (xs.map (·.1)) t a) (hxs : ∀ p ∈ xs, AllFin p.2) : AllFin (concatenate t a xs h) := by
  intro j
  obtain ⟨p, hp, i, hi⟩ := concatenate_entry t a xs h j
  rw [hi]; exact hxs p hp i

/-- The concatenation of two pieces. -/
theorem allFin_concatenate₂ (t : Shape) (a : Fin t.rank) {s₁ s₂ : Shape} {x₁ : s₁.Idx → EReal} {x₂ : s₂.Idx → EReal}
    (h : Shape.Concatenates (([⟨s₁, x₁⟩, ⟨s₂, x₂⟩] : List ((s : Shape) × (s.Idx → EReal))).map (·.1)) t a)
    (h₁ : AllFin x₁) (h₂ : AllFin x₂) : AllFin (concatenate t a [⟨s₁, x₁⟩, ⟨s₂, x₂⟩] h) := by
  refine allFin_concatenate t a _ h fun p hp => ?_
  rcases List.mem_cons.1 hp with rfl | hp
  · exact h₁
  · rcases List.mem_cons.1 hp with rfl | hp
    · exact h₂
    · exact absurd hp (List.not_mem_nil)

/-- Positivity, non-negativity and being nonzero pass through a broadcast as well. -/
theorem broadcastInDim_pos (t : Shape) (dims : Fin s.rank → Fin t.rank) (h : s.BroadcastsInDim t dims)
    {x : s.Idx → EReal} (hx : ∀ i, 0 < x i) (j : t.Idx) : 0 < broadcastInDim t dims h x j := hx _

theorem broadcastInDim_nonneg (t : Shape) (dims : Fin s.rank → Fin t.rank) (h : s.BroadcastsInDim t dims)
    {x : s.Idx → EReal} (hx : ∀ i, 0 ≤ x i) (j : t.Idx) : 0 ≤ broadcastInDim t dims h x j := hx _

theorem broadcastInDim_ne_zero (t : Shape) (dims : Fin s.rank → Fin t.rank) (h : s.BroadcastsInDim t dims)
    {x : s.Idx → EReal} (hx : ∀ i, x i ≠ 0) (j : t.Idx) : broadcastInDim t dims h x j ≠ 0 := hx _

/-- A broadcast of a vector all of whose entries are one value has that value everywhere. -/
theorem broadcastInDim_eq_const (t : Shape) (dims : Fin s.rank → Fin t.rank) (h : s.BroadcastsInDim t dims)
    {x : s.Idx → α} {c : α} (hx : ∀ i, x i = c) (j : t.Idx) : broadcastInDim t dims h x j = c := hx _

end Reindex

/-! ### Quotients, reciprocal square roots, exponentials -/

section Scalars

/-- The quotient of a finite extended real by a nonzero finite one is finite. -/
theorem fin_div {x y : EReal} (hx : Fin' x) (hy : Fin' y) (h0 : y ≠ 0) : Fin' (Ideal.div x y) := by
  obtain ⟨a, rfl⟩ := hx.exists_real
  obtain ⟨b, rfl⟩ := hy.exists_real
  have hb : b ≠ 0 := fun h => h0 (by rw [h, EReal.coe_zero])
  rw [Ideal.div_coe hb, ← EReal.coe_mul]; exact Fin'.coe _

/-- The quotient of a real by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem div_nonneg_of_fin {x y : EReal} (hx : Fin' x) (hy : Fin' y) (hx0 : 0 ≤ x) (hy0 : 0 < y) :
    0 ≤ Ideal.div x y := by
  obtain ⟨a, ha, rfl⟩ := fin_exists_nonneg_real hx hx0
  obtain ⟨b, hb, rfl⟩ := fin_exists_pos_real hy hy0
  rw [div_coe_coe a hb.ne']
  exact EReal.coe_nonneg.mpr (div_nonneg ha hb.le)

theorem div_pos_of_fin {x y : EReal} (hx : Fin' x) (hy : Fin' y) (hx0 : 0 < x) (hy0 : 0 < y) :
    0 < Ideal.div x y := by
  obtain ⟨a, ha, rfl⟩ := fin_exists_pos_real hx hx0
  obtain ⟨b, hb, rfl⟩ := fin_exists_pos_real hy hy0
  rw [div_coe_coe a hb.ne']
  exact EReal.coe_pos.mpr (div_pos ha hb)

/-- The reciprocal square root of a positive real is a positive real. -/
theorem fin_rsqrt {x : EReal} (hx : Fin' x) (h0 : 0 < x) : Fin' (Ideal.rsqrt x) ∧ 0 < Ideal.rsqrt x := by
  obtain ⟨r, hr, rfl⟩ := fin_exists_pos_real hx h0
  rw [Ideal.rsqrt_coe, if_neg (not_lt.mpr hr.le), if_neg hr.ne']
  exact ⟨Fin'.coe _, EReal.coe_pos.mpr (inv_pos.mpr (Real.sqrt_pos.mpr hr))⟩

/-- The exponential of a real is a positive real. -/
theorem fin_exp {x : EReal} (hx : Fin' x) : Fin' (Ideal.exp x) ∧ 0 < Ideal.exp x := by
  obtain ⟨r, rfl⟩ := hx.exists_real
  rw [Ideal.exp_coe]
  exact ⟨Fin'.coe _, EReal.coe_pos.mpr (Real.exp_pos r)⟩

end Scalars

section Unary
variable {s : Shape} {φ : FTy}

theorem hostDivf_apply (a b : FVec Ideal s φ) (i : s.Idx) : Host.divf (F := Ideal) a b i = Ideal.div (a i) (b i) := rfl
theorem hostRsqrt_apply (v : FVec Ideal s φ) (i : s.Idx) : Host.rsqrt (F := Ideal) v i = Ideal.rsqrt (v i) := rfl
theorem hostExp_apply (v : FVec Ideal s φ) (i : s.Idx) : Host.exp (F := Ideal) v i = Ideal.exp (v i) := rfl

/-- A host quotient of finite entries by finite nonzero entries is finite. -/
theorem allFin_hostDivf {a b : FVec Ideal s φ} (ha : AllFin a) (hb : AllFin b) (hb0 : ∀ i, b i ≠ 0) :
    AllFin (Host.divf (F := Ideal) a b) := fun i => fin_div (ha i) (hb i) (hb0 i)

/-- A host quotient by a vector all of whose entries are one nonzero real (the broadcast of a constant). -/
theorem allFin_hostDivf_const {a b : FVec Ideal s φ} {c : ℝ} (ha : AllFin a) (hb : ∀ i, b i = (c : EReal))
    (hc : c ≠ 0) : AllFin (Host.divf (F := Ideal) a b) := fun i =>
  fin_div (ha i) (by rw [hb i]; exact Fin'.coe c) (by rw [hb i]; exact_mod_cast hc)

theorem hostDivf_nonneg {a b : FVec Ideal s φ} (ha : AllFin a) (hb : AllFin b) (ha0 : ∀ i, 0 ≤ a i)
    (hb0 : ∀ i, 0 < b i) (i : s.Idx) : 0 ≤ Host.divf (F := Ideal) a b i :=
  div_nonneg_of_fin (ha i) (hb i) (ha0 i) (hb0 i)

theorem hostDivf_pos {a b : FVec Ideal s φ} (ha : AllFin a) (hb : AllFin b) (ha0 : ∀ i, 0 < a i)
    (hb0 : ∀ i, 0 < b i) (i : s.Idx) : 0 < Host.divf (F := Ideal) a b i :=
  div_pos_of_fin (ha i) (hb i) (ha0 i) (hb0 i)

/-- Non-negative finite entries divided by one positive real stay non-negative. -/
theorem hostDivf_const_nonneg {a b : FVec Ideal s φ} {c : ℝ} (ha : AllFin a) (ha0 : ∀ i, 0 ≤ a i)
    (hb : ∀ i, b i = (c : EReal)) (hc : 0 < c) (i : s.Idx) : 0 ≤ Host.divf (F := Ideal) a b i :=
  div_nonneg_of_fin (ha i) (by rw [hb i]; exact Fin'.coe c) (ha0 i) (by rw [hb i]; exact EReal.coe_pos.mpr hc)

/-- The host's reciprocal square root of positive reals: positive reals. -/
theorem allFin_hostRsqrt {v : FVec Ideal s φ} (hv : AllFin v) (h0 : ∀ i, 0 < v i) : AllFin (Host.rsqrt (F := Ideal) v) :=
  fun i => (fin_rsqrt (hv i) (h0 i)).1

theorem hostRsqrt_pos {v : FVec Ideal s φ} (hv : AllFin v) (h0 : ∀ i, 0 < v i) (i : s.Idx) :
    0 < Host.rsqrt (F := Ideal) v i := (fin_rsqrt (hv i) (h0 i)).2

/-- The host's exponential of reals: positive reals. -/
theorem allFin_hostExp {v : FVec Ideal s φ} (hv : AllFin v) : AllFin (Host.exp (F := Ideal) v) :=
  fun i => (fin_exp (hv i)).1

theorem hostExp_pos {v : FVec Ideal s φ} (hv : AllFin v) (i : s.Idx) : 0 < Host.exp (F := Ideal) v i :=
  (fin_exp (hv i)).2

/-- A sum of a non-negative and a positive vector (a variance plus a positive constant) is positive. -/
theorem addf_pos_of_nonneg_of_pos {a b : FVec Ideal s φ} (ha : ∀ i, 0 ≤ a i) (hb : ∀ i, 0 < b i) (i : s.Idx) :
    0 < addf (F := Ideal) a b i := add_pos_of_nonneg_of_pos' (ha i) (hb i)

end Unary

/-! ### A maximum along axes -/

section ReduceMax
variable {s t u : Shape} {φ : FTy} {axes : List (Fin s.rank)}

/-- An entry of a host maximum along axes: the maximum, from the initial value, over the entries that reduce
    to it, in any order. -/
theorem reduceMax_apply (x : FVec Ideal s φ) (init : u.Idx → Ideal φ) (h : s.ReducesTo axes t) (hu : 0 < u.numel)
    (j : t.Idx) :
    Host.reduce (FloatOps.maximumf (F := Ideal) (φ := φ)) x init h hu j
      = (Finset.univ.filter fun i => h.drop i = j).fold max (init (Shape.Idx.first hu)) x :=
  Host.reduce_eq_fold _ x init h hu j

/-- A host maximum along axes of finite entries, from an initial value that is not plus infinity (minus
    infinity, usually), is finite wherever some entry reduces to the index. -/
theorem allFin_reduceMax {x : FVec Ideal s φ} {init : u.Idx → Ideal φ} (h : s.ReducesTo axes t) (hu : 0 < u.numel)
    (hx : AllFin x) (hinit : init (Shape.Idx.first hu) ≠ ⊤) (hsurj : ∀ j, ∃ i, h.drop i = j) :
    AllFin (Host.reduce (FloatOps.maximumf (F := Ideal) (φ := φ)) x init h hu) := by
  intro j
  rw [reduceMax_apply]
  constructor
  · refine ne_of_lt ((Finset.fold_max_lt _).2 ⟨lt_top_iff_ne_top.mpr hinit, fun i _ => lt_top_iff_ne_top.mpr (hx i).1⟩)
  · obtain ⟨i, hi⟩ := hsurj j
    exact ne_of_gt ((Finset.lt_fold_max _).2 (Or.inr ⟨i, Finset.mem_filter.2 ⟨Finset.mem_univ _, hi⟩,
      bot_lt_iff_ne_bot.mpr (hx i).2⟩))

/-- The same along ONE axis of positive extent. -/
theorem allFin_reduceMax_single {a : Fin s.rank} {x : FVec Ideal s φ} {init : u.Idx → Ideal φ}
    (h' : s.ReducesTo [a] t) (h : s.Reduces [a] t) (ha : 0 < s.size a) (hu : 0 < u.numel) (hx : AllFin x)
    (hinit : init (Shape.Idx.first hu) ≠ ⊤) :
    AllFin (Host.reduce (FloatOps.maximumf (F := Ideal) (φ := φ)) x init h' hu) :=
  allFin_reduceMax h' hu hx hinit (exists_drop_eq h' h ha)

/-- Every entry that reduces to an index is at most the maximum there. -/
theorem le_reduceMax (x : FVec Ideal s φ) (init : u.Idx → Ideal φ) (h : s.ReducesTo axes t) (hu : 0 < u.numel)
    (i : s.Idx) : x i ≤ Host.reduce (FloatOps.maximumf (F := Ideal) (φ := φ)) x init h hu (h.drop i) := by
  rw [reduceMax_apply]
  exact (Finset.le_fold_max _).2 (Or.inr ⟨i, Finset.mem_filter.2 ⟨Finset.mem_univ _, rfl⟩, le_rfl⟩)

/-- A maximum against a vector of minus infinities is the other operand. -/
theorem maximumf_bot_left {b w : FVec Ideal s φ} (hb : ∀ i, b i = ⊥) : maximumf (F := Ideal) b w = w :=
  funext fun i => by
    show max (b i) (w i) = w i
    rw [hb i]; exact max_bot_left _

theorem maximumf_bot_right {b w : FVec Ideal s φ} (hb : ∀ i, b i = ⊥) : maximumf (F := Ideal) w b = w :=
  funext fun i => by
    show max (w i) (b i) = w i
    rw [hb i]; exact max_bot_right _

end ReduceMax

/-! ### The normalisation of a row of positive reals by its sum -/

section Normalise
variable {s t u : Shape} {φ : FTy} {axes : List (Fin s.rank)}

/-- The sum along axes, from zero, of positive reals is a vector of positive reals, provided every result
    index has some entry reducing to it. -/
theorem reduceAdd_pos_fin {e : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j) :
    AllFin (Host.reduceAdd (F := Ideal) e init h hu) ∧ ∀ j, 0 < Host.reduceAdd (F := Ideal) e init h hu j :=
  ⟨allFin_reduceAdd h hu he (by rw [hinit]; exact fin_zero), fun j => reduceAdd_pos h hu hpos hinit j (hsurj j)⟩

/-- Positive reals divided by (a re-indexing of) their sums along axes: real, and positive. `b` is the
    divisor as the program builds it; all that is used of it is that each of its entries is an entry of the
    vector of sums. -/
theorem normalise_fin_pos {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) :
    AllFin (Host.divf (F := Ideal) e b) ∧ ∀ i, 0 < Host.divf (F := Ideal) e b i := by
  obtain ⟨hS, hS0⟩ := reduceAdd_pos_fin h hu he hpos hinit hsurj
  have hbF : AllFin b := hb.forall Fin' hS
  have hb0 : ∀ i, 0 < b i := hb.forall (fun y => 0 < y) hS0
  exact ⟨allFin_hostDivf he hbF fun i => (hb0 i).ne', hostDivf_pos he hbF hpos hb0⟩

/-- The normalised row has real entries. -/
theorem allFin_normalise {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) : AllFin (Host.divf (F := Ideal) e b) :=
  (normalise_fin_pos h hu he hpos hinit hsurj hb).1

/-- The normalised row has positive entries. -/
theorem normalise_pos {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) (i : s.Idx) : 0 < Host.divf (F := Ideal) e b i :=
  (normalise_fin_pos h hu he hpos hinit hsurj hb).2 i

/-- An entry of a normalised row is that entry over the sum it reduces to, when the divisor reads at each
    entry the sum of its own row (`hb`). -/
theorem normalise_entry {e b : FVec Ideal s φ} {init : u.Idx → Ideal φ} (h : s.ReducesTo axes t) (hu : 0 < u.numel)
    (hb : ∀ i, b i = Host.reduceAdd (F := Ideal) e init h hu (h.drop i)) (i : s.Idx) :
    Host.divf (F := Ideal) e b i = Ideal.div (e i) (Host.reduceAdd (F := Ideal) e init h hu (h.drop i)) := by
  rw [hostDivf_apply, hb i]

end Normalise

/-! ### Constants -/

section Constants

theorem constant_apply (s : Shape) (φ : FTy) (w : BitVec φ.bits) (i : s.Idx) :
    constant (F := Ideal) s φ w i = Ideal.ofBits φ w := rfl

/-- A constant whose word denotes a real has finite entries. -/
theorem allFin_constant (s : Shape) {φ : FTy} {w : BitVec φ.bits} {c : ℝ} (hc : Ideal.ofBits φ w = (c : EReal)) :
    AllFin (constant (F := Ideal) s φ w) := fun _ => by
  show Fin' (Ideal.ofBits φ w)
  rw [hc]; exact Fin'.coe c

/-- The word of `0.0` denotes zero. -/
theorem ofBits_zero : Ideal.ofBits .f32 0x00000000#32 = 0 := Ideal.ofBits_zero_f32

theorem ofBits_zero_coe : Ideal.ofBits .f32 0x00000000#32 = ((0 : ℝ) : EReal) := by
  rw [ofBits_zero, EReal.coe_zero]

/-- The word of `8192.0` denotes the real 8192. -/
theorem ofBits_8192 : Ideal.ofBits .f32 0x46000000#32 = ((8192 : ℝ) : EReal) := by
  simp [Ideal.ofBits, Ideal.ieee, -EReal.coe_mul]; norm_num

/-- The word of `20.0` denotes the real 20. -/
theorem ofBits_20 : Ideal.ofBits .f32 0x41A00000#32 = ((20 : ℝ) : EReal) := by
  simp [Ideal.ofBits, Ideal.ieee, -EReal.coe_mul]; norm_num

/-- The single-precision number nearest to one hundred-thousandth is `10995116 · 2⁻⁴⁰`. -/
theorem ofBits_1em5 : Ideal.ofBits .f32 0x3727C5AC#32 = ((10995116 * (2 : ℝ) ^ (-40 : Int) : ℝ) : EReal) := by
  simp [Ideal.ofBits, Ideal.ieee, -EReal.coe_mul]

theorem ofBits_1em5_pos : ∃ r : ℝ, 0 < r ∧ Ideal.ofBits .f32 0x3727C5AC#32 = (r : EReal) :=
  ⟨_, by positivity, ofBits_1em5⟩

/-- The word of minus infinity denotes it. -/
theorem ofBits_neg_inf : Ideal.ofBits .f32 0xFF800000#32 = ⊥ := by
  simp [Ideal.ofBits, Ideal.ieee]

theorem constant_neg_inf_apply (s : Shape) (i : s.Idx) : constant (F := Ideal) s .f32 0xFF800000#32 i = ⊥ :=
  ofBits_neg_inf

theorem constant_zero_apply (s : Shape) (i : s.Idx) : constant (F := Ideal) s .f32 0x00000000#32 i = 0 :=
  ofBits_zero

theorem constant_8192_apply (s : Shape) (i : s.Idx) :
    constant (F := Ideal) s .f32 0x46000000#32 i = ((8192 : ℝ) : EReal) := ofBits_8192

theorem constant_20_apply (s : Shape) (i : s.Idx) :
    constant (F := Ideal) s .f32 0x41A00000#32 i = ((20 : ℝ) : EReal) := ofBits_20

/-- A signed integer read as a float is a real number; the integer zero reads as zero. -/
theorem allFin_sitofp {s : Shape} {w : Nat} (φ : FTy) (x : IVec s w) : AllFin (sitofp (F := Ideal) φ x) :=
  fun _ => Fin'.coe _

theorem sitofp_zero_apply {s : Shape} (φ : FTy) (x : IVec s 32) (i : s.Idx) (hx : x i = 0#32) :
    sitofp (F := Ideal) φ x i = ((0 : ℝ) : EReal) := by
  show (((x i).toInt : ℝ) : EReal) = ((0 : ℝ) : EReal)
  rw [hx]; simp

/-- A selection between two vectors with finite entries has finite entries. -/
theorem allFin_select {s : Shape} (c : IVec s 1) {a b : s.Idx → EReal} (ha : AllFin a) (hb : AllFin b) :
    AllFin (select c a b) := fun i => by
  show Fin' (if c i = 1 then a i else b i)
  split <;> [exact ha i; exact hb i]

/-- Where the condition holds a selection is its first operand, whatever the second. -/
theorem select_of_true {s : Shape} {α : Type} (c : IVec s 1) (a b : s.Idx → α) (hc : ∀ i, c i = 1) : select c a b = a :=
  funext fun i => by
    show (if c i = 1 then a i else b i) = a i
    rw [if_pos (hc i)]

end Constants

/-! ### The same facts on the shapes a printed program writes

A proof about a printed program meets these operations applied to broadcasts of constants; stated on that
shape the lemmas apply without unfolding anything. -/

section Printed

/-- The maximum against a broadcast of the constant minus infinity is the other operand. -/
theorem maximumf_bcast_neg_inf_left {s t : Shape} (dims : Fin s.rank → Fin t.rank) (h : s.BroadcastsInDim t dims)
    (w : FVec Ideal t .f32) :
    maximumf (F := Ideal) (broadcastInDim t dims h (constant (F := Ideal) s .f32 0xFF800000#32)) w = w :=
  maximumf_bot_left fun _ => ofBits_neg_inf

theorem maximumf_bcast_neg_inf_right {s t : Shape} (dims : Fin s.rank → Fin t.rank) (h : s.BroadcastsInDim t dims)
    (w : FVec Ideal t .f32) :
    maximumf (F := Ideal) w (broadcastInDim t dims h (constant (F := Ideal) s .f32 0xFF800000#32)) = w :=
  maximumf_bot_right fun _ => ofBits_neg_inf

/-- A rectifier: the maximum against a broadcast of the constant zero keeps finite entries finite and is
    non-negative. -/
theorem allFin_maximumf_bcast_zero {s t : Shape} (dims : Fin s.rank → Fin t.rank) (h : s.BroadcastsInDim t dims)
    {w : FVec Ideal t .f32} (hw : AllFin w) :
    AllFin (maximumf (F := Ideal) w (broadcastInDim t dims h (constant (F := Ideal) s .f32 0x00000000#32))) :=
  allFin_maximumf hw fun _ => by
    show Fin' (Ideal.ofBits .f32 0x00000000#32)
    rw [ofBits_zero]; exact fin_zero

theorem maximumf_bcast_zero_nonneg {s t : Shape} (dims : Fin s.rank → Fin t.rank) (h : s.BroadcastsInDim t dims)
    (w : FVec Ideal t .f32) (i : t.Idx) :
    0 ≤ maximumf (F := Ideal) w (broadcastInDim t dims h (constant (F := Ideal) s .f32 0x00000000#32)) i :=
  maximumf_nonneg_right _ _ (fun _ => by
    show 0 ≤ Ideal.ofBits .f32 0x00000000#32
    rw [ofBits_zero]) i

/-- A host quotient by a broadcast of a constant that denotes a nonzero real. -/
theorem allFin_hostDivf_bcast_constant {s t : Shape} {φ : FTy} (dims : Fin s.rank → Fin t.rank)
    (h : s.BroadcastsInDim t dims) {w : BitVec φ.bits} {c : ℝ} (hw : Ideal.ofBits φ w = (c : EReal)) (hc : c ≠ 0)
    {a : FVec Ideal t φ} (ha : AllFin a) :
    AllFin (Host.divf (F := Ideal) a (broadcastInDim t dims h (constant (F := Ideal) s φ w))) :=
  allFin_hostDivf_const ha (fun _ => hw) hc

/-- ... and it is non-negative when the entries are and the real is positive. -/
theorem hostDivf_bcast_constant_nonneg {s t : Shape} {φ : FTy} (dims : Fin s.rank → Fin t.rank)
    (h : s.BroadcastsInDim t dims) {w : BitVec φ.bits} {c : ℝ} (hw : Ideal.ofBits φ w = (c : EReal)) (hc : 0 < c)
    {a : FVec Ideal t φ} (ha : AllFin a) (ha0 : ∀ i, 0 ≤ a i) (i : t.Idx) :
    0 ≤ Host.divf (F := Ideal) a (broadcastInDim t dims h (constant (F := Ideal) s φ w)) i :=
  hostDivf_const_nonneg ha ha0 (fun _ => hw) hc i

/-- A sum with a broadcast of a constant that denotes a positive real, of non-negative entries, is positive. -/
theorem addf_bcast_constant_pos {s t : Shape} {φ : FTy} (dims : Fin s.rank → Fin t.rank)
    (h : s.BroadcastsInDim t dims) {w : BitVec φ.bits} {c : ℝ} (hw : Ideal.ofBits φ w = (c : EReal)) (hc : 0 < c)
    {a : FVec Ideal t φ} (ha0 : ∀ i, 0 ≤ a i) (i : t.Idx) :
    0 < addf (F := Ideal) a (broadcastInDim t dims h (constant (F := Ideal) s φ w)) i :=
  addf_pos_of_nonneg_of_pos ha0 (fun _ => by
    show 0 < Ideal.ofBits φ w
    rw [hw]; exact EReal.coe_pos.mpr hc) i

theorem allFin_bcast_constant {s t : Shape} {φ : FTy} (dims : Fin s.rank → Fin t.rank)
    (h : s.BroadcastsInDim t dims) {w : BitVec φ.bits} {c : ℝ} (hw : Ideal.ofBits φ w = (c : EReal)) :
    AllFin (broadcastInDim t dims h (constant (F := Ideal) s φ w)) :=
  allFin_broadcastInDim t dims h (allFin_constant s hw)

/-- A constant minus the integer zero read as a float: the constant. (A count `n - 0` of a variance.) -/
theorem subf_constant_sitofp_zero_apply (s : Shape) {w : BitVec 32} {c : ℝ} (hw : Ideal.ofBits .f32 w = (c : EReal))
    (i : s.Idx) :
    subf (F := Ideal) (constant (F := Ideal) s .f32 w) (sitofp (F := Ideal) .f32 (constantI s 32 0#32)) i = (c : EReal) := by
  show Ideal.ofBits .f32 w - ((((0#32 : BitVec 32).toInt : ℝ)) : EReal) = (c : EReal)
  rw [hw]; simp

/-- The comparison "greater than" answers one where it holds. -/
theorem cmpf_ogt_eq_one {s : Shape} {φ : FTy} (x y : FVec Ideal s φ) (i : s.Idx) (h : y i < x i) :
    cmpf (F := Ideal) .ogt x y i = 1#1 := by
  show BitVec.ofBool (decide (y i < x i)) = 1#1
  rw [decide_eq_true h]; rfl

end Printed

end LibIdealFinite

end
-- ==== Proof.LibTileSums.lean ====
/-
  Finite sums over consecutive naturals, regrouped.

  A sum over the first `n * b` naturals can be taken in `n` consecutive blocks of `b` terms each, block `k`
  holding the naturals `b * k, …, b * k + (b - 1)`; and a sum over the first `b + b` naturals is the sum over
  its lower half plus the sum over its upper half. Both hold in any commutative additive monoid, since there a
  finite sum depends neither on the order nor on the grouping of its terms. The summand is a function of the
  natural number itself, so the statements say nothing about how the index types are spelt.
-/
import Mathlib.Algebra.BigOperators.Fin
import Mathlib.Data.Fintype.BigOperators

namespace LibTileSums

open Finset

variable {M : Type*} [AddCommMonoid M]

/-- The sum of `g` over the naturals below `n * b` is the sum, over the `n` blocks `k`, of the sum of `g`
    over the `b` naturals `b * k + j` (`j < b`) of block `k`: by induction on the number of blocks, the last
    block being split off by `Finset.sum_range_add`. -/
theorem sum_range_tiles (n b : ℕ) (g : ℕ → M) :
    ∑ i ∈ range (n * b), g i = ∑ k ∈ range n, ∑ j ∈ range b, g (b * k + j) := by
  induction n with
  | zero => simp
  | succ n ih => rw [Nat.succ_mul, sum_range_add, ih, sum_range_succ, Nat.mul_comm n b]

/-- A sum over `N = n * b` consecutive naturals, written over `Fin N`, taken in `n` blocks of `b`: the block
    index `k` runs over `range n` and the position `j` inside a block over `Fin b`, the term being `g` at the
    natural `b * k + j`. -/
theorem sum_tiles (n b N : ℕ) (hN : N = n * b) (g : ℕ → M) :
    ∑ c : Fin N, g c.val = ∑ k ∈ Finset.range n, ∑ j : Fin b, g (b * k + j.val) := by
  subst hN
  rw [Fin.sum_univ_eq_sum_range g (n * b), sum_range_tiles]
  exact sum_congr rfl fun k _ => (Fin.sum_univ_eq_sum_range (fun j => g (b * k + j)) b).symm

/-- A sum over `b + b` consecutive naturals, written over `Fin (b + b)`, is the sum over the lower half (the
    naturals `d`, `d < b`) plus the sum over the upper half (the naturals `b + d`, `d < b`). -/
theorem sum_halves (b : ℕ) (g : ℕ → M) :
    ∑ j : Fin (b + b), g j.val = ∑ d : Fin b, g d.val + ∑ d : Fin b, g (b + d.val) := by
  rw [Fin.sum_univ_add]
  simp only [Fin.val_castAdd, Fin.val_natAdd]

end LibTileSums
-- ==== Proof.LibBatchMoments.lean ====
/-
  The mean and the variance of a batch at exact arithmetic, and a column sum taken block by block.

  Let h be a finite family of real numbers with n > 0 members, S = ∑ h its sum, Q = ∑ h² the sum of its squares
  and μ = S / n its mean. The mean of the squared deviations is the mean of the squares minus the square of the
  mean:

      (∑ (h − μ)²) / n  =  Q / n − μ² ,

  because ∑ (h − μ)² = Q − 2 μ S + n μ² and S = n μ. Both sides are a non-negative real, so adding a positive
  real to either gives a positive real, which has a positive real reciprocal square root.

  On the extended reals the same holds as long as every member of the family is a real number (neither
  infinity): choose the real numbers, push the inclusion of the reals out through the sums, the products and the
  quotient by n, and the statement is the real one. With an infinite member it fails (∞ − ∞ appears).
  A program's sum along an axis reads "initial value + ∑", the initial value being zero, so every statement is
  given a second time with such a value in front of each sum.

  The second part: an accumulator that starts at zero and receives, block after block, the sum of the block's
  terms ends at the sum of all the terms. This uses only that the addition is commutative and associative, so
  it holds on the extended reals with no finiteness hypothesis.
-/
import Idealize.ShloMosaic.PureOps.Ideal.Laws
import proofs.«124260_j60301340836383_2_alg».proof.Proof.LibERealMatrix
import proofs.«124260_j60301340836383_2_alg».proof.Proof.LibIdealFinite
import proofs.«124260_j60301340836383_2_alg».proof.Proof.LibTileSums

noncomputable section

namespace LibBatchMoments

open Idealize.ShloMosaic LibERealMatrix LibIdealFinite Finset

/-! ### The identity on the reals -/

section Real
variable {ι : Type*}

/-- The sum of the squared deviations from any number m: ∑ (g − m)² = ∑ g² − 2 m ∑ g + n m², n the number
    of terms. -/
theorem real_sum_sq_dev (s : Finset ι) (g : ι → ℝ) {n : ℝ} (hcard : (s.card : ℝ) = n) (m : ℝ) :
    ∑ i ∈ s, (g i - m) * (g i - m) = (∑ i ∈ s, g i * g i) - 2 * m * (∑ i ∈ s, g i) + n * (m * m) := by
  have hexp : ∀ i, (g i - m) * (g i - m) = g i * g i - 2 * m * g i + m * m := fun i => by ring
  simp only [hexp]
  rw [Finset.sum_add_distrib, Finset.sum_sub_distrib, ← Finset.mul_sum, Finset.sum_const, nsmul_eq_mul, hcard]

/-- The mean of the squared deviations from the mean is the mean of the squares minus the square of the mean. -/
theorem real_mean_sq_dev (s : Finset ι) (g : ι → ℝ) {n : ℝ} (hn : n ≠ 0) (hcard : (s.card : ℝ) = n) :
    (∑ i ∈ s, (g i - (∑ i ∈ s, g i) / n) * (g i - (∑ i ∈ s, g i) / n)) / n
      = (∑ i ∈ s, g i * g i) / n - (∑ i ∈ s, g i) / n * ((∑ i ∈ s, g i) / n) := by
  rw [real_sum_sq_dev s g hcard]
  field_simp
  ring

/-- A mean of squares of real numbers is non-negative. -/
theorem real_mean_sq_nonneg (s : Finset ι) (g : ι → ℝ) {n : ℝ} (hn : 0 < n) (m : ℝ) :
    0 ≤ (∑ i ∈ s, (g i - m) * (g i - m)) / n :=
  div_nonneg (Finset.sum_nonneg fun i _ => mul_self_nonneg _) hn.le

end Real

/-! ### The identity on the extended reals, for a family of real numbers -/

section Extended
variable {ι : Type*}

/-- The word of 50000.0 in single precision denotes the real 50000. -/
theorem ofBits_50000 : Ideal.ofBits .f32 0x47435000#32 = ((50000 : ℝ) : EReal) := by
  simp [Ideal.ofBits, Ideal.ieee, -EReal.coe_mul]; norm_num

/-- The mean of finitely many real numbers, the quotient of their sum by a nonzero real, is a real number. -/
theorem fin_mean (s : Finset ι) (h : ι → EReal) (hh : ∀ i, Fin' (h i)) {N : EReal} {n : ℝ} (hN : N = (n : EReal))
    (hn : n ≠ 0) : Fin' (Ideal.div (∑ i ∈ s, h i) N) :=
  fin_div (Fin'.sum s h hh) (by rw [hN]; exact Fin'.coe n) (by rw [hN]; exact_mod_cast hn)

/-- The mean of the squared deviations of real numbers from ANY real number μ, the divisor a positive real:
    a real number, and non-negative. -/
theorem mean_sq_dev_fin_nonneg (s : Finset ι) (h : ι → EReal) (hh : ∀ i, Fin' (h i)) {N : EReal} {n : ℝ}
    (hN : N = (n : EReal)) (hn : 0 < n) {μ : EReal} (hμ : Fin' μ) :
    Fin' (Ideal.div (∑ i ∈ s, (h i - μ) * (h i - μ)) N) ∧ 0 ≤ Ideal.div (∑ i ∈ s, (h i - μ) * (h i - μ)) N := by
  have hd : ∀ i, Fin' ((h i - μ) * (h i - μ)) := fun i => (fin_sub (hh i) hμ).mul (fin_sub (hh i) hμ)
  have hNf : Fin' N := by rw [hN]; exact Fin'.coe n
  have hN0 : 0 < N := by rw [hN]; exact EReal.coe_pos.mpr hn
  exact ⟨fin_div (Fin'.sum s _ hd) hNf hN0.ne',
    div_nonneg_of_fin (Fin'.sum s _ hd) hNf (Finset.sum_nonneg fun i _ => fin_mul_self_nonneg (fin_sub (hh i) hμ)) hN0⟩

/-- THE VARIANCE LAW. For real numbers h i (i in s), n > 0 their number and μ their mean (∑ h) / n:
    the mean of the squared deviations from μ is the mean of the squares minus μ². -/
theorem mean_sq_dev_eq (s : Finset ι) (h : ι → EReal) (hh : ∀ i, Fin' (h i)) {N : EReal} {n : ℝ}
    (hN : N = (n : EReal)) (hn : 0 < n) (hcard : (s.card : ℝ) = n) {μ : EReal}
    (hμ : μ = Ideal.div (∑ i ∈ s, h i) N) :
    Ideal.div (∑ i ∈ s, (h i - μ) * (h i - μ)) N = Ideal.div (∑ i ∈ s, h i * h i) N - μ * μ := by
  obtain ⟨g, hg⟩ := exists_real_family h hh
  have hn0 : n ≠ 0 := hn.ne'
  have hS : ∑ i ∈ s, h i = ((∑ i ∈ s, g i : ℝ) : EReal) := by
    rw [coe_sum]; exact Finset.sum_congr rfl fun i _ => hg i
  have hμ' : μ = (((∑ i ∈ s, g i) / n : ℝ) : EReal) := by
    rw [hμ, hS, hN, div_coe_coe _ hn0]
  have hD : ∑ i ∈ s, (h i - μ) * (h i - μ)
      = ((∑ i ∈ s, (g i - (∑ i ∈ s, g i) / n) * (g i - (∑ i ∈ s, g i) / n) : ℝ) : EReal) := by
    rw [coe_sum]
    refine Finset.sum_congr rfl fun i _ => ?_
    rw [hg i, hμ', ← EReal.coe_sub, ← EReal.coe_mul]
  have hQ : ∑ i ∈ s, h i * h i = ((∑ i ∈ s, g i * g i : ℝ) : EReal) := by
    rw [coe_sum]
    refine Finset.sum_congr rfl fun i _ => ?_
    rw [hg i, ← EReal.coe_mul]
  rw [hD, hQ, hN, div_coe_coe _ hn0, div_coe_coe _ hn0, hμ', ← EReal.coe_mul, ← EReal.coe_sub]
  exact congrArg _ (real_mean_sq_dev s g hn0 hcard)

/-- Mean of the squares minus the square of the mean: a real number, and non-negative (it is a mean of squared
    deviations). -/
theorem mean_sq_sub_sq_mean_fin_nonneg (s : Finset ι) (h : ι → EReal) (hh : ∀ i, Fin' (h i)) {N : EReal} {n : ℝ}
    (hN : N = (n : EReal)) (hn : 0 < n) (hcard : (s.card : ℝ) = n) {μ : EReal}
    (hμ : μ = Ideal.div (∑ i ∈ s, h i) N) :
    Fin' (Ideal.div (∑ i ∈ s, h i * h i) N - μ * μ) ∧ 0 ≤ Ideal.div (∑ i ∈ s, h i * h i) N - μ * μ := by
  rw [← mean_sq_dev_eq s h hh hN hn hcard hμ]
  exact mean_sq_dev_fin_nonneg s h hh hN hn (by rw [hμ]; exact fin_mean s h hh hN hn.ne')

/-- A non-negative real plus a positive real: a positive real, whose reciprocal square root is a positive real.
    (A variance plus the small constant that keeps the normalisation away from zero.) -/
theorem fin_pos_add {v e : EReal} (hv : Fin' v) (hv0 : 0 ≤ v) (he : Fin' e) (he0 : 0 < e) :
    Fin' (v + e) ∧ 0 < v + e :=
  ⟨hv.add he, add_pos_of_nonneg_of_pos' hv0 he0⟩

theorem fin_rsqrt_add {v e : EReal} (hv : Fin' v) (hv0 : 0 ≤ v) (he : Fin' e) (he0 : 0 < e) :
    Fin' (Ideal.rsqrt (v + e)) ∧ 0 < Ideal.rsqrt (v + e) :=
  fin_rsqrt (fin_pos_add hv hv0 he he0).1 (fin_pos_add hv hv0 he he0).2

/-! #### The same with an initial value, which is zero, in front of each sum -/

/-- The variance law with each sum read as "initial value + ∑", the three initial values being zero. -/
theorem mean_sq_dev_eq_init (s : Finset ι) (h : ι → EReal) (hh : ∀ i, Fin' (h i)) {N : EReal} {n : ℝ}
    (hN : N = (n : EReal)) (hn : 0 < n) (hcard : (s.card : ℝ) = n) {z₁ z₂ z₃ : EReal} (h₁ : z₁ = 0) (h₂ : z₂ = 0)
    (h₃ : z₃ = 0) {μ : EReal} (hμ : μ = Ideal.div (z₁ + ∑ i ∈ s, h i) N) :
    Ideal.div (z₂ + ∑ i ∈ s, (h i - μ) * (h i - μ)) N = Ideal.div (z₃ + ∑ i ∈ s, h i * h i) N - μ * μ := by
  rw [h₁, zero_add] at hμ
  rw [h₂, h₃, zero_add, zero_add]
  exact mean_sq_dev_eq s h hh hN hn hcard hμ

/-- The variance law with 0 + in front of each sum. -/
theorem mean_sq_dev_eq_zero_add (s : Finset ι) (h : ι → EReal) (hh : ∀ i, Fin' (h i)) {N : EReal} {n : ℝ}
    (hN : N = (n : EReal)) (hn : 0 < n) (hcard : (s.card : ℝ) = n) {μ : EReal}
    (hμ : μ = Ideal.div (0 + ∑ i ∈ s, h i) N) :
    Ideal.div (0 + ∑ i ∈ s, (h i - μ) * (h i - μ)) N = Ideal.div (0 + ∑ i ∈ s, h i * h i) N - μ * μ :=
  mean_sq_dev_eq_init s h hh hN hn hcard rfl rfl rfl hμ

theorem fin_mean_init (s : Finset ι) (h : ι → EReal) (hh : ∀ i, Fin' (h i)) {N : EReal} {n : ℝ} (hN : N = (n : EReal))
    (hn : n ≠ 0) {z : EReal} (hz : z = 0) : Fin' (Ideal.div (z + ∑ i ∈ s, h i) N) := by
  rw [hz, zero_add]; exact fin_mean s h hh hN hn

theorem mean_sq_dev_fin_nonneg_init (s : Finset ι) (h : ι → EReal) (hh : ∀ i, Fin' (h i)) {N : EReal} {n : ℝ}
    (hN : N = (n : EReal)) (hn : 0 < n) {μ : EReal} (hμ : Fin' μ) {z : EReal} (hz : z = 0) :
    Fin' (Ideal.div (z + ∑ i ∈ s, (h i - μ) * (h i - μ)) N)
      ∧ 0 ≤ Ideal.div (z + ∑ i ∈ s, (h i - μ) * (h i - μ)) N := by
  rw [hz, zero_add]; exact mean_sq_dev_fin_nonneg s h hh hN hn hμ

theorem mean_sq_sub_sq_mean_fin_nonneg_init (s : Finset ι) (h : ι → EReal) (hh : ∀ i, Fin' (h i)) {N : EReal} {n : ℝ}
    (hN : N = (n : EReal)) (hn : 0 < n) (hcard : (s.card : ℝ) = n) {z₁ z₃ : EReal} (h₁ : z₁ = 0) (h₃ : z₃ = 0)
    {μ : EReal} (hμ : μ = Ideal.div (z₁ + ∑ i ∈ s, h i) N) :
    Fin' (Ideal.div (z₃ + ∑ i ∈ s, h i * h i) N - μ * μ) ∧ 0 ≤ Ideal.div (z₃ + ∑ i ∈ s, h i * h i) N - μ * μ := by
  rw [h₁, zero_add] at hμ
  rw [h₃, zero_add]
  exact mean_sq_sub_sq_mean_fin_nonneg s h hh hN hn hcard hμ

end Extended

/-! ### A set of indices listed without repetition

A sum along an axis runs over the indices that reduce to a given place; listed by a one-to-one family e
(the rows of a column, say), it is a sum over the list, and the set has as many members as the list. -/

section Listed
variable {ι κ : Type*} [Fintype κ] [DecidableEq ι]

theorem eq_image_of_listed (s : Finset ι) (e : κ → ι) (hs : ∀ i, i ∈ s ↔ ∃ k, e k = i) :
    s = Finset.univ.image e := by
  ext i
  rw [hs i, Finset.mem_image]
  exact ⟨fun ⟨k, hk⟩ => ⟨k, Finset.mem_univ k, hk⟩, fun ⟨k, _, hk⟩ => ⟨k, hk⟩⟩

theorem sum_eq_sum_listed {M : Type*} [AddCommMonoid M] (s : Finset ι) (e : κ → ι) (he : Function.Injective e)
    (hs : ∀ i, i ∈ s ↔ ∃ k, e k = i) (f : ι → M) : ∑ i ∈ s, f i = ∑ k, f (e k) := by
  rw [eq_image_of_listed s e hs, Finset.sum_image fun a _ b _ hab => he hab]

theorem card_eq_card_listed (s : Finset ι) (e : κ → ι) (he : Function.Injective e)
    (hs : ∀ i, i ∈ s ↔ ∃ k, e k = i) : s.card = Fintype.card κ := by
  rw [eq_image_of_listed s e hs, Finset.card_image_of_injective _ he, Finset.card_univ]

end Listed

/-! ### A program's sum along ONE axis, read as a sum over that axis's coordinates -/

section OneAxis
variable {s t u : Shape} {φ : FTy} {a : Fin s.rank}

/-- An entry of a host sum along one axis: the initial value plus the sum, over the coordinates k of that axis,
    of the operand's entry at the result's index with k inserted on the axis. -/
theorem reduceAdd_single_apply (x : FVec Ideal s φ) (init : u.Idx → Ideal φ) (h' : s.ReducesTo [a] t)
    (h : s.Reduces [a] t) (hu : 0 < u.numel) (j : t.Idx) :
    Host.reduceAdd (F := Ideal) x init h' hu j
      = init (Shape.Idx.first hu) + ∑ k : Fin (s.size a), x (h.lift j k) := by
  rw [reduceAdd_apply, Shape.ReducesTo.drop_eq_drop h' h, h.sum_filter_drop_single x j]

/-- A vector unit's sum along one axis, likewise (it has no initial value). -/
theorem vectorReduceAdd_single_apply (x : FVec Ideal s φ) (h : s.Reduces [a] t) (j : t.Idx) :
    Ideal.reduceAdd h x j = ∑ k : Fin (s.size a), x (h.lift j k) :=
  h.sum_filter_drop_single x j

/-- As many indices reduce to a place as the axis has coordinates. -/
theorem card_filter_drop_single (h : s.Reduces [a] t) (j : t.Idx) :
    (Finset.univ.filter fun i => h.drop i = j).card = s.size a := by
  classical
  rw [h.filter_drop_eq_image_lift j, Finset.card_image_of_injective _ (h.lift_injective j), Finset.card_univ,
    Fintype.card_fin]

end OneAxis

/-- The number of members of Fin m, as a real. -/
theorem card_univ_fin_cast (m : ℕ) : (((Finset.univ : Finset (Fin m)).card : ℕ) : ℝ) = (m : ℝ) := by
  rw [Finset.card_univ, Fintype.card_fin]

/-! ### A sum accumulated block by block -/

section Blocks
variable {M : Type*} [AddCommMonoid M]

/-- An accumulator that starts at zero and receives one term per step holds, after n steps, the sum of the n
    terms. -/
theorem acc_eq_sum_range (n : ℕ) (acc blk : ℕ → M) (h0 : acc 0 = 0)
    (hstep : ∀ k, k < n → acc (k + 1) = acc k + blk k) : acc n = ∑ k ∈ range n, blk k := by
  have key : ∀ m, m ≤ n → acc m = ∑ k ∈ range m, blk k := by
    intro m
    induction m with
    | zero => intro _; rw [h0, Finset.sum_range_zero]
    | succ m ih =>
      intro hm
      rw [hstep m (Nat.lt_of_succ_le hm), ih (Nat.le_of_succ_le hm), Finset.sum_range_succ]
  exact key n le_rfl

/-- A sum over n · b consecutive naturals accumulated in n blocks of b: the accumulator starts at zero and step k
    adds the sum of f over the b naturals b · k + r (r < b) of block k; after the n steps it holds the sum of f
    over all the naturals below n · b. -/
theorem acc_blocks (n b : ℕ) (f : ℕ → M) (acc : ℕ → M) (h0 : acc 0 = 0)
    (hstep : ∀ k, k < n → acc (k + 1) = acc k + ∑ r : Fin b, f (b * k + r.val)) :
    acc n = ∑ i : Fin (n * b), f i.val := by
  rw [LibTileSums.sum_tiles n b (n * b) rfl f]
  exact acc_eq_sum_range n acc (fun k => ∑ r : Fin b, f (b * k + r.val)) h0 hstep

/-- The same as a program writes it: each block's sum is itself taken from zero, the block's naturals are
    written k · b + r, and the whole sum is read from zero as well. -/
theorem acc_blocks_zero_add (n b : ℕ) (f : ℕ → M) (acc : ℕ → M) (h0 : acc 0 = 0)
    (hstep : ∀ k, k < n → acc (k + 1) = acc k + (0 + ∑ r : Fin b, f (k * b + r.val))) :
    acc n = 0 + ∑ i : Fin (n * b), f i.val := by
  rw [zero_add]
  refine acc_blocks n b f acc h0 fun k hk => ?_
  rw [hstep k hk, zero_add, Nat.mul_comm k b]

/-- The same for a family indexed by the n · b positions themselves: position r of block k is the one numbered
    r + b · k (LibERealMatrix.finProdFinEquiv_val). -/
theorem acc_blocks_fin (n b : ℕ) (f : Fin (n * b) → M) (acc : ℕ → M) (h0 : acc 0 = 0)
    (hstep : ∀ k : Fin n, acc (k.val + 1) = acc k.val + ∑ r : Fin b, f (finProdFinEquiv (k, r))) :
    acc n = ∑ i, f i := by
  rw [LibERealMatrix.sum_fin_mul n b f,
    acc_eq_sum_range n acc (fun k => if hk : k < n then ∑ r : Fin b, f (finProdFinEquiv (⟨k, hk⟩, r)) else 0) h0
      (fun k hk => by rw [dif_pos hk]; exact hstep ⟨k, hk⟩),
    ← Fin.sum_univ_eq_sum_range (fun k => if hk : k < n then ∑ r : Fin b, f (finProdFinEquiv (⟨k, hk⟩, r)) else 0) n]
  exact Finset.sum_congr rfl fun k _ => dif_pos k.isLt

end Blocks

end LibBatchMoments

end
-- ==== Proof.Spec.lean ====
/-
  A batch of 100000 rows: one column's sum, mean and variance, computed two ways.

  The activation of one layer at row r and column q is  max(Σ_k x[r,k]·w[k,q], 0) + b[q];  it is a real number
  when the entries of x, w and b are.

  One way sums a column over all the rows. The other way cuts the rows into 25 blocks of 4000, keeps each block's
  sum in row 8t of a table of 200 rows whose other rows are zero, and sums the table: the same sum, because
  addition of extended reals is commutative and associative and the extra rows add zero. This needs no
  finiteness.

  For a column of real numbers h with mean μ = (Σ h)/n the mean of the squared deviations, (Σ (h−μ)²)/n, is the
  mean of the squares minus the squared mean, (Σ h²)/n − μ². On the extended reals this needs every member to be
  a real number.
-/
import Idealize.ShloMosaic.Lib.ValueIdx
import Idealize.ShloMosaic.PureOps.Ideal.Laws
import proofs.«124260_j60301340836383_2_alg».proof.Proof.LibERealMatrix
import proofs.«124260_j60301340836383_2_alg».proof.Proof.LibIdealFinite
import proofs.«124260_j60301340836383_2_alg».proof.Proof.LibBatchMoments

noncomputable section

namespace BatchSpec

open Idealize.ShloMosaic Idealize.ShloMosaic.ValueIdx LibERealMatrix LibIdealFinite LibBatchMoments

/-- The word of 100000.0 in single precision denotes the real 100000. -/
theorem ofBits_100000 : Ideal.ofBits .f32 0x47C35000#32 = ((100000 : ℝ) : EReal) := by
  simp [Ideal.ofBits, Ideal.ieee, -EReal.coe_mul]; norm_num

/-- One layer's activation at row r, column q: the rectified product row plus the bias. -/
def act {M : ℕ} (x : (⟨2, ![M, 128]⟩ : Shape).Idx → EReal) (w : (⟨2, ![128, 128]⟩ : Shape).Idx → EReal)
    (b : Fin 128 → EReal) (r : Fin M) (q : Fin 128) : EReal :=
  max (∑ k : Fin 128, x (ix2 r k) * w (ix2 k q)) 0 + b q

/-- It is a real number when the entries of the three operands are. -/
theorem fin_act {M : ℕ} {x : (⟨2, ![M, 128]⟩ : Shape).Idx → EReal} {w : (⟨2, ![128, 128]⟩ : Shape).Idx → EReal}
    {b : Fin 128 → EReal} (hx : ∀ i, Fin' (x i)) (hw : ∀ i, Fin' (w i)) (hb : ∀ q, Fin' (b q))
    (r : Fin M) (q : Fin 128) : Fin' (act x w b r q) :=
  (fin_max (Fin'.sum _ _ fun k => (hx _).mul (hw _)) fin_zero).add (hb q)

/-- A table of 200 entries that is zero off the multiples of 8 sums to the sum of its 25 entries at 8t. -/
theorem sum_table (T : Fin 200 → EReal) (hz : ∀ ρ : Fin 200, ρ.val % 8 ≠ 0 → T ρ = 0) :
    ∑ ρ, T ρ = ∑ t : Fin 25, T ⟨8 * t.val, by have := t.isLt; omega⟩ := by
  rw [show (∑ ρ, T ρ) = ∑ k : Fin 25, ∑ r : Fin 8, T (finProdFinEquiv (k, r)) from sum_fin_mul 25 8 T]
  refine Finset.sum_congr rfl fun t _ => ?_
  rw [Fin.sum_univ_succ]
  have h0 : (finProdFinEquiv (t, (0 : Fin 8)) : Fin 200) = ⟨8 * t.val, by have := t.isLt; omega⟩ :=
    Fin.ext (by rw [finProdFinEquiv_val]; simp)
  have hrest : ∑ r : Fin 7, T (finProdFinEquiv (t, r.succ)) = 0 :=
    Finset.sum_eq_zero fun r _ => hz _ (by
      rw [finProdFinEquiv_val, Fin.val_succ]; have := r.isLt; omega)
  rw [hrest, add_zero, h0]

/-- 100000 terms summed in 25 blocks of 4000. -/
theorem sum_blocks (g : Fin 100000 → EReal) :
    ∑ r, g r = ∑ t : Fin 25, ∑ y : Fin 4000, g ⟨4000 * t.val + y.val, by have := t.isLt; have := y.isLt; omega⟩ := by
  rw [show (∑ r, g r) = ∑ k : Fin 25, ∑ r : Fin 4000, g (finProdFinEquiv (k, r)) from sum_fin_mul 25 4000 g]
  refine Finset.sum_congr rfl fun t _ => Finset.sum_congr rfl fun y _ => congrArg g (Fin.ext ?_)
  rw [finProdFinEquiv_val]; exact Nat.add_comm _ _

/-- A table holding the 25 block sums of g at its rows 8t, zero elsewhere, sums to the sum of g. -/
theorem table_sum (g : Fin 100000 → EReal) (T : Fin 200 → EReal)
    (h8 : ∀ t : Fin 25, T ⟨8 * t.val, by have := t.isLt; omega⟩
      = ∑ y : Fin 4000, g ⟨4000 * t.val + y.val, by have := t.isLt; have := y.isLt; omega⟩)
    (hz : ∀ ρ : Fin 200, ρ.val % 8 ≠ 0 → T ρ = 0) : ∑ ρ, T ρ = ∑ r, g r := by
  rw [sum_table T hz, sum_blocks g]
  exact Finset.sum_congr rfl fun t _ => h8 t

/-- The two forms of the variance of a column of 100000 real numbers, each sum read as 0 + Σ. -/
theorem var_two_ways (h : Fin 100000 → EReal) (hh : ∀ r, Fin' (h r)) {N μ : EReal}
    (hN : N = ((100000 : ℝ) : EReal)) (hμ : μ = Ideal.div (0 + ∑ r, h r) N) :
    Ideal.div (0 + ∑ r, (h r - μ) * (h r - μ)) N = Ideal.div (0 + ∑ r, h r * h r) N - μ * μ :=
  mean_sq_dev_eq_zero_add Finset.univ h (fun i => hh i) hN (by norm_num)
    (by rw [card_univ_fin_cast]; norm_num) hμ

end BatchSpec

end
-- ==== Proof.Blocks.lean ====
/-
  One block of 4000 rows, at exact arithmetic, entry by entry.

  The activation block is the product of the block of rows with the weight matrix (a change of float format is the
  identity, the accumulator is zero), its maximum with zero, plus the bias row repeated down the rows: at (p, q) it is
  max(Σ_k x[p,k]·w[k,q], 0) + b[0,q]. The block's column sums and sums of squares are sums over its 4000 rows.
-/
import proofs.«124260_j60301340836383_2_alg».proof.Proof.Gen.KernelIdeal.Skeleton
import Idealize.ShloMosaic.Lib.Pipeline.Value
import proofs.«124260_j60301340836383_2_alg».proof.Proof.LibMatmulIdx
import proofs.«124260_j60301340836383_2_alg».proof.Proof.LibRowLayouts
import proofs.«124260_j60301340836383_2_alg».proof.Proof.LibRowOps
import proofs.«124260_j60301340836383_2_alg».proof.Proof.LibKeepdims
import proofs.«124260_j60301340836383_2_alg».proof.Proof.Spec

noncomputable section

namespace Cert.KernelIdeal.Blocks

open Idealize.ShloMosaic Idealize.ShloMosaic.ValueIdx Cert.KernelIdeal Cert.KernelIdeal.Gen BatchSpec

/-- The product of a block of rows with the weight matrix, at (p, q). -/
theorem matmul_entry (l : FVec Ideal S4000x128 .bf16) (r : FVec Ideal S128x128 .bf16) (p : Fin 4000) (q : Fin 128) :
    matmul (F := Ideal) dot_S4000x128_S128x128_S4000x128_1_0_0_1_n_n none l r (constant S4000x128 .f32 0x00000000#32) (ix2 p q)
      = ∑ k : Fin 128, l (ix2 p k) * r (ix2 k q) :=
  LibMatmulIdx.matmul2_apply (M := 4000) (K := 128) (N := 128) dot_S4000x128_S128x128_S4000x128_1_0_0_1_n_n rfl rfl
    (fun j k => rfl) (fun j k => DotDims.lhsIdx_val_of_single _ (cl := 1) rfl j k)
    (fun j k => DotDims.rhsIdx_val_of_single _ (cr := 0) rfl j k) (fun j k => rfl) none l r (ix2 p q)

/-- The bias row repeated down the rows, at (p, q). -/
theorem bias_entry (b : Vec Ideal S1x128 .f32) (p : Fin 4000) (q : Fin 128) :
    broadcastTo S4000x128 (shapeCast S1x128 b shapeCasts_S1x128_S1x128) broadcasts_S1x128_S4000x128 (ix2 p q)
      = b (ix2 (0 : Fin 1) q) :=
  (LibRowLayouts.broadcastTo_row_apply _ _ p q).trans (congrFun (shapeCast_self b _) _)

/-- The activation block at (p, q). -/
theorem act_block (x : Vec Ideal S4000x128 .f32) (w : Vec Ideal S128x128 .f32) (b : Vec Ideal S1x128 .f32)
    (p : Fin 4000) (q : Fin 128) :
    k1_pay3 (F := Ideal) x w b (ix2 p q) = act x w (fun q => b (ix2 (0 : Fin 1) q)) p q := by
  have hm := matmul_entry (truncf .bf16 x bitsLt_bf16_f32) (truncf .bf16 w bitsLt_bf16_f32) p q
  have hb := bias_entry b p q
  show max (matmul (F := Ideal) dot_S4000x128_S128x128_S4000x128_1_0_0_1_n_n none (truncf .bf16 x bitsLt_bf16_f32)
        (truncf .bf16 w bitsLt_bf16_f32) (constant S4000x128 .f32 0x00000000#32) (ix2 p q)) (Ideal.ofBits .f32 0x00000000#32)
      + broadcastTo S4000x128 (shapeCast S1x128 b shapeCasts_S1x128_S1x128) broadcasts_S1x128_S4000x128 (ix2 p q)
    = max (∑ k : Fin 128, x (ix2 p k) * w (ix2 k q)) 0 + b (ix2 (0 : Fin 1) q)
  rw [hm, hb, Ideal.ofBits_zero_f32]
  rfl

/-- The same block as the first region spells it. -/
theorem act_block0 (x : Vec Ideal S4000x128 .f32) (w : Vec Ideal S128x128 .f32) (b : Vec Ideal S1x128 .f32)
    (p : Fin 4000) (q : Fin 128) :
    k0_pay2 (F := Ideal) x w b (ix2 p q) = act x w (fun q => b (ix2 (0 : Fin 1) q)) p q :=
  act_block x w b p q

/-- The second layer's activation block (its rows pass through a cast to their own shape first). -/
theorem act_block' (x : Vec Ideal S4000x128 .f32) (w : Vec Ideal S128x128 .f32) (b : Vec Ideal S1x128 .f32)
    (p : Fin 4000) (q : Fin 128) :
    k1_pay4 (F := Ideal) x w b (ix2 p q) = act x w (fun q => b (ix2 (0 : Fin 1) q)) p q := by
  have hm := matmul_entry (truncf .bf16 (shapeCast S4000x128 x shapeCasts_S4000x128_S4000x128) bitsLt_bf16_f32)
    (truncf .bf16 w bitsLt_bf16_f32) p q
  rw [shapeCast_self x shapeCasts_S4000x128_S4000x128] at hm
  have hb := bias_entry b p q
  show max (matmul (F := Ideal) dot_S4000x128_S128x128_S4000x128_1_0_0_1_n_n none
        (truncf .bf16 (shapeCast S4000x128 x shapeCasts_S4000x128_S4000x128) bitsLt_bf16_f32)
        (truncf .bf16 w bitsLt_bf16_f32) (constant S4000x128 .f32 0x00000000#32) (ix2 p q)) (Ideal.ofBits .f32 0x00000000#32)
      + broadcastTo S4000x128 (shapeCast S1x128 b shapeCasts_S1x128_S1x128) broadcasts_S1x128_S4000x128 (ix2 p q)
    = max (∑ k : Fin 128, x (ix2 p k) * w (ix2 k q)) 0 + b (ix2 (0 : Fin 1) q)
  rw [shapeCast_self x shapeCasts_S4000x128_S4000x128, hm, hb, Ideal.ofBits_zero_f32]
  rfl

theorem act_block0' (x : Vec Ideal S4000x128 .f32) (w : Vec Ideal S128x128 .f32) (b : Vec Ideal S1x128 .f32)
    (p : Fin 4000) (q : Fin 128) :
    k0_pay3 (F := Ideal) x w b (ix2 p q) = act x w (fun q => b (ix2 (0 : Fin 1) q)) p q :=
  act_block' x w b p q

/-- A block's sum down its 4000 rows, kept as a [1,128] row, at column q. -/
theorem colsum_block (src : FVec Ideal S4000x128 .f32) (q : Fin 128) :
    shapeCast S1x128 (multiReduction .add [0] S128 src 0x00000000#32 reduces_S4000x128_S128 (.inl rfl) rfl)
        shapeCasts_S128_S1x128 (ix2 (0 : Fin 1) q)
      = ∑ y : Fin 4000, src (ix2 y q) :=
  (LibRowOps.shapeCast_row_apply _ _ (0 : Fin 1) q).trans (LibKeepdims.sum_axis0_apply src _ _ _ _ q)

/-- The four statistics rows of a block: the two layers' column sums and column sums of squares. -/
theorem sum_row (x : Vec Ideal S4000x128 .f32) (w : Vec Ideal S128x128 .f32) (b : Vec Ideal S1x128 .f32) (q : Fin 128) :
    k0_pay4 (F := Ideal) x w b (ix2 (0 : Fin 1) q) = ∑ y : Fin 4000, act x w (fun q => b (ix2 (0 : Fin 1) q)) y q :=
  (colsum_block (k0_pay2 x w b) q).trans (Finset.sum_congr rfl fun y _ => act_block0 x w b y q)

theorem sum_row' (x : Vec Ideal S4000x128 .f32) (w : Vec Ideal S128x128 .f32) (b : Vec Ideal S1x128 .f32) (q : Fin 128) :
    k0_pay5 (F := Ideal) x w b (ix2 (0 : Fin 1) q) = ∑ y : Fin 4000, act x w (fun q => b (ix2 (0 : Fin 1) q)) y q :=
  (colsum_block (k0_pay3 x w b) q).trans (Finset.sum_congr rfl fun y _ => act_block0' x w b y q)

theorem sq_row (x : Vec Ideal S4000x128 .f32) (w : Vec Ideal S128x128 .f32) (b : Vec Ideal S1x128 .f32) (q : Fin 128) :
    k0_pay6 (F := Ideal) x w b (ix2 (0 : Fin 1) q)
      = ∑ y : Fin 4000, act x w (fun q => b (ix2 (0 : Fin 1) q)) y q * act x w (fun q => b (ix2 (0 : Fin 1) q)) y q :=
  (colsum_block (mulf (k0_pay2 x w b) (k0_pay2 x w b)) q).trans (Finset.sum_congr rfl fun y _ => by
    show k0_pay2 (F := Ideal) x w b (ix2 y q) * k0_pay2 (F := Ideal) x w b (ix2 y q) = _
    rw [act_block0])

theorem sq_row' (x : Vec Ideal S4000x128 .f32) (w : Vec Ideal S128x128 .f32) (b : Vec Ideal S1x128 .f32) (q : Fin 128) :
    k0_pay7 (F := Ideal) x w b (ix2 (0 : Fin 1) q)
      = ∑ y : Fin 4000, act x w (fun q => b (ix2 (0 : Fin 1) q)) y q * act x w (fun q => b (ix2 (0 : Fin 1) q)) y q :=
  (colsum_block (mulf (k0_pay3 x w b) (k0_pay3 x w b)) q).trans (Finset.sum_congr rfl fun y _ => by
    show k0_pay3 (F := Ideal) x w b (ix2 y q) * k0_pay3 (F := Ideal) x w b (ix2 y q) = _
    rw [act_block0'])

/-- The two zero fills. -/
theorem zero_fill (i : S8x256.Idx) : k0_pay8 (F := Ideal) i = 0 := Ideal.ofBits_zero_f32
theorem zero_fill' (i : S8x256.Idx) : k0_pay1 (F := Ideal) i = 0 := Ideal.ofBits_zero_f32

/-- The normalised block: ((a − mean)·inv)·gamma + beta, the four rows repeated down the block's rows. -/
theorem norm_block (a : FVec Ideal S4000x128 .f32) (mean inv gamma : FVec Ideal S1x128 .f32) (beta : Vec Ideal S1x128 .f32)
    (p : Fin 4000) (q : Fin 128) :
    k1_pay1 (F := Ideal) a mean inv gamma beta (ix2 p q)
      = ((a (ix2 p q) - mean (ix2 (0 : Fin 1) q)) * inv (ix2 (0 : Fin 1) q)) * gamma (ix2 (0 : Fin 1) q)
          + beta (ix2 (0 : Fin 1) q) := by
  show ((a (ix2 p q) - broadcastTo S4000x128 mean broadcasts_S1x128_S4000x128 (ix2 p q))
        * broadcastTo S4000x128 inv broadcasts_S1x128_S4000x128 (ix2 p q))
        * broadcastTo S4000x128 gamma broadcasts_S1x128_S4000x128 (ix2 p q)
      + broadcastTo S4000x128 (shapeCast S1x128 beta shapeCasts_S1x128_S1x128) broadcasts_S1x128_S4000x128 (ix2 p q) = _
  rw [bias_entry, LibRowLayouts.broadcastTo_row_apply, LibRowLayouts.broadcastTo_row_apply,
    LibRowLayouts.broadcastTo_row_apply]

theorem norm_block' (a : FVec Ideal S4000x128 .f32) (mean inv : FVec Ideal S1x128 .f32) (gamma beta : Vec Ideal S1x128 .f32)
    (p : Fin 4000) (q : Fin 128) :
    k1_pay2 (F := Ideal) a mean inv gamma beta (ix2 p q)
      = ((a (ix2 p q) - mean (ix2 (0 : Fin 1) q)) * inv (ix2 (0 : Fin 1) q)) * gamma (ix2 (0 : Fin 1) q)
          + beta (ix2 (0 : Fin 1) q) := by
  show ((a (ix2 p q) - broadcastTo S4000x128 mean broadcasts_S1x128_S4000x128 (ix2 p q))
        * broadcastTo S4000x128 inv broadcasts_S1x128_S4000x128 (ix2 p q))
        * broadcastTo S4000x128 (shapeCast S1x128 gamma shapeCasts_S1x128_S1x128) broadcasts_S1x128_S4000x128 (ix2 p q)
      + broadcastTo S4000x128 (shapeCast S1x128 beta shapeCasts_S1x128_S1x128) broadcasts_S1x128_S4000x128 (ix2 p q) = _
  rw [bias_entry, bias_entry, LibRowLayouts.broadcastTo_row_apply, LibRowLayouts.broadcastTo_row_apply]

/-- A [1,128] row cast to its own shape is the row. -/
theorem row_self5 (v : Vec Ideal S1x128 .f32) : k1_pay5 (F := Ideal) v = v := shapeCast_self v _
theorem row_self6 (v : Vec Ideal S1x128 .f32) : k1_pay6 (F := Ideal) v = v := shapeCast_self v _
theorem row_self7 (v : Vec Ideal S1x128 .f32) : k1_pay7 (F := Ideal) v = v := shapeCast_self v _
theorem row_self8 (v : Vec Ideal S1x128 .f32) : k1_pay8 (F := Ideal) v = v := shapeCast_self v _
theorem row_self9 (v : Vec Ideal S1x128 .f32) : k1_pay9 (F := Ideal) v = v := shapeCast_self v _

end Cert.KernelIdeal.Blocks

end
-- ==== Proof.LibRowTable.lean ====
/-
  Overlapping stores into a block, read back at an entry: at each index the last store that covers it decides.

  A block of 8 rows and 256 columns is filled with one value function z, and then its row 0 is overwritten in two
  halves: columns 0–127 from a row lo, columns 128–255 from a row hi. Read back, entry (ρ, j) is lo[j] or
  hi[j − 128] on row 0 and z[ρ, j] on the other rows (a table of per-block statistics kept in row 0 of a zeroed
  block). A block of A rows and 256 columns written in two column halves reads, at (p, j), the left half's column j
  or the right half's column j − 128. For any element type; nothing here mentions a program.
-/
import Idealize.ShloMosaic.Lib.ValueIdx
import Idealize.ShloMosaic.Lib.Pipeline.Value

noncomputable section

namespace LibRowTable

open Idealize.ShloMosaic Idealize.ShloMosaic.ValueIdx

variable {Val : EltTy → Type} [∀ e, Nonempty (Val e)] {e : EltTy}

/-- The three stores, last first, read back at (ρ, j). -/
theorem canon_row0
    (inbR : ∀ a, (![0, 128] : Fin 2 → Nat) a + (![1, 128] : Fin 2 → Nat) a ≤ (⟨2, ![8, 256]⟩ : Shape).size a)
    (inbL : ∀ a, (![0, 0] : Fin 2 → Nat) a + (![1, 128] : Fin 2 → Nat) a ≤ (⟨2, ![8, 256]⟩ : Shape).size a)
    (inbW : ∀ a, (![0, 0] : Fin 2 → Nat) a + (![8, 256] : Fin 2 → Nat) a ≤ (⟨2, ![8, 256]⟩ : Shape).size a)
    (hi lo : (⟨2, ![1, 128]⟩ : Shape).Idx → Val e) (z : (⟨2, ![8, 256]⟩ : Shape).Idx → Val e)
    (ρ : Fin 8) (j : Fin 256) :
    View.canon (s := (⟨2, ![8, 256]⟩ : Shape))
        [⟨Rect.unit ![0, 128] ![1, 128] inbR, hi⟩, ⟨Rect.unit ![0, 0] ![1, 128] inbL, lo⟩,
          ⟨Rect.unit ![0, 0] ![8, 256] inbW, z⟩] (ix2 ρ j)
      = if ρ.val = 0 then
          (if h : 128 ≤ j.val then hi (ix2 (0 : Fin 1) ⟨j.val - 128, by have := j.isLt; omega⟩)
           else lo (ix2 (0 : Fin 1) ⟨j.val, by omega⟩))
        else z (ix2 ρ j) := by
  -- the three pieces, named so that each step below is told which piece it is about
  let pR : View.Piece Val (⟨2, ![8, 256]⟩ : Shape) e := ⟨Rect.unit ![0, 128] ![1, 128] inbR, hi⟩
  let pL : View.Piece Val (⟨2, ![8, 256]⟩ : Shape) e := ⟨Rect.unit ![0, 0] ![1, 128] inbL, lo⟩
  let pW : View.Piece Val (⟨2, ![8, 256]⟩ : Shape) e := ⟨Rect.unit ![0, 0] ![8, 256] inbW, z⟩
  show View.canon [pR, pL, pW] (ix2 ρ j) = _
  by_cases h0 : ρ.val = 0
  · rw [if_pos h0]
    by_cases h1 : 128 ≤ j.val
    · rw [dif_pos h1]
      have e1 : ix2 ρ j = (Rect.unit (s := (⟨2, ![8, 256]⟩ : Shape)) ![0, 128] ![1, 128] inbR).emb
          (ix2 (0 : Fin 1) ⟨j.val - 128, by have := j.isLt; omega⟩) := by
        funext a; apply Fin.ext
        match a with
        | ⟨0, _⟩ => show ρ.val = 0 + 1 * 0; omega
        | ⟨1, _⟩ => show j.val = 128 + 1 * (j.val - 128); omega
      rw [e1]; exact View.canon_cons_emb (Rect.unit ![0, 128] ![1, 128] inbR) hi [pL, pW] _
    · rw [dif_neg h1]
      have hn : ix2 ρ j ∉ (Rect.unit (s := (⟨2, ![8, 256]⟩ : Shape)) ![0, 128] ![1, 128] inbR).set := by
        rw [Rect.mem_set_unit]; intro h
        have h' : 128 ≤ j.val := (h 1).1
        exact h1 h'
      rw [View.canon_cons_of_not_mem pR [pL, pW] hn]
      have e1 : ix2 ρ j = (Rect.unit (s := (⟨2, ![8, 256]⟩ : Shape)) ![0, 0] ![1, 128] inbL).emb
          (ix2 (0 : Fin 1) ⟨j.val, by omega⟩) := by
        funext a; apply Fin.ext
        match a with
        | ⟨0, _⟩ => show ρ.val = 0 + 1 * 0; omega
        | ⟨1, _⟩ => show j.val = 0 + 1 * j.val; omega
      rw [e1]; exact View.canon_cons_emb (Rect.unit ![0, 0] ![1, 128] inbL) lo [pW] _
  · rw [if_neg h0]
    have hn1 : ix2 ρ j ∉ (Rect.unit (s := (⟨2, ![8, 256]⟩ : Shape)) ![0, 128] ![1, 128] inbR).set := by
      rw [Rect.mem_set_unit]; intro h
      have h' : ρ.val < 0 + 1 := (h 0).2
      omega
    have hn2 : ix2 ρ j ∉ (Rect.unit (s := (⟨2, ![8, 256]⟩ : Shape)) ![0, 0] ![1, 128] inbL).set := by
      rw [Rect.mem_set_unit]; intro h
      have h' : ρ.val < 0 + 1 := (h 0).2
      omega
    rw [View.canon_cons_of_not_mem pR [pL, pW] hn1, View.canon_cons_of_not_mem pL [pW] hn2]
    exact congrFun (View.canon_cons_unit_zero (S := (⟨2, ![8, 256]⟩ : Shape))
      (funext fun a => by match a with | ⟨0, _⟩ => rfl | ⟨1, _⟩ => rfl) inbW z []) (ix2 ρ j)

/-- A buffer of A rows and 256 columns written in two column halves, columns 0–127 from lo and 128–255 from hi,
    read back at (p, j). -/
theorem canon_halves {A : ℕ}
    (inbR : ∀ a, (![0, 128] : Fin 2 → Nat) a + (![A, 128] : Fin 2 → Nat) a ≤ (⟨2, ![A, 256]⟩ : Shape).size a)
    (inbL : ∀ a, (![0, 0] : Fin 2 → Nat) a + (![A, 128] : Fin 2 → Nat) a ≤ (⟨2, ![A, 256]⟩ : Shape).size a)
    (hi lo : (⟨2, ![A, 128]⟩ : Shape).Idx → Val e) (p : Fin A) (j : Fin 256) :
    View.canon (s := (⟨2, ![A, 256]⟩ : Shape))
        [⟨Rect.unit ![0, 128] ![A, 128] inbR, hi⟩, ⟨Rect.unit ![0, 0] ![A, 128] inbL, lo⟩] (ix2 p j)
      = if h : 128 ≤ j.val then hi (ix2 p ⟨j.val - 128, by have := j.isLt; omega⟩)
        else lo (ix2 p ⟨j.val, by omega⟩) := by
  let pR : View.Piece Val (⟨2, ![A, 256]⟩ : Shape) e := ⟨Rect.unit ![0, 128] ![A, 128] inbR, hi⟩
  let pL : View.Piece Val (⟨2, ![A, 256]⟩ : Shape) e := ⟨Rect.unit ![0, 0] ![A, 128] inbL, lo⟩
  show View.canon [pR, pL] (ix2 p j) = _
  by_cases h1 : 128 ≤ j.val
  · rw [dif_pos h1]
    have e1 : ix2 p j = (Rect.unit (s := (⟨2, ![A, 256]⟩ : Shape)) ![0, 128] ![A, 128] inbR).emb
        (ix2 p ⟨j.val - 128, by have := j.isLt; omega⟩) := by
      funext a; apply Fin.ext
      match a with
      | ⟨0, _⟩ => show p.val = 0 + 1 * p.val; omega
      | ⟨1, _⟩ => show j.val = 128 + 1 * (j.val - 128); omega
    rw [e1]; exact View.canon_cons_emb (Rect.unit ![0, 128] ![A, 128] inbR) hi [pL] _
  · rw [dif_neg h1]
    have hn : ix2 p j ∉ (Rect.unit (s := (⟨2, ![A, 256]⟩ : Shape)) ![0, 128] ![A, 128] inbR).set := by
      rw [Rect.mem_set_unit]; intro h
      have h' : 128 ≤ j.val := (h 1).1
      exact h1 h'
    rw [View.canon_cons_of_not_mem pR [pL] hn]
    have e1 : ix2 p j = (Rect.unit (s := (⟨2, ![A, 256]⟩ : Shape)) ![0, 0] ![A, 128] inbL).emb
        (ix2 p ⟨j.val, by omega⟩) := by
      funext a; apply Fin.ext
      match a with
      | ⟨0, _⟩ => show p.val = 0 + 1 * p.val; omega
      | ⟨1, _⟩ => show j.val = 0 + 1 * j.val; omega
    rw [e1]; exact View.canon_cons_emb (Rect.unit (s := (⟨2, ![A, 256]⟩ : Shape)) ![0, 0] ![A, 128] inbL) lo [] _

end LibRowTable

end
-- ==== Proof.Region0.lean ====
/-
  The first region, from the buffer contents V it is entered with: the two tables of partial statistics it leaves.

  Point t of the 25 computes the two layers' activations of rows 4000t … 4000t+3999, and writes an 8-row block of
  each table: first zeros everywhere, then row 0 in two halves — in the first table the column sums of the two
  layers' activations over the block's rows, in the second the column sums of their squares. Read back, row 8t of
  a table holds block t's sums and the other rows hold zero.
-/
import proofs.«124260_j60301340836383_2_alg».proof.Proof.Gen.KernelIdeal.Frame
import proofs.«124260_j60301340836383_2_alg».proof.Proof.Blocks
import proofs.«124260_j60301340836383_2_alg».proof.Proof.LibRowTable

set_option maxRecDepth 16384

noncomputable section

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open BatchSpec Idealize.ShloMosaic.ValueIdx Cert.KernelIdeal.Blocks

theorem hz : (![0, 0] : Fin 2 → Nat) = fun _ => 0 :=
  funext fun a => by match a with | ⟨0, _⟩ => rfl | ⟨1, _⟩ => rfl

/-- The activation at a row depends on the row-indexed operand only through that row. -/
theorem act_congr {M M' : ℕ} (x : (⟨2, ![M, 128]⟩ : Shape).Idx → EReal) (A : (⟨2, ![M', 128]⟩ : Shape).Idx → EReal)
    (w : (⟨2, ![128, 128]⟩ : Shape).Idx → EReal) (b : Fin 128 → EReal) (p : Fin M) (r : Fin M') (q : Fin 128)
    (h : ∀ k, x (ix2 p k) = A (ix2 r k)) : act x w b p q = act A w b r q := by
  unfold act; simp only [h]

/-- Entry (ρ, j) of a block's 8 rows of statistics: on row 0 the sum over the block's 4000 rows of g of the
    activation in column j (first layer for j < 128, second for j ≥ 128), zero on the other rows. -/
def blockStat (g : EReal → EReal) (x0 x1 : (⟨2, ![4000, 128]⟩ : Shape).Idx → EReal)
    (x2 x3 : (⟨2, ![128, 128]⟩ : Shape).Idx → EReal) (x4 x5 : (⟨2, ![1, 128]⟩ : Shape).Idx → EReal)
    (ρ : Fin 8) (j : Fin 256) : EReal :=
  if ρ.val = 0 then
    (if h : 128 ≤ j.val then
      ∑ y : Fin 4000, g (act x1 x3 (fun q => x5 (ix2 (0 : Fin 1) q)) y ⟨j.val - 128, by have := j.isLt; omega⟩)
     else ∑ y : Fin 4000, g (act x0 x2 (fun q => x4 (ix2 (0 : Fin 1) q)) y ⟨j.val, by omega⟩))
  else 0

/-- Entry (R, j) of the whole table of 200 rows: on the rows 8t the sums over rows 4000t … 4000t+3999, zero elsewhere. -/
def tableEntry (g : EReal → EReal) (a0 a1 : (⟨2, ![100000, 128]⟩ : Shape).Idx → EReal)
    (a2 a3 : (⟨2, ![128, 128]⟩ : Shape).Idx → EReal) (a4 a5 : (⟨2, ![1, 128]⟩ : Shape).Idx → EReal)
    (R : Fin 200) (j : Fin 256) : EReal :=
  if R.val % 8 = 0 then
    (if h : 128 ≤ j.val then
      ∑ y : Fin 4000, g (act a1 a3 (fun q => a5 (ix2 (0 : Fin 1) q))
        ⟨4000 * (R.val / 8) + y.val, by have := R.isLt; have := y.isLt; omega⟩ ⟨j.val - 128, by have := j.isLt; omega⟩)
     else ∑ y : Fin 4000, g (act a0 a2 (fun q => a4 (ix2 (0 : Fin 1) q))
        ⟨4000 * (R.val / 8) + y.val, by have := R.isLt; have := y.isLt; omega⟩ ⟨j.val, by omega⟩))
  else 0

/-- The whole table. -/
def tableAll (g : EReal → EReal) (a0 a1 : S100000x128.Idx → EReal) (a2 a3 : S128x128.Idx → EReal)
    (a4 a5 : S1x128.Idx → EReal) : S200x256.Idx → EReal :=
  fun i => tableEntry g a0 a1 a2 a3 a4 a5 (i 0) (i 1)

/-- Row ρ of block t's statistics is row 8t + ρ of the table, when the block's rows are rows 4000t … of the arrays. -/
theorem stat_congr (g : EReal → EReal) (x0 x1 : (⟨2, ![4000, 128]⟩ : Shape).Idx → EReal)
    (A0 A1 : (⟨2, ![100000, 128]⟩ : Shape).Idx → EReal) (x2 x3 a2 a3 : (⟨2, ![128, 128]⟩ : Shape).Idx → EReal)
    (x4 x5 a4 a5 : (⟨2, ![1, 128]⟩ : Shape).Idx → EReal) (ρ : Fin 8) (R : Fin 200) (t : ℕ)
    (hR : R.val = t * 8 + ρ.val) (j j' : Fin 256) (hj : j = j')
    (h0 : ∀ (p : Fin 4000) (k : Fin 128) (r : Fin 100000), r.val = 4000 * t + p.val → x0 (ix2 p k) = A0 (ix2 r k))
    (h1 : ∀ (p : Fin 4000) (k : Fin 128) (r : Fin 100000), r.val = 4000 * t + p.val → x1 (ix2 p k) = A1 (ix2 r k))
    (h2 : x2 = a2) (h3 : x3 = a3) (h4 : x4 = a4) (h5 : x5 = a5) :
    blockStat g x0 x1 x2 x3 x4 x5 ρ j = tableEntry g A0 A1 a2 a3 a4 a5 R j' := by
  subst hj h2 h3 h4 h5
  have hρ := ρ.isLt
  have hq : R.val / 8 = t := by omega
  have hm : R.val % 8 = 0 ↔ ρ.val = 0 := by omega
  unfold blockStat tableEntry
  by_cases h : ρ.val = 0
  · rw [if_pos h, if_pos (hm.mpr h)]
    by_cases h' : 128 ≤ j.val
    · rw [dif_pos h', dif_pos h']
      exact Finset.sum_congr rfl fun y _ => congrArg g (act_congr x1 A1 x3 _ y _ _ fun k => h1 y k _ (by
        show 4000 * (R.val / 8) + y.val = 4000 * t + y.val; rw [hq]))
    · rw [dif_neg h', dif_neg h']
      exact Finset.sum_congr rfl fun y _ => congrArg g (act_congr x0 A0 x2 _ y _ _ fun k => h0 y k _ (by
        show 4000 * (R.val / 8) + y.val = 4000 * t + y.val; rw [hq]))
  · rw [if_neg h, if_neg (fun e => h (hm.mp e))]

/-- What the body leaves in output window 6's block: the two layers' column sums in row 0, zero in rows 1–7. -/
theorem out6_block (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S8x256 .f32) (harg7 : arg7.IsWhole) (arg8 : Memref sig .tc .vmem S8x256 .f32) (harg8 : arg8.IsWhole)
    (x0 : Vec Ideal S4000x128 .f32) (x1 : Vec Ideal S4000x128 .f32) (x2 : Vec Ideal S128x128 .f32) (x3 : Vec Ideal S128x128 .f32) (x4 : Vec Ideal S1x128 .f32) (x5 : Vec Ideal S1x128 .f32) (y : S8x256.Idx) :
    out0_A_6 (F := Ideal) c i arg1 harg1 arg2 harg2 arg3 harg3 arg4 harg4 arg5 harg5 arg6 harg6 arg7 harg7 arg8 harg8 x0 x1 x2 x3 x4 x5 y = blockStat (fun a => a) x0 x1 x2 x3 x4 x5 (y 0) (y 1) := by
  obtain ⟨ρ, j, rfl⟩ : ∃ (ρ : Fin 8) (j : Fin 256), y = ix2 ρ j := ⟨y 0, y 1, eq_ix2 y⟩
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  sl_unfold_words
  simp only [View.readAt_eq_ld, harg1.read_unread, harg2.read_unread, harg3.read_unread, harg4.read_unread,
    harg5.read_unread, harg6.read_unread, View.ld_unit_zero (S := S4000x128) hz, View.ld_unit_zero (S := S128x128) hz,
    View.ld_unit_zero (S := S1x128) hz]
  refine (LibRowTable.canon_row0 inb_S8x256_S1x128_0_128 inb_S8x256_S1x128_0_0 inb_S8x256_S8x256_0_0 _ _ _ ρ j).trans ?_
  unfold blockStat
  by_cases h0 : ρ.val = 0
  · rw [if_pos h0, if_pos h0]
    by_cases h : 128 ≤ j.val
    · rw [dif_pos h, dif_pos h]; exact sum_row' x1 x3 x5 _
    · rw [dif_neg h, dif_neg h]; exact sum_row x0 x2 x4 _
  · rw [if_neg h0, if_neg h0]; exact zero_fill _

/-- What the body leaves in output window 7's block: the two layers' column sums of squares in row 0, zero in rows 1–7. -/
theorem out7_block (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S8x256 .f32) (harg7 : arg7.IsWhole) (arg8 : Memref sig .tc .vmem S8x256 .f32) (harg8 : arg8.IsWhole)
    (x0 : Vec Ideal S4000x128 .f32) (x1 : Vec Ideal S4000x128 .f32) (x2 : Vec Ideal S128x128 .f32) (x3 : Vec Ideal S128x128 .f32) (x4 : Vec Ideal S1x128 .f32) (x5 : Vec Ideal S1x128 .f32) (y : S8x256.Idx) :
    out0_A_7 (F := Ideal) c i arg1 harg1 arg2 harg2 arg3 harg3 arg4 harg4 arg5 harg5 arg6 harg6 arg7 harg7 arg8 harg8 x0 x1 x2 x3 x4 x5 y = blockStat (fun a => a * a) x0 x1 x2 x3 x4 x5 (y 0) (y 1) := by
  obtain ⟨ρ, j, rfl⟩ : ∃ (ρ : Fin 8) (j : Fin 256), y = ix2 ρ j := ⟨y 0, y 1, eq_ix2 y⟩
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5)]
  unfold kernelRun0_A
  dsimp only
  sl_unfold_words
  simp only [View.readAt_eq_ld, harg1.read_unread, harg2.read_unread, harg3.read_unread, harg4.read_unread,
    harg5.read_unread, harg6.read_unread, View.ld_unit_zero (S := S4000x128) hz, View.ld_unit_zero (S := S128x128) hz,
    View.ld_unit_zero (S := S1x128) hz]
  refine (LibRowTable.canon_row0 inb_S8x256_S1x128_0_128 inb_S8x256_S1x128_0_0 inb_S8x256_S8x256_0_0 _ _ _ ρ j).trans ?_
  unfold blockStat
  by_cases h0 : ρ.val = 0
  · rw [if_pos h0, if_pos h0]
    by_cases h : 128 ≤ j.val
    · rw [dif_pos h, dif_pos h]; exact sq_row' x1 x3 x5 _
    · rw [dif_neg h, dif_neg h]; exact sq_row x0 x2 x4 _
  · rw [if_neg h0, if_neg h0]; exact zero_fill' _

section AtV
variable (V : (c : Dev nD) → (b : Ref sig .tc) → Buf (Elt Ideal) ((c : Thread nD τ).loc b))

/-- The index maps, decided over the 25 points: the two row-indexed operands and the two tables move with the point,
    every other window stays at its one block. -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Window 2 has one block, the whole array. -/
theorem blk0_2 (c : Dev nD) (t : Fin cfg0.N) : iblk0 V c 2 t = V c (Pipeline.arrRef spec0 2) := by
  obtain ⟨-, -, h2, h3, h4, h5, -, -⟩ := idx0 t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 128 + 1 * (y 0).val = (y 0).val; rw [h2.1]; omega
  | ⟨1, _⟩ => show win0_2.index t (1 : Fin 2) * 128 + 1 * (y 1).val = (y 1).val; rw [h2.2]; omega

/-- Window 3 has one block, the whole array. -/
theorem blk0_3 (c : Dev nD) (t : Fin cfg0.N) : iblk0 V c 3 t = V c (Pipeline.arrRef spec0 3) := by
  obtain ⟨-, -, h2, h3, h4, h5, -, -⟩ := idx0 t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 128 + 1 * (y 0).val = (y 0).val; rw [h3.1]; omega
  | ⟨1, _⟩ => show win0_3.index t (1 : Fin 2) * 128 + 1 * (y 1).val = (y 1).val; rw [h3.2]; omega

/-- Window 4 has one block, the whole array. -/
theorem blk0_4 (c : Dev nD) (t : Fin cfg0.N) : iblk0 V c 4 t = V c (Pipeline.arrRef spec0 4) := by
  obtain ⟨-, -, h2, h3, h4, h5, -, -⟩ := idx0 t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 1 + 1 * (y 0).val = (y 0).val; rw [h4.1]; omega
  | ⟨1, _⟩ => show win0_4.index t (1 : Fin 2) * 128 + 1 * (y 1).val = (y 1).val; rw [h4.2]; omega

/-- Window 5 has one block, the whole array. -/
theorem blk0_5 (c : Dev nD) (t : Fin cfg0.N) : iblk0 V c 5 t = V c (Pipeline.arrRef spec0 5) := by
  obtain ⟨-, -, h2, h3, h4, h5, -, -⟩ := idx0 t
  funext y
  show V c (Pipeline.arrRef spec0 5) (((cfg0.win 5).blk t).view.emb y) = V c (Pipeline.arrRef spec0 5) y
  refine congrArg _ (funext fun a => Fin.ext ?_)
  match a with
  | ⟨0, _⟩ => show win0_5.index t (0 : Fin 2) * 1 + 1 * (y 0).val = (y 0).val; rw [h5.1]; omega
  | ⟨1, _⟩ => show win0_5.index t (1 : Fin 2) * 128 + 1 * (y 1).val = (y 1).val; rw [h5.2]; omega

set_option maxHeartbeats 1000000 in
/-- WHAT POINT t WRITES BACK to window 6: block t (rows 8t … 8t+7) of the table of the region's entry contents. -/
theorem flushed0_6 (c : Dev nD) (t : Fin cfg0.N) :
    (dat0 V c).flushed 6 t = ((cfg0.win 6).blk t).view.read (Elt Ideal) (tableAll (fun a => a) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  show (cfg0.win 6).cut (grid0.coords t) ((dat0 V c).after 6 t) = _
  rw [after0_6]
  obtain ⟨⟨a0, a1⟩, ⟨b0, b1⟩, -, -, -, -, ⟨o0, o1⟩, ⟨p0, p1⟩⟩ := idx0 t
  funext y
  refine (out6_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) (iblk0 V c 5 t) y).trans ?_
  show _ = tableEntry (fun a => a) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))
    ((((cfg0.win 6).blk t).view.emb y) 0) ((((cfg0.win 6).blk t).view.emb y) 1)
  refine stat_congr (fun a => a) (iblk0 V c 0 t) (iblk0 V c 1 t) (V c (Pipeline.arrRef spec0 0)) (V c (Pipeline.arrRef spec0 1))
    (iblk0 V c 2 t) (iblk0 V c 3 t) (V c (Pipeline.arrRef spec0 2)) (V c (Pipeline.arrRef spec0 3))
    (iblk0 V c 4 t) (iblk0 V c 5 t) (V c (Pipeline.arrRef spec0 4)) (V c (Pipeline.arrRef spec0 5))
    (y 0) ((((cfg0.win 6).blk t).view.emb y) 0) t.val ?_ (y 1) ((((cfg0.win 6).blk t).view.emb y) 1) (Fin.ext ?_)
    (fun p k r hr => ?_) (fun p k r hr => ?_) (blk0_2 V c t) (blk0_3 V c t) (blk0_4 V c t) (blk0_5 V c t)
  · show win0_6.index t (0 : Fin 2) * 8 + 1 * (y 0).val = t.val * 8 + (y 0).val
    rw [o0]; omega
  · show (y 1).val = win0_6.index t (1 : Fin 2) * 256 + 1 * (y 1).val
    rw [o1]; omega
  · show V c (Pipeline.arrRef spec0 0) (((cfg0.win 0).blk t).view.emb (ix2 p k)) = _
    refine congrArg _ (funext fun a => Fin.ext ?_)
    match a with
    | ⟨0, _⟩ => show win0_0.index t (0 : Fin 2) * 4000 + 1 * p.val = r.val; rw [a0, hr]; omega
    | ⟨1, _⟩ => show win0_0.index t (1 : Fin 2) * 128 + 1 * k.val = k.val; rw [a1]; omega
  · show V c (Pipeline.arrRef spec0 1) (((cfg0.win 1).blk t).view.emb (ix2 p k)) = _
    refine congrArg _ (funext fun a => Fin.ext ?_)
    match a with
    | ⟨0, _⟩ => show win0_1.index t (0 : Fin 2) * 4000 + 1 * p.val = r.val; rw [b0, hr]; omega
    | ⟨1, _⟩ => show win0_1.index t (1 : Fin 2) * 128 + 1 * k.val = k.val; rw [b1]; omega

/-- An index of table 6 is in point t's block iff each coordinate is in the block's range on its axis. -/
theorem mem_blk0_6 (t : Fin cfg0.N) (i : S200x256.Idx) :
    i ∈ ((cfg0.win 6).blk t).view.set ↔ ∀ a : Fin 2, win0_6.index t a * S8x256.size a ≤ (i a).val
      ∧ (i a).val < win0_6.index t a * S8x256.size a + S8x256.size a := by
  show i ∈ ((View.whole main_v15_0).slice (win0_6.rect t)).set ↔ _
  rw [View.set_slice_whole, Rect.mem_set_unit]
  exact Iff.rfl

/-- Row ρ of table 6 lies in the block of point ρ / 8. -/
theorem cover0_6 (i : S200x256.Idx) :
    ∃ t : Fin cfg0.N, (cfg0.win 6).flush t = true ∧ i ∈ ((cfg0.win 6).blk t).view.set := by
  have hi0 : (i 0).val < 200 := (i 0).isLt
  have hi1 : (i 1).val < 256 := (i 1).isLt
  have hN : (i 0).val / 8 < cfg0.N := by show _ < grid0.N; rw [N_0]; omega
  obtain ⟨-, -, -, -, -, -, ⟨o0, o1⟩, ⟨p0, p1⟩⟩ := idx0 ⟨(i 0).val / 8, hN⟩
  refine ⟨⟨(i 0).val / 8, hN⟩, flush0_6 _, ?_⟩
  rw [mem_blk0_6]
  intro a
  match a with
  | ⟨0, _⟩ =>
    show win0_6.index ⟨(i 0).val / 8, hN⟩ (0 : Fin 2) * 8 ≤ (i 0).val
      ∧ (i 0).val < win0_6.index ⟨(i 0).val / 8, hN⟩ (0 : Fin 2) * 8 + 8
    rw [o0]; show (i 0).val / 8 * 8 ≤ (i 0).val ∧ (i 0).val < (i 0).val / 8 * 8 + 8; omega
  | ⟨1, _⟩ =>
    show win0_6.index ⟨(i 0).val / 8, hN⟩ (1 : Fin 2) * 256 ≤ (i 1).val
      ∧ (i 1).val < win0_6.index ⟨(i 0).val / 8, hN⟩ (1 : Fin 2) * 256 + 256
    rw [o1]; omega

/-- TABLE 6 after the region. -/
theorem final0_6 (c : Dev nD) : (dat0 V c).arrAt 6 cfg0.N = tableAll (fun a => a) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 V c).arrAt_eq_of_cover 6 _ (fun t _ => flushed0_6 V c t) (cover0_6)

set_option maxHeartbeats 1000000 in
/-- WHAT POINT t WRITES BACK to window 7: block t (rows 8t … 8t+7) of the table of the region's entry contents. -/
theorem flushed0_7 (c : Dev nD) (t : Fin cfg0.N) :
    (dat0 V c).flushed 7 t = ((cfg0.win 7).blk t).view.read (Elt Ideal) (tableAll (fun a => a * a) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  show (cfg0.win 7).cut (grid0.coords t) ((dat0 V c).after 7 t) = _
  rw [after0_7]
  obtain ⟨⟨a0, a1⟩, ⟨b0, b1⟩, -, -, -, -, ⟨o0, o1⟩, ⟨p0, p1⟩⟩ := idx0 t
  funext y
  refine (out7_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) (iblk0 V c 5 t) y).trans ?_
  show _ = tableEntry (fun a => a * a) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))
    ((((cfg0.win 7).blk t).view.emb y) 0) ((((cfg0.win 7).blk t).view.emb y) 1)
  refine stat_congr (fun a => a * a) (iblk0 V c 0 t) (iblk0 V c 1 t) (V c (Pipeline.arrRef spec0 0)) (V c (Pipeline.arrRef spec0 1))
    (iblk0 V c 2 t) (iblk0 V c 3 t) (V c (Pipeline.arrRef spec0 2)) (V c (Pipeline.arrRef spec0 3))
    (iblk0 V c 4 t) (iblk0 V c 5 t) (V c (Pipeline.arrRef spec0 4)) (V c (Pipeline.arrRef spec0 5))
    (y 0) ((((cfg0.win 7).blk t).view.emb y) 0) t.val ?_ (y 1) ((((cfg0.win 7).blk t).view.emb y) 1) (Fin.ext ?_)
    (fun p k r hr => ?_) (fun p k r hr => ?_) (blk0_2 V c t) (blk0_3 V c t) (blk0_4 V c t) (blk0_5 V c t)
  · show win0_7.index t (0 : Fin 2) * 8 + 1 * (y 0).val = t.val * 8 + (y 0).val
    rw [p0]; omega
  · show (y 1).val = win0_7.index t (1 : Fin 2) * 256 + 1 * (y 1).val
    rw [p1]; omega
  · show V c (Pipeline.arrRef spec0 0) (((cfg0.win 0).blk t).view.emb (ix2 p k)) = _
    refine congrArg _ (funext fun a => Fin.ext ?_)
    match a with
    | ⟨0, _⟩ => show win0_0.index t (0 : Fin 2) * 4000 + 1 * p.val = r.val; rw [a0, hr]; omega
    | ⟨1, _⟩ => show win0_0.index t (1 : Fin 2) * 128 + 1 * k.val = k.val; rw [a1]; omega
  · show V c (Pipeline.arrRef spec0 1) (((cfg0.win 1).blk t).view.emb (ix2 p k)) = _
    refine congrArg _ (funext fun a => Fin.ext ?_)
    match a with
    | ⟨0, _⟩ => show win0_1.index t (0 : Fin 2) * 4000 + 1 * p.val = r.val; rw [b0, hr]; omega
    | ⟨1, _⟩ => show win0_1.index t (1 : Fin 2) * 128 + 1 * k.val = k.val; rw [b1]; omega

/-- An index of table 7 is in point t's block iff each coordinate is in the block's range on its axis. -/
theorem mem_blk0_7 (t : Fin cfg0.N) (i : S200x256.Idx) :
    i ∈ ((cfg0.win 7).blk t).view.set ↔ ∀ a : Fin 2, win0_7.index t a * S8x256.size a ≤ (i a).val
      ∧ (i a).val < win0_7.index t a * S8x256.size a + S8x256.size a := by
  show i ∈ ((View.whole main_v15_1).slice (win0_7.rect t)).set ↔ _
  rw [View.set_slice_whole, Rect.mem_set_unit]
  exact Iff.rfl

/-- Row ρ of table 7 lies in the block of point ρ / 8. -/
theorem cover0_7 (i : S200x256.Idx) :
    ∃ t : Fin cfg0.N, (cfg0.win 7).flush t = true ∧ i ∈ ((cfg0.win 7).blk t).view.set := by
  have hi0 : (i 0).val < 200 := (i 0).isLt
  have hi1 : (i 1).val < 256 := (i 1).isLt
  have hN : (i 0).val / 8 < cfg0.N := by show _ < grid0.N; rw [N_0]; omega
  obtain ⟨-, -, -, -, -, -, ⟨o0, o1⟩, ⟨p0, p1⟩⟩ := idx0 ⟨(i 0).val / 8, hN⟩
  refine ⟨⟨(i 0).val / 8, hN⟩, flush0_7 _, ?_⟩
  rw [mem_blk0_7]
  intro a
  match a with
  | ⟨0, _⟩ =>
    show win0_7.index ⟨(i 0).val / 8, hN⟩ (0 : Fin 2) * 8 ≤ (i 0).val
      ∧ (i 0).val < win0_7.index ⟨(i 0).val / 8, hN⟩ (0 : Fin 2) * 8 + 8
    rw [p0]; show (i 0).val / 8 * 8 ≤ (i 0).val ∧ (i 0).val < (i 0).val / 8 * 8 + 8; omega
  | ⟨1, _⟩ =>
    show win0_7.index ⟨(i 0).val / 8, hN⟩ (1 : Fin 2) * 256 ≤ (i 1).val
      ∧ (i 1).val < win0_7.index ⟨(i 0).val / 8, hN⟩ (1 : Fin 2) * 256 + 256
    rw [p1]; omega

/-- TABLE 7 after the region. -/
theorem final0_7 (c : Dev nD) : (dat0 V c).arrAt 7 cfg0.N = tableAll (fun a => a * a) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 V c).arrAt_eq_of_cover 7 _ (fun t _ => flushed0_7 V c t) (cover0_7)

end AtV

end Cert.KernelIdeal.Region0

end
-- ==== Proof.Region1.lean ====
/-
  The second region, from the buffer contents V it is entered with: the result array it leaves.

  Point t of the 25 normalises rows 4000t … 4000t+3999. It recomputes the two layers' activations of those rows
  from the rows of the features and of the aggregated neighbours, and writes, for column j,
  ((a − mean[j])·inv[j])·gamma[j] + beta[j], columns 0–127 from the first layer and 128–255 from the second.
  The 25 blocks of rows tile the array, so it ends holding that expression at every (r, j).
-/
import proofs.«124260_j60301340836383_2_alg».proof.Proof.Gen.KernelIdeal.Frame
import proofs.«124260_j60301340836383_2_alg».proof.Proof.Blocks
import proofs.«124260_j60301340836383_2_alg».proof.Proof.LibRowTable

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open BatchSpec Idealize.ShloMosaic.ValueIdx Cert.KernelIdeal.Blocks

/-- Entry (r, j) of the normalised array, from two row-indexed operands of M rows, two weight matrices, two bias
    rows and the four statistics rows. -/
def normEntry {M : ℕ} (a0 a1 : (⟨2, ![M, 128]⟩ : Shape).Idx → EReal) (a2 a3 : (⟨2, ![128, 128]⟩ : Shape).Idx → EReal)
    (a4 a5 : (⟨2, ![1, 128]⟩ : Shape).Idx → EReal) (a6 a7 a8 a9 : (⟨2, ![1, 256]⟩ : Shape).Idx → EReal)
    (r : Fin M) (j : Fin 256) : EReal :=
  if h : 128 ≤ j.val then
    ((act a1 a3 (fun q => a5 (ix2 (0 : Fin 1) q)) r ⟨j.val - 128, by have := j.isLt; omega⟩ - a6 (ix2 (0 : Fin 1) j))
        * a7 (ix2 (0 : Fin 1) j)) * a8 (ix2 (0 : Fin 1) j) + a9 (ix2 (0 : Fin 1) j)
  else
    ((act a0 a2 (fun q => a4 (ix2 (0 : Fin 1) q)) r ⟨j.val, by omega⟩ - a6 (ix2 (0 : Fin 1) j))
        * a7 (ix2 (0 : Fin 1) j)) * a8 (ix2 (0 : Fin 1) j) + a9 (ix2 (0 : Fin 1) j)

/-- The entry depends on the row-indexed operands only through row r. -/
theorem normEntry_congr {M M' : ℕ} (x0 x1 : (⟨2, ![M, 128]⟩ : Shape).Idx → EReal)
    (A0 A1 : (⟨2, ![M', 128]⟩ : Shape).Idx → EReal) (a2 a3 : (⟨2, ![128, 128]⟩ : Shape).Idx → EReal)
    (a4 a5 : (⟨2, ![1, 128]⟩ : Shape).Idx → EReal) (a6 a7 a8 a9 : (⟨2, ![1, 256]⟩ : Shape).Idx → EReal)
    (p : Fin M) (r : Fin M') (j j' : Fin 256) (hj : j = j')
    (h0 : ∀ k, x0 (ix2 p k) = A0 (ix2 r k)) (h1 : ∀ k, x1 (ix2 p k) = A1 (ix2 r k)) :
    normEntry x0 x1 a2 a3 a4 a5 a6 a7 a8 a9 p j = normEntry A0 A1 a2 a3 a4 a5 a6 a7 a8 a9 r j' := by
  subst hj
  unfold normEntry act
  simp only [h0, h1]

/-- The same, the other eight operands replaced along equalities. -/
theorem normEntry_congr' {M M' : ℕ} (x0 x1 : (⟨2, ![M, 128]⟩ : Shape).Idx → EReal)
    (A0 A1 : (⟨2, ![M', 128]⟩ : Shape).Idx → EReal) (x2 x3 a2 a3 : (⟨2, ![128, 128]⟩ : Shape).Idx → EReal)
    (x4 x5 a4 a5 : (⟨2, ![1, 128]⟩ : Shape).Idx → EReal) (x6 x7 x8 x9 a6 a7 a8 a9 : (⟨2, ![1, 256]⟩ : Shape).Idx → EReal)
    (p : Fin M) (r : Fin M') (j j' : Fin 256) (hj : j = j')
    (h0 : ∀ k, x0 (ix2 p k) = A0 (ix2 r k)) (h1 : ∀ k, x1 (ix2 p k) = A1 (ix2 r k))
    (h2 : x2 = a2) (h3 : x3 = a3) (h4 : x4 = a4) (h5 : x5 = a5) (h6 : x6 = a6) (h7 : x7 = a7) (h8 : x8 = a8)
    (h9 : x9 = a9) :
    normEntry x0 x1 x2 x3 x4 x5 x6 x7 x8 x9 p j = normEntry A0 A1 a2 a3 a4 a5 a6 a7 a8 a9 r j' := by
  subst h2 h3 h4 h5 h6 h7 h8 h9
  exact normEntry_congr x0 x1 A0 A1 x2 x3 x4 x5 x6 x7 x8 x9 p r j j' hj h0 h1

/-- The whole normalised array. -/
def normAll (a0 a1 : S100000x128.Idx → EReal) (a2 a3 : S128x128.Idx → EReal) (a4 a5 : S1x128.Idx → EReal)
    (a6 a7 a8 a9 : S1x256.Idx → EReal) : S100000x256.Idx → EReal :=
  fun i => normEntry (M := 100000) a0 a1 a2 a3 a4 a5 a6 a7 a8 a9 (i 0) (i 1)

theorem hz : (![0, 0] : Fin 2 → Nat) = fun _ => 0 :=
  funext fun a => by match a with | ⟨0, _⟩ => rfl | ⟨1, _⟩ => rfl

/-- A [1,128] row loaded whole, read at an entry. -/
theorem ld_bias (X : Vec Ideal S1x128 .f32) (i : S1x128.Idx) : View.ld (Val := Elt Ideal) X r1_2 i = X i :=
  congrFun (View.ld_unit_zero (S := S1x128) hz inb_S1x128_S1x128_0_0 X) i

/-- The left half of a [1,256] row, loaded as a [1,128] row, at column j < 128. -/
theorem ld_row_lo (X : Vec Ideal S1x256 .f32) (j : Fin 256) (h : ¬ 128 ≤ j.val) :
    View.ld (Val := Elt Ideal) X r1_3 (ix2 (0 : Fin 1) (⟨j.val, by omega⟩ : Fin 128)) = X (ix2 (0 : Fin 1) j) := by
  show X (r1_3.idx (ix2 (0 : Fin 1) (⟨j.val, by omega⟩ : Fin 128))) = _
  refine congrArg X (funext fun a => Fin.ext ?_)
  match a with
  | ⟨0, _⟩ => show 0 + 1 * 0 = 0; rfl
  | ⟨1, _⟩ => show 0 + 1 * j.val = j.val; omega

/-- The right half, at column j ≥ 128. -/
theorem ld_row_hi (X : Vec Ideal S1x256 .f32) (j : Fin 256) (h : 128 ≤ j.val) :
    View.ld (Val := Elt Ideal) X r1_4 (ix2 (0 : Fin 1) (⟨j.val - 128, by have := j.isLt; omega⟩ : Fin 128)) = X (ix2 (0 : Fin 1) j) := by
  show X (r1_4.idx (ix2 (0 : Fin 1) (⟨j.val - 128, by have := j.isLt; omega⟩ : Fin 128))) = _
  refine congrArg X (funext fun a => Fin.ext ?_)
  match a with
  | ⟨0, _⟩ => show 0 + 1 * 0 = 0; rfl
  | ⟨1, _⟩ => show 128 + 1 * (j.val - 128) = j.val; omega

/-- What the body leaves in the output block, entry by entry, from the blocks it loads. -/
theorem out_block (x0 x1 : Vec Ideal S4000x128 .f32) (x2 x3 : Vec Ideal S128x128 .f32) (x4 x5 : Vec Ideal S1x128 .f32)
    (x6 x7 x8 x9 : Vec Ideal S1x256 .f32) (y : S4000x256.Idx) :
    out1_10 (F := Ideal) x0 x1 x2 x3 x4 x5 x6 x7 x8 x9 y
      = normEntry (M := 4000) x0 x1 x2 x3 x4 x5 x6 x7 x8 x9 (y 0) (y 1) := by
  obtain ⟨p, j, rfl⟩ : ∃ (p : Fin 4000) (j : Fin 256), y = ix2 p j := ⟨y 0, y 1, eq_ix2 y⟩
  unfold out1_10
  simp only [View.ld_unit_zero (S := S4000x128) hz, View.ld_unit_zero (S := S128x128) hz,
    View.ld_unit_zero (S := S1x128) hz]
  refine (LibRowTable.canon_halves (A := 4000) inb_S4000x256_S4000x128_0_128 inb_S4000x256_S4000x128_0_0 _ _ p j).trans ?_
  unfold normEntry
  by_cases h : 128 ≤ j.val
  · rw [dif_pos h, dif_pos h]
    refine (norm_block' _ _ _ _ _ p _).trans ?_
    rw [act_block', row_self6, row_self8, ld_row_hi x6 j h, ld_row_hi x7 j h, ld_row_hi x8 j h, ld_row_hi x9 j h]
  · rw [dif_neg h, dif_neg h]
    refine (norm_block _ _ _ _ _ p _).trans ?_
    rw [act_block, row_self5, row_self7, row_self9, ld_row_lo x6 j h, ld_row_lo x7 j h, ld_row_lo x8 j h, ld_row_lo x9 j h]

section AtV
variable (V : (c : Dev nD) → (b : Ref sig .tc) → Buf (Elt Ideal) ((c : Thread nD τ).loc b))

/-- The index maps, decided over the 25 points: the two row-indexed operands and the output move with the point,
    every other window stays at its one block. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = t.val ∧ win1_10.index t (1 : Fin 2) = 0) :=
  (by decide +kernel : ∀ t : Fin grid1.N, _)

/-- Window 2 has one block, the whole array: its block at any point is the array. -/
theorem blk1_2 (c : Dev nD) (t : Fin cfg1.N) : iblk1 V c 2 t = V c (Pipeline.arrRef spec1 2) := by
  obtain ⟨-, -, h2, h3, h4, h5, h6, h7, h8, h9, -⟩ := idx1 t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 128 + 1 * (y 0).val = (y 0).val; rw [h2.1]; omega
  | ⟨1, _⟩ => show win1_2.index t (1 : Fin 2) * 128 + 1 * (y 1).val = (y 1).val; rw [h2.2]; omega

/-- Window 3 has one block, the whole array: its block at any point is the array. -/
theorem blk1_3 (c : Dev nD) (t : Fin cfg1.N) : iblk1 V c 3 t = V c (Pipeline.arrRef spec1 3) := by
  obtain ⟨-, -, h2, h3, h4, h5, h6, h7, h8, h9, -⟩ := idx1 t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 128 + 1 * (y 0).val = (y 0).val; rw [h3.1]; omega
  | ⟨1, _⟩ => show win1_3.index t (1 : Fin 2) * 128 + 1 * (y 1).val = (y 1).val; rw [h3.2]; omega

/-- Window 4 has one block, the whole array: its block at any point is the array. -/
theorem blk1_4 (c : Dev nD) (t : Fin cfg1.N) : iblk1 V c 4 t = V c (Pipeline.arrRef spec1 4) := by
  obtain ⟨-, -, h2, h3, h4, h5, h6, h7, h8, h9, -⟩ := idx1 t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; rw [h4.1]; omega
  | ⟨1, _⟩ => show win1_4.index t (1 : Fin 2) * 128 + 1 * (y 1).val = (y 1).val; rw [h4.2]; omega

/-- Window 5 has one block, the whole array: its block at any point is the array. -/
theorem blk1_5 (c : Dev nD) (t : Fin cfg1.N) : iblk1 V c 5 t = V c (Pipeline.arrRef spec1 5) := by
  obtain ⟨-, -, h2, h3, h4, h5, h6, h7, h8, h9, -⟩ := idx1 t
  funext y
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 1 + 1 * (y 0).val = (y 0).val; rw [h5.1]; omega
  | ⟨1, _⟩ => show win1_5.index t (1 : Fin 2) * 128 + 1 * (y 1).val = (y 1).val; rw [h5.2]; omega

/-- Window 6 has one block, the whole array: its block at any point is the array. -/
theorem blk1_6 (c : Dev nD) (t : Fin cfg1.N) : iblk1 V c 6 t = V c (Pipeline.arrRef spec1 6) := by
  obtain ⟨-, -, h2, h3, h4, h5, h6, h7, h8, h9, -⟩ := idx1 t
  funext y
  show V c (Pipeline.arrRef spec1 6) (((cfg1.win 6).blk t).view.emb y) = V c (Pipeline.arrRef spec1 6) y
  refine congrArg _ (funext fun a => Fin.ext ?_)
  match a with
  | ⟨0, _⟩ => show win1_6.index t (0 : Fin 2) * 1 + 1 * (y 0).val = (y 0).val; rw [h6.1]; omega
  | ⟨1, _⟩ => show win1_6.index t (1 : Fin 2) * 256 + 1 * (y 1).val = (y 1).val; rw [h6.2]; omega

/-- Window 7 has one block, the whole array: its block at any point is the array. -/
theorem blk1_7 (c : Dev nD) (t : Fin cfg1.N) : iblk1 V c 7 t = V c (Pipeline.arrRef spec1 7) := by
  obtain ⟨-, -, h2, h3, h4, h5, h6, h7, h8, h9, -⟩ := idx1 t
  funext y
  show V c (Pipeline.arrRef spec1 7) (((cfg1.win 7).blk t).view.emb y) = V c (Pipeline.arrRef spec1 7) y
  refine congrArg _ (funext fun a => Fin.ext ?_)
  match a with
  | ⟨0, _⟩ => show win1_7.index t (0 : Fin 2) * 1 + 1 * (y 0).val = (y 0).val; rw [h7.1]; omega
  | ⟨1, _⟩ => show win1_7.index t (1 : Fin 2) * 256 + 1 * (y 1).val = (y 1).val; rw [h7.2]; omega

/-- Window 8 has one block, the whole array: its block at any point is the array. -/
theorem blk1_8 (c : Dev nD) (t : Fin cfg1.N) : iblk1 V c 8 t = V c (Pipeline.arrRef spec1 8) := by
  obtain ⟨-, -, h2, h3, h4, h5, h6, h7, h8, h9, -⟩ := idx1 t
  funext y
  show V c (Pipeline.arrRef spec1 8) (((cfg1.win 8).blk t).view.emb y) = V c (Pipeline.arrRef spec1 8) y
  refine congrArg _ (funext fun a => Fin.ext ?_)
  match a with
  | ⟨0, _⟩ => show win1_8.index t (0 : Fin 2) * 1 + 1 * (y 0).val = (y 0).val; rw [h8.1]; omega
  | ⟨1, _⟩ => show win1_8.index t (1 : Fin 2) * 256 + 1 * (y 1).val = (y 1).val; rw [h8.2]; omega

/-- Window 9 has one block, the whole array: its block at any point is the array. -/
theorem blk1_9 (c : Dev nD) (t : Fin cfg1.N) : iblk1 V c 9 t = V c (Pipeline.arrRef spec1 9) := by
  obtain ⟨-, -, h2, h3, h4, h5, h6, h7, h8, h9, -⟩ := idx1 t
  funext y
  show V c (Pipeline.arrRef spec1 9) (((cfg1.win 9).blk t).view.emb y) = V c (Pipeline.arrRef spec1 9) y
  refine congrArg _ (funext fun a => Fin.ext ?_)
  match a with
  | ⟨0, _⟩ => show win1_9.index t (0 : Fin 2) * 1 + 1 * (y 0).val = (y 0).val; rw [h9.1]; omega
  | ⟨1, _⟩ => show win1_9.index t (1 : Fin 2) * 256 + 1 * (y 1).val = (y 1).val; rw [h9.2]; omega

set_option maxHeartbeats 1000000 in
/-- WHAT POINT t WRITES BACK: block t of the normalised array of the region's entry contents. -/
theorem flushed1 (c : Dev nD) (t : Fin cfg1.N) :
    (dat1 V c).flushed 10 t = ((cfg1.win 10).blk t).view.read (Elt Ideal) (normAll (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9))) := by
  show (cfg1.win 10).cut (grid1.coords t) ((dat1 V c).after 10 t) = _
  rw [after1_10]
  obtain ⟨⟨a0, a1⟩, ⟨b0, b1⟩, -, -, -, -, -, -, -, -, ⟨o0, o1⟩⟩ := idx1 t
  funext y
  refine (out_block (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) y).trans ?_
  show _ = normEntry (M := 100000) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9))
    ((((cfg1.win 10).blk t).view.emb y) 0) ((((cfg1.win 10).blk t).view.emb y) 1)
  refine normEntry_congr' (iblk1 V c 0 t) (iblk1 V c 1 t) (V c (Pipeline.arrRef spec1 0)) (V c (Pipeline.arrRef spec1 1))
    (iblk1 V c 2 t) (iblk1 V c 3 t) (V c (Pipeline.arrRef spec1 2)) (V c (Pipeline.arrRef spec1 3))
    (iblk1 V c 4 t) (iblk1 V c 5 t) (V c (Pipeline.arrRef spec1 4)) (V c (Pipeline.arrRef spec1 5))
    (iblk1 V c 6 t) (iblk1 V c 7 t) (iblk1 V c 8 t) (iblk1 V c 9 t)
    (V c (Pipeline.arrRef spec1 6)) (V c (Pipeline.arrRef spec1 7)) (V c (Pipeline.arrRef spec1 8)) (V c (Pipeline.arrRef spec1 9))
    (y 0) ((((cfg1.win 10).blk t).view.emb y) 0) (y 1) ((((cfg1.win 10).blk t).view.emb y) 1) (Fin.ext ?_)
    (fun k => ?_) (fun k => ?_)
    (blk1_2 V c t) (blk1_3 V c t) (blk1_4 V c t) (blk1_5 V c t) (blk1_6 V c t) (blk1_7 V c t) (blk1_8 V c t) (blk1_9 V c t)
  · show (y 1).val = win1_10.index t (1 : Fin 2) * 256 + 1 * (y 1).val
    rw [o1]; omega
  · show V c (Pipeline.arrRef spec1 0) (((cfg1.win 0).blk t).view.emb (ix2 (y 0) k)) = _
    refine congrArg _ (funext fun a => Fin.ext ?_)
    match a with
    | ⟨0, _⟩ =>
      show win1_0.index t (0 : Fin 2) * 4000 + 1 * (y 0).val = win1_10.index t (0 : Fin 2) * 4000 + 1 * (y 0).val
      rw [a0, o0]
    | ⟨1, _⟩ => show win1_0.index t (1 : Fin 2) * 128 + 1 * k.val = k.val; rw [a1]; omega
  · show V c (Pipeline.arrRef spec1 1) (((cfg1.win 1).blk t).view.emb (ix2 (y 0) k)) = _
    refine congrArg _ (funext fun a => Fin.ext ?_)
    match a with
    | ⟨0, _⟩ =>
      show win1_1.index t (0 : Fin 2) * 4000 + 1 * (y 0).val = win1_10.index t (0 : Fin 2) * 4000 + 1 * (y 0).val
      rw [b0, o0]
    | ⟨1, _⟩ => show win1_1.index t (1 : Fin 2) * 128 + 1 * k.val = k.val; rw [b1]; omega

/-- An index of the result array is in point t's block iff each coordinate is in the block's range on its axis. -/
theorem mem_blk1 (t : Fin cfg1.N) (i : S100000x256.Idx) :
    i ∈ ((cfg1.win 10).blk t).view.set ↔ ∀ a : Fin 2, win1_10.index t a * S4000x256.size a ≤ (i a).val
      ∧ (i a).val < win1_10.index t a * S4000x256.size a + S4000x256.size a := by
  show i ∈ ((View.whole main_v33).slice (win1_10.rect t)).set ↔ _
  rw [View.set_slice_whole, Rect.mem_set_unit]
  exact Iff.rfl

/-- Row r lies in the block of point r / 4000: the 25 blocks tile the array. -/
theorem cover1 (i : S100000x256.Idx) :
    ∃ t : Fin cfg1.N, (cfg1.win 10).flush t = true ∧ i ∈ ((cfg1.win 10).blk t).view.set := by
  have hi0 : (i 0).val < 100000 := (i 0).isLt
  have hi1 : (i 1).val < 256 := (i 1).isLt
  have hN : (i 0).val / 4000 < cfg1.N := by show _ < grid1.N; rw [N_1]; omega
  obtain ⟨-, -, -, -, -, -, -, -, -, -, ⟨o0, o1⟩⟩ := idx1 ⟨(i 0).val / 4000, hN⟩
  refine ⟨⟨(i 0).val / 4000, hN⟩, flush1_10 _, ?_⟩
  rw [mem_blk1]
  intro a
  match a with
  | ⟨0, _⟩ =>
    show win1_10.index ⟨(i 0).val / 4000, hN⟩ (0 : Fin 2) * 4000 ≤ (i 0).val
      ∧ (i 0).val < win1_10.index ⟨(i 0).val / 4000, hN⟩ (0 : Fin 2) * 4000 + 4000
    rw [o0]; show (i 0).val / 4000 * 4000 ≤ (i 0).val ∧ (i 0).val < (i 0).val / 4000 * 4000 + 4000; omega
  | ⟨1, _⟩ =>
    show win1_10.index ⟨(i 0).val / 4000, hN⟩ (1 : Fin 2) * 256 ≤ (i 1).val
      ∧ (i 1).val < win1_10.index ⟨(i 0).val / 4000, hN⟩ (1 : Fin 2) * 256 + 256
    rw [o1]; omega

/-- THE RESULT ARRAY after the region: the normalised array of the region's entry contents. -/
theorem final1 (c : Dev nD) :
    (dat1 V c).arrAt 10 cfg1.N = normAll (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) :=
  (dat1 V c).arrAt_eq_of_cover 10 _ (fun t _ => flushed1 V c t) (cover1)

end AtV

end Cert.KernelIdeal.Region1

end
-- ==== Proof.KernelValue.lean ====
/-
  The idealized kernel's result array as a function of its argument arrays.

  Before the first region the host lines build the neighbour aggregation and the two bias rows. The first region
  leaves the two tables of per-block column sums and sums of squares. The host lines between the regions sum each
  table's 200 rows, divide by 100000 — the mean and the mean of the squares —, take the mean of the squares less the
  squared mean as the variance, and the reciprocal square root of the variance plus ε. The second region
  normalises every row with those two vectors, gamma and beta.
-/
import proofs.«124260_j60301340836383_2_alg».proof.Proof.Gen.KernelIdeal.Frame
import Idealize.ShloMosaic.Lib.StableHlo.Run
import proofs.«124260_j60301340836383_2_alg».proof.Proof.Region0
import proofs.«124260_j60301340836383_2_alg».proof.Proof.Region1

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open BatchSpec Idealize.ShloMosaic.ValueIdx Cert.KernelIdeal.Region0 Cert.KernelIdeal.Region1 Idealize.ShloMosaic.StableHlo

/-! ## The host lines' values, named -/

/-- The column indices with the negative ones wrapped once. -/
def wrapCols (cols : IVec S800000 32) : IVec S800000 32 :=
  select (cmpi .slt cols (broadcastInDim S800000 ![] bcast_S_S800000 (constantI S_ 32 0#32)))
    (addi cols (broadcastInDim S800000 ![] bcast_S_S800000 (constantI S_ 32 100000#32))) cols

/-- The neighbour aggregation. -/
def hop (feat : FVec Ideal S100000x128 .f32) (vals : FVec Ideal S800000 .f32) (rows cols : IVec S800000 32) : FVec Ideal S100000x128 .f32 :=
  Host.scatterAdd (F := Ideal) scatter_S100000x128_S800000x1_S800000x128_1_0_0_1
    (broadcastInDim S100000x128 ![] bcast_S_S100000x128 (constant (F := Ideal) S_ .f32 0x00000000#32))
    (broadcastInDim S800000x1 ![0] bcast_S800000_S800000x1_0 rows)
    (mulf (F := Ideal) (broadcastInDim S800000x128 ![0, 1] bcast_S800000x1_S800000x128_0_1
        (broadcastInDim S800000x1 ![0] bcast_S800000_S800000x1_0 vals))
      (Host.gather gather_S100000x128_S800000x1_S800000x128_1_0_n_n_0_1_1128 feat
        (broadcastInDim S800000x1 ![0] bcast_S800000_S800000x1_0 (wrapCols cols))))

/-- A vector of 128 as a [1,128] row, and a vector of 256 as a [1,256] row. -/
def row128 (b : FVec Ideal S128 .f32) : FVec Ideal S1x128 .f32 := shapeCast S1x128 b shapeCasts_S128_S1x128
def row256 (v : FVec Ideal S256 .f32) : FVec Ideal S1x256 .f32 := shapeCast S1x256 v shapeCasts_S256_S1x256

/-- The column sums of a table of 200 rows, from zero. -/
def sumK (T : FVec Ideal S200x256 .f32) : FVec Ideal S256 .f32 :=
  Host.reduceAdd (F := Ideal) T (constant (F := Ideal) S_ .f32 0x00000000#32) reducesTo_S200x256_S256_d0 h_S_

/-- A table's column sums divided by 100000. -/
def meanK (T : FVec Ideal S200x256 .f32) : FVec Ideal S256 .f32 :=
  Host.divf (F := Ideal) (sumK T) (broadcastInDim S256 ![] bcast_S_S256 (constant (F := Ideal) S_ .f32 0x47C35000#32))

/-- The reciprocal square root of (mean of squares − squared mean + ε). -/
def invK (T T2 : FVec Ideal S200x256 .f32) : FVec Ideal S256 .f32 :=
  Host.rsqrt (F := Ideal) (addf (F := Ideal) (subf (F := Ideal) (meanK T2) (mulf (F := Ideal) (meanK T) (meanK T)))
    (broadcastInDim S256 ![] bcast_S_S256 (constant (F := Ideal) S_ .f32 0x3727C5AC#32)))

/-- The two tables and the result, from the argument arrays. -/
def tabK (g : EReal → EReal) (feat : FVec Ideal S100000x128 .f32) (vals : FVec Ideal S800000 .f32) (W0 W1 : FVec Ideal S128x128 .f32)
    (b0 b1 : FVec Ideal S128 .f32) (rows cols : IVec S800000 32) : FVec Ideal S200x256 .f32 :=
  tableAll g feat (hop feat vals rows cols) W0 W1 (row128 b0) (row128 b1)

def resultK (feat : FVec Ideal S100000x128 .f32) (vals : FVec Ideal S800000 .f32) (W0 W1 : FVec Ideal S128x128 .f32)
    (b0 b1 : FVec Ideal S128 .f32) (gamma beta : FVec Ideal S256 .f32) (rows cols : IVec S800000 32) : FVec Ideal S100000x256 .f32 :=
  normAll feat (hop feat vals rows cols) W0 W1 (row128 b0) (row128 b1)
    (row256 (meanK (tabK (fun a => a) feat vals W0 W1 b0 b1 rows cols)))
    (row256 (invK (tabK (fun a => a) feat vals W0 W1 b0 b1 rows cols) (tabK (fun a => a * a) feat vals W0 W1 b0 b1 rows cols)))
    (row256 gamma) (row256 beta)

/-- The whole arrays depend on their operands only through their values. -/
theorem tableAll_congr (g : EReal → EReal) {a0 a0' a1 a1' : S100000x128.Idx → EReal} {a2 a2' a3 a3' : S128x128.Idx → EReal}
    {a4 a4' a5 a5' : S1x128.Idx → EReal} (h0 : a0 = a0') (h1 : a1 = a1') (h2 : a2 = a2') (h3 : a3 = a3') (h4 : a4 = a4')
    (h5 : a5 = a5') : tableAll g a0 a1 a2 a3 a4 a5 = tableAll g a0' a1' a2' a3' a4' a5' := by
  subst h0 h1 h2 h3 h4 h5; rfl

theorem normAll_congr {a0 a0' a1 a1' : S100000x128.Idx → EReal} {a2 a2' a3 a3' : S128x128.Idx → EReal}
    {a4 a4' a5 a5' : S1x128.Idx → EReal} {a6 a6' a7 a7' a8 a8' a9 a9' : S1x256.Idx → EReal}
    (h0 : a0 = a0') (h1 : a1 = a1') (h2 : a2 = a2') (h3 : a3 = a3') (h4 : a4 = a4') (h5 : a5 = a5') (h6 : a6 = a6')
    (h7 : a7 = a7') (h8 : a8 = a8') (h9 : a9 = a9') :
    normAll a0 a1 a2 a3 a4 a5 a6 a7 a8 a9 = normAll a0' a1' a2' a3' a4' a5' a6' a7' a8' a9' := by
  subst h0 h1 h2 h3 h4 h5 h6 h7 h8 h9; rfl

/-! ## The two stretches of host lines, read at the buffers the regions use -/

theorem hostOps0_v12 (W : Valuation τ sig (Elt Ideal)) :
    StableHlo.after (hostOps0 (F := Ideal)) W (Proc.devRef .tc main_v12)
      = hop (W (Proc.devRef .tc main_arg0)) (W (Proc.devRef .tc main_arg1)) (W (Proc.devRef .tc main_arg8)) (W (Proc.devRef .tc main_arg9)) := by
  after_results
  rfl
theorem hostOps0_v13 (W : Valuation τ sig (Elt Ideal)) :
    StableHlo.after (hostOps0 (F := Ideal)) W (Proc.devRef .tc main_v13) = row128 (W (Proc.devRef .tc main_arg4)) := by
  after_results
  rfl
theorem hostOps0_v14 (W : Valuation τ sig (Elt Ideal)) :
    StableHlo.after (hostOps0 (F := Ideal)) W (Proc.devRef .tc main_v14) = row128 (W (Proc.devRef .tc main_arg5)) := by
  after_results
  rfl
theorem hostOps0_main_arg0 (W : Valuation τ sig (Elt Ideal)) :
    StableHlo.after (hostOps0 (F := Ideal)) W (Proc.devRef .tc main_arg0) = W (Proc.devRef .tc main_arg0) := by
  after_results
theorem hostOps0_main_arg2 (W : Valuation τ sig (Elt Ideal)) :
    StableHlo.after (hostOps0 (F := Ideal)) W (Proc.devRef .tc main_arg2) = W (Proc.devRef .tc main_arg2) := by
  after_results
theorem hostOps0_main_arg3 (W : Valuation τ sig (Elt Ideal)) :
    StableHlo.after (hostOps0 (F := Ideal)) W (Proc.devRef .tc main_arg3) = W (Proc.devRef .tc main_arg3) := by
  after_results
theorem hostOps0_main_arg4 (W : Valuation τ sig (Elt Ideal)) :
    StableHlo.after (hostOps0 (F := Ideal)) W (Proc.devRef .tc main_arg4) = W (Proc.devRef .tc main_arg4) := by
  after_results
theorem hostOps0_main_arg5 (W : Valuation τ sig (Elt Ideal)) :
    StableHlo.after (hostOps0 (F := Ideal)) W (Proc.devRef .tc main_arg5) = W (Proc.devRef .tc main_arg5) := by
  after_results
theorem hostOps0_main_arg6 (W : Valuation τ sig (Elt Ideal)) :
    StableHlo.after (hostOps0 (F := Ideal)) W (Proc.devRef .tc main_arg6) = W (Proc.devRef .tc main_arg6) := by
  after_results
theorem hostOps0_main_arg7 (W : Valuation τ sig (Elt Ideal)) :
    StableHlo.after (hostOps0 (F := Ideal)) W (Proc.devRef .tc main_arg7) = W (Proc.devRef .tc main_arg7) := by
  after_results

theorem hostOps1_v27 (W : Valuation τ sig (Elt Ideal)) :
    StableHlo.after (hostOps1 (F := Ideal)) W (Proc.devRef .tc main_v27) = row128 (W (Proc.devRef .tc main_arg4)) := by
  after_results
  rfl
theorem hostOps1_v28 (W : Valuation τ sig (Elt Ideal)) :
    StableHlo.after (hostOps1 (F := Ideal)) W (Proc.devRef .tc main_v28) = row128 (W (Proc.devRef .tc main_arg5)) := by
  after_results
  rfl
theorem hostOps1_v29 (W : Valuation τ sig (Elt Ideal)) :
    StableHlo.after (hostOps1 (F := Ideal)) W (Proc.devRef .tc main_v29) = row256 (meanK (W (Proc.devRef .tc main_v15_0))) := by
  after_results
  rfl
theorem hostOps1_v30 (W : Valuation τ sig (Elt Ideal)) :
    StableHlo.after (hostOps1 (F := Ideal)) W (Proc.devRef .tc main_v30)
      = row256 (invK (W (Proc.devRef .tc main_v15_0)) (W (Proc.devRef .tc main_v15_1))) := by
  after_results
  rfl
theorem hostOps1_v31 (W : Valuation τ sig (Elt Ideal)) :
    StableHlo.after (hostOps1 (F := Ideal)) W (Proc.devRef .tc main_v31) = row256 (W (Proc.devRef .tc main_arg6)) := by
  after_results
  rfl
theorem hostOps1_v32 (W : Valuation τ sig (Elt Ideal)) :
    StableHlo.after (hostOps1 (F := Ideal)) W (Proc.devRef .tc main_v32) = row256 (W (Proc.devRef .tc main_arg7)) := by
  after_results
  rfl
theorem hostOps1_main_arg0 (W : Valuation τ sig (Elt Ideal)) :
    StableHlo.after (hostOps1 (F := Ideal)) W (Proc.devRef .tc main_arg0) = W (Proc.devRef .tc main_arg0) := by
  after_results
theorem hostOps1_main_v12 (W : Valuation τ sig (Elt Ideal)) :
    StableHlo.after (hostOps1 (F := Ideal)) W (Proc.devRef .tc main_v12) = W (Proc.devRef .tc main_v12) := by
  after_results
theorem hostOps1_main_arg2 (W : Valuation τ sig (Elt Ideal)) :
    StableHlo.after (hostOps1 (F := Ideal)) W (Proc.devRef .tc main_arg2) = W (Proc.devRef .tc main_arg2) := by
  after_results
theorem hostOps1_main_arg3 (W : Valuation τ sig (Elt Ideal)) :
    StableHlo.after (hostOps1 (F := Ideal)) W (Proc.devRef .tc main_arg3) = W (Proc.devRef .tc main_arg3) := by
  after_results

/-! ## The buffers at each boundary, walked back to the argument arrays -/

section Walk
variable (m : (ℓ : Loc nD τ sig) → Buf (Elt Ideal) ℓ) (ρ : Dev nD → PrngReg) (c : Dev nD)

theorem w1_arg0 : W1 m ρ c (Proc.devRef .tc main_arg0) = (m ((c : Thread nD τ).loc main_arg0)) := hostOps0_main_arg0 (W0 m ρ c)
theorem w1_arg2 : W1 m ρ c (Proc.devRef .tc main_arg2) = (m ((c : Thread nD τ).loc main_arg2)) := hostOps0_main_arg2 (W0 m ρ c)
theorem w1_arg3 : W1 m ρ c (Proc.devRef .tc main_arg3) = (m ((c : Thread nD τ).loc main_arg3)) := hostOps0_main_arg3 (W0 m ρ c)
theorem w1_arg4 : W1 m ρ c (Proc.devRef .tc main_arg4) = (m ((c : Thread nD τ).loc main_arg4)) := hostOps0_main_arg4 (W0 m ρ c)
theorem w1_arg5 : W1 m ρ c (Proc.devRef .tc main_arg5) = (m ((c : Thread nD τ).loc main_arg5)) := hostOps0_main_arg5 (W0 m ρ c)
theorem w1_arg6 : W1 m ρ c (Proc.devRef .tc main_arg6) = (m ((c : Thread nD τ).loc main_arg6)) := hostOps0_main_arg6 (W0 m ρ c)
theorem w1_arg7 : W1 m ρ c (Proc.devRef .tc main_arg7) = (m ((c : Thread nD τ).loc main_arg7)) := hostOps0_main_arg7 (W0 m ρ c)
theorem w1_v12 : W1 m ρ c (Proc.devRef .tc main_v12)
    = hop (m ((c : Thread nD τ).loc main_arg0)) (m ((c : Thread nD τ).loc main_arg1)) (m ((c : Thread nD τ).loc main_arg8)) (m ((c : Thread nD τ).loc main_arg9)) := hostOps0_v12 (W0 m ρ c)
theorem w1_v13 : W1 m ρ c (Proc.devRef .tc main_v13) = row128 (m ((c : Thread nD τ).loc main_arg4)) := hostOps0_v13 (W0 m ρ c)
theorem w1_v14 : W1 m ρ c (Proc.devRef .tc main_v14) = row128 (m ((c : Thread nD τ).loc main_arg5)) := hostOps0_v14 (W0 m ρ c)

/-- The first region's input arrays leave it as they entered. -/
theorem w2_in0 : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem w2_in1 : W2 m ρ c (Proc.devRef .tc main_v12) = W1 m ρ c (Proc.devRef .tc main_v12) :=
  (W2_arr m ρ c 1).trans (((dat0 (V1 m ρ) c).arrAt_in 1 rfl _).trans (A_eq0 (V1 m ρ) c 1))
theorem w2_in2 : W2 m ρ c (Proc.devRef .tc main_arg2) = W1 m ρ c (Proc.devRef .tc main_arg2) :=
  (W2_arr m ρ c 2).trans (((dat0 (V1 m ρ) c).arrAt_in 2 rfl _).trans (A_eq0 (V1 m ρ) c 2))
theorem w2_in3 : W2 m ρ c (Proc.devRef .tc main_arg3) = W1 m ρ c (Proc.devRef .tc main_arg3) :=
  (W2_arr m ρ c 3).trans (((dat0 (V1 m ρ) c).arrAt_in 3 rfl _).trans (A_eq0 (V1 m ρ) c 3))
theorem w2_arg4 : W2 m ρ c (Proc.devRef .tc main_arg4) = (m ((c : Thread nD τ).loc main_arg4)) :=
  (W2_of_ne m ρ c main_arg4 (by decide)).trans (w1_arg4 m ρ c)
theorem w2_arg5 : W2 m ρ c (Proc.devRef .tc main_arg5) = (m ((c : Thread nD τ).loc main_arg5)) :=
  (W2_of_ne m ρ c main_arg5 (by decide)).trans (w1_arg5 m ρ c)
theorem w2_arg6 : W2 m ρ c (Proc.devRef .tc main_arg6) = (m ((c : Thread nD τ).loc main_arg6)) :=
  (W2_of_ne m ρ c main_arg6 (by decide)).trans (w1_arg6 m ρ c)
theorem w2_arg7 : W2 m ρ c (Proc.devRef .tc main_arg7) = (m ((c : Thread nD τ).loc main_arg7)) :=
  (W2_of_ne m ρ c main_arg7 (by decide)).trans (w1_arg7 m ρ c)

/-- The two tables after the first region. -/
theorem w2_tab : W2 m ρ c (Proc.devRef .tc main_v15_0)
    = tabK (fun a => a) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg8)) (m ((c : Thread nD τ).loc main_arg9)) :=
  (W2_arr m ρ c 6).trans ((final0_6 (V1 m ρ) c).trans (tableAll_congr _ (w1_arg0 m ρ c) (w1_v12 m ρ c) (w1_arg2 m ρ c)
    (w1_arg3 m ρ c) (w1_v13 m ρ c) (w1_v14 m ρ c)))
theorem w2_tab2 : W2 m ρ c (Proc.devRef .tc main_v15_1)
    = tabK (fun a => a * a) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg8)) (m ((c : Thread nD τ).loc main_arg9)) :=
  (W2_arr m ρ c 7).trans ((final0_7 (V1 m ρ) c).trans (tableAll_congr _ (w1_arg0 m ρ c) (w1_v12 m ρ c) (w1_arg2 m ρ c)
    (w1_arg3 m ρ c) (w1_v13 m ρ c) (w1_v14 m ρ c)))

/-- The second region's ten operands. -/
theorem w3_arg0 : W3 m ρ c (Proc.devRef .tc main_arg0) = (m ((c : Thread nD τ).loc main_arg0)) :=
  (hostOps1_main_arg0 (W2 m ρ c)).trans ((w2_in0 m ρ c).trans (w1_arg0 m ρ c))
theorem w3_v12 : W3 m ρ c (Proc.devRef .tc main_v12)
    = hop (m ((c : Thread nD τ).loc main_arg0)) (m ((c : Thread nD τ).loc main_arg1)) (m ((c : Thread nD τ).loc main_arg8)) (m ((c : Thread nD τ).loc main_arg9)) :=
  (hostOps1_main_v12 (W2 m ρ c)).trans ((w2_in1 m ρ c).trans (w1_v12 m ρ c))
theorem w3_arg2 : W3 m ρ c (Proc.devRef .tc main_arg2) = (m ((c : Thread nD τ).loc main_arg2)) :=
  (hostOps1_main_arg2 (W2 m ρ c)).trans ((w2_in2 m ρ c).trans (w1_arg2 m ρ c))
theorem w3_arg3 : W3 m ρ c (Proc.devRef .tc main_arg3) = (m ((c : Thread nD τ).loc main_arg3)) :=
  (hostOps1_main_arg3 (W2 m ρ c)).trans ((w2_in3 m ρ c).trans (w1_arg3 m ρ c))
theorem w3_v27 : W3 m ρ c (Proc.devRef .tc main_v27) = row128 (m ((c : Thread nD τ).loc main_arg4)) :=
  (hostOps1_v27 (W2 m ρ c)).trans (congrArg row128 (w2_arg4 m ρ c))
theorem w3_v28 : W3 m ρ c (Proc.devRef .tc main_v28) = row128 (m ((c : Thread nD τ).loc main_arg5)) :=
  (hostOps1_v28 (W2 m ρ c)).trans (congrArg row128 (w2_arg5 m ρ c))
theorem w3_v29 : W3 m ρ c (Proc.devRef .tc main_v29)
    = row256 (meanK (tabK (fun a => a) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg8)) (m ((c : Thread nD τ).loc main_arg9)))) :=
  (hostOps1_v29 (W2 m ρ c)).trans (congrArg (fun T => row256 (meanK T)) (w2_tab m ρ c))
theorem w3_v30 : W3 m ρ c (Proc.devRef .tc main_v30)
    = row256 (invK (tabK (fun a => a) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg8)) (m ((c : Thread nD τ).loc main_arg9)))
      (tabK (fun a => a * a) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg8)) (m ((c : Thread nD τ).loc main_arg9)))) :=
  (hostOps1_v30 (W2 m ρ c)).trans (by rw [w2_tab m ρ c, w2_tab2 m ρ c])
theorem w3_v31 : W3 m ρ c (Proc.devRef .tc main_v31) = row256 (m ((c : Thread nD τ).loc main_arg6)) :=
  (hostOps1_v31 (W2 m ρ c)).trans (congrArg row256 (w2_arg6 m ρ c))
theorem w3_v32 : W3 m ρ c (Proc.devRef .tc main_v32) = row256 (m ((c : Thread nD τ).loc main_arg7)) :=
  (hostOps1_v32 (W2 m ρ c)).trans (congrArg row256 (w2_arg7 m ρ c))

/-- THE RESULT ARRAY at the last boundary, from the argument arrays. -/
theorem result_value : W4 m ρ c (Proc.devRef .tc main_v33)
    = resultK (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9)) :=
  (W4_arr m ρ c 10).trans ((final1 (V3 m ρ) c).trans (normAll_congr (w3_arg0 m ρ c) (w3_v12 m ρ c) (w3_arg2 m ρ c)
    (w3_arg3 m ρ c) (w3_v27 m ρ c) (w3_v28 m ρ c) (w3_v29 m ρ c) (w3_v30 m ρ c) (w3_v31 m ρ c) (w3_v32 m ρ c)))

end Walk

end Cert.KernelIdeal.KValue

end
-- ==== Proof.RefRun.lean ====
/-
  The reference program as one straight line of 75 host operations, and its run.

  The program calls three small functions (a rectifier, twice; the variance of the columns; a selection inside it).
  A call runs the callee's operations on the call's own buffers, so the program is the list of its own operations
  with each callee's operations written out where it is called. Every weakly fair execution of such a list
  terminates, and each buffer ends at the fold of the operations over the launch contents.
-/
import proofs.«124260_j60301340836383_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations in order, each callee's written out at its call over that call's own buffers. -/
abbrev ops : List (HloOp τ sig (Elt F)) :=
  [
    StableHlo.unary main_arg1 main_v0 (broadcastInDim S800000x1 ![0] bcast_S800000_S800000x1_0 : (⟨S800000, .f32⟩ : BufTy).Contents (Elt F) → (⟨S800000x1, .f32⟩ : BufTy).Contents (Elt F)),
    StableHlo.nullary main_c (constantI S_ 32 0#32),
    StableHlo.unary main_c main_v1 (broadcastInDim S800000 ![] bcast_S_S800000 : (⟨S_, .i32⟩ : BufTy).Contents (Elt F) → (⟨S800000, .i32⟩ : BufTy).Contents (Elt F)),
    StableHlo.binary main_arg9 main_v1 main_v2 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 100000#32),
    StableHlo.unary main_c_0 main_v3 (broadcastInDim S800000 ![] bcast_S_S800000 : (⟨S_, .i32⟩ : BufTy).Contents (Elt F) → (⟨S800000, .i32⟩ : BufTy).Contents (Elt F)),
    StableHlo.binary main_arg9 main_v3 main_v4 (addi : (⟨S800000, .i32⟩ : BufTy).Contents (Elt F) → (⟨S800000, .i32⟩ : BufTy).Contents (Elt F) → (⟨S800000, .i32⟩ : BufTy).Contents (Elt F)),
    StableHlo.ternary main_v2 main_v4 main_arg9 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v5 main_v6 (broadcastInDim S800000x1 ![0] bcast_S800000_S800000x1_0 : (⟨S800000, .i32⟩ : BufTy).Contents (Elt F) → (⟨S800000x1, .i32⟩ : BufTy).Contents (Elt F)),
    StableHlo.binary main_arg0 main_v6 main_v7 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.unary main_v0 main_v8 (broadcastInDim S800000x128 ![0, 1] bcast_S800000x1_S800000x128_0_1 : (⟨S800000x1, .f32⟩ : BufTy).Contents (Elt F) → (⟨S800000x128, .f32⟩ : BufTy).Contents (Elt F)),
    StableHlo.binary main_v8 main_v7 main_v9 (mulf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.unary main_cst main_v10 (broadcastInDim S100000x128 ![] bcast_S_S100000x128 : (⟨S_, .f32⟩ : BufTy).Contents (Elt F) → (⟨S100000x128, .f32⟩ : BufTy).Contents (Elt F)),
    StableHlo.unary main_arg8 main_v11 (broadcastInDim S800000x1 ![0] bcast_S800000_S800000x1_0 : (⟨S800000, .i32⟩ : BufTy).Contents (Elt F) → (⟨S800000x1, .i32⟩ : BufTy).Contents (Elt F)),
    StableHlo.ternary main_v10 main_v11 main_v9 main_v12 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.binary main_arg0 main_arg2 main_v13 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_call0_cst (constant S_ .f32 0x00000000#32 : (⟨S_, .f32⟩ : BufTy).Contents (Elt F)),
    StableHlo.unary main_call0_cst main_call0_v0 (broadcastInDim S100000x128 ![] bcast_S_S100000x128 : (⟨S_, .f32⟩ : BufTy).Contents (Elt F) → (⟨S100000x128, .f32⟩ : BufTy).Contents (Elt F)),
    StableHlo.binary main_v13 main_call0_v0 main_v14 (maximumf : (⟨S100000x128, .f32⟩ : BufTy).Contents (Elt F) → (⟨S100000x128, .f32⟩ : BufTy).Contents (Elt F) → (⟨S100000x128, .f32⟩ : BufTy).Contents (Elt F)),
    StableHlo.unary main_arg4 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S100000x128 ![0, 1] bcast_S1x128_S100000x128_0_1 : (⟨S1x128, .f32⟩ : BufTy).Contents (Elt F) → (⟨S100000x128, .f32⟩ : BufTy).Contents (Elt F)),
    StableHlo.binary main_v14 main_v16 main_v17 (addf : (⟨S100000x128, .f32⟩ : BufTy).Contents (Elt F) → (⟨S100000x128, .f32⟩ : BufTy).Contents (Elt F) → (⟨S100000x128, .f32⟩ : BufTy).Contents (Elt F)),
    StableHlo.binary main_v12 main_arg3 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_call1_cst (constant S_ .f32 0x00000000#32 : (⟨S_, .f32⟩ : BufTy).Contents (Elt F)),
    StableHlo.unary main_call1_cst main_call1_v0 (broadcastInDim S100000x128 ![] bcast_S_S100000x128 : (⟨S_, .f32⟩ : BufTy).Contents (Elt F) → (⟨S100000x128, .f32⟩ : BufTy).Contents (Elt F)),
    StableHlo.binary main_v18 main_call1_v0 main_v19 (maximumf : (⟨S100000x128, .f32⟩ : BufTy).Contents (Elt F) → (⟨S100000x128, .f32⟩ : BufTy).Contents (Elt F) → (⟨S100000x128, .f32⟩ : BufTy).Contents (Elt F)),
    StableHlo.unary main_arg5 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S100000x128 ![0, 1] bcast_S1x128_S100000x128_0_1 : (⟨S1x128, .f32⟩ : BufTy).Contents (Elt F) → (⟨S100000x128, .f32⟩ : BufTy).Contents (Elt F)),
    StableHlo.binary main_v19 main_v21 main_v22 (addf : (⟨S100000x128, .f32⟩ : BufTy).Contents (Elt F) → (⟨S100000x128, .f32⟩ : BufTy).Contents (Elt F) → (⟨S100000x128, .f32⟩ : BufTy).Contents (Elt F)),
    StableHlo.binary main_v17 main_v22 main_v23 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.nullary main_cst_1 (constant S_ .f32 0x00000000#32),
    StableHlo.binary main_v23 main_cst_1 main_v24 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_2 (constant S_ .f32 0x47C35000#32),
    StableHlo.unary main_cst_2 main_v25 (broadcastInDim S256 ![] bcast_S_S256 : (⟨S_, .f32⟩ : BufTy).Contents (Elt F) → (⟨S256, .f32⟩ : BufTy).Contents (Elt F)),
    StableHlo.binary main_v24 main_v25 main_v26 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32),
    StableHlo.nullary main_call2_cst (constant S_ .f32 0x00000000#32 : (⟨S_, .f32⟩ : BufTy).Contents (Elt F)),
    StableHlo.binary main_v23 main_call2_cst main_call2_v0 (fun x v => Host.reduceAdd x v reducesTo_S100000x256_S256_d0 h_S_ : (⟨S100000x256, .f32⟩ : BufTy).Contents (Elt F) → (⟨S_, .f32⟩ : BufTy).Contents (Elt F) → (⟨S256, .f32⟩ : BufTy).Contents (Elt F)),
    StableHlo.unary main_call2_v0 main_call2_v1 (broadcastInDim S1x256 ![1] bcast_S256_S1x256_1 : (⟨S256, .f32⟩ : BufTy).Contents (Elt F) → (⟨S1x256, .f32⟩ : BufTy).Contents (Elt F)),
    StableHlo.nullary main_call2_cst_0 (constant S_ .f32 0x47C35000#32 : (⟨S_, .f32⟩ : BufTy).Contents (Elt F)),
    StableHlo.unary main_call2_cst_0 main_call2_v2 (broadcastInDim S1x256 ![] bcast_S_S1x256 : (⟨S_, .f32⟩ : BufTy).Contents (Elt F) → (⟨S1x256, .f32⟩ : BufTy).Contents (Elt F)),
    StableHlo.binary main_call2_v1 main_call2_v2 main_call2_v3 (Host.divf : (⟨S1x256, .f32⟩ : BufTy).Contents (Elt F) → (⟨S1x256, .f32⟩ : BufTy).Contents (Elt F) → (⟨S1x256, .f32⟩ : BufTy).Contents (Elt F)),
    StableHlo.unary main_call2_v3 main_call2_v4 (broadcastInDim S100000x256 ![0, 1] bcast_S1x256_S100000x256_0_1 : (⟨S1x256, .f32⟩ : BufTy).Contents (Elt F) → (⟨S100000x256, .f32⟩ : BufTy).Contents (Elt F)),
    StableHlo.binary main_v23 main_call2_v4 main_call2_v5 (subf : (⟨S100000x256, .f32⟩ : BufTy).Contents (Elt F) → (⟨S100000x256, .f32⟩ : BufTy).Contents (Elt F) → (⟨S100000x256, .f32⟩ : BufTy).Contents (Elt F)),
    StableHlo.binary main_call2_v5 main_call2_v5 main_call2_v6 (mulf : (⟨S100000x256, .f32⟩ : BufTy).Contents (Elt F) → (⟨S100000x256, .f32⟩ : BufTy).Contents (Elt F) → (⟨S100000x256, .f32⟩ : BufTy).Contents (Elt F)),
    StableHlo.unary main_c_3 main_call2_v7 (sitofp .f32 : (⟨S_, .i32⟩ : BufTy).Contents (Elt F) → (⟨S_, .f32⟩ : BufTy).Contents (Elt F)),
    StableHlo.nullary main_call2_cst_1 (constant S_ .f32 0x47C35000#32 : (⟨S_, .f32⟩ : BufTy).Contents (Elt F)),
    StableHlo.binary main_call2_cst_1 main_call2_v7 main_call2_v8 (subf : (⟨S_, .f32⟩ : BufTy).Contents (Elt F) → (⟨S_, .f32⟩ : BufTy).Contents (Elt F) → (⟨S_, .f32⟩ : BufTy).Contents (Elt F)),
    StableHlo.nullary main_call2_cst_2 (constant S_ .f32 0x00000000#32 : (⟨S_, .f32⟩ : BufTy).Contents (Elt F)),
    StableHlo.binary main_call2_v6 main_call2_cst_2 main_call2_v9 (fun x v => Host.reduceAdd x v reducesTo_S100000x256_S256_d0 h_S_ : (⟨S100000x256, .f32⟩ : BufTy).Contents (Elt F) → (⟨S_, .f32⟩ : BufTy).Contents (Elt F) → (⟨S256, .f32⟩ : BufTy).Contents (Elt F)),
    StableHlo.unary main_call2_v8 main_call2_v10 (broadcastInDim S256 ![] bcast_S_S256 : (⟨S_, .f32⟩ : BufTy).Contents (Elt F) → (⟨S256, .f32⟩ : BufTy).Contents (Elt F)),
    StableHlo.binary main_call2_v9 main_call2_v10 main_call2_v11 (Host.divf : (⟨S256, .f32⟩ : BufTy).Contents (Elt F) → (⟨S256, .f32⟩ : BufTy).Contents (Elt F) → (⟨S256, .f32⟩ : BufTy).Contents (Elt F)),
    StableHlo.nullary main_call2_cst_3 (constant S_ .f32 0x00000000#32 : (⟨S_, .f32⟩ : BufTy).Contents (Elt F)),
    StableHlo.binary main_call2_v8 main_call2_cst_3 main_call2_v12 (cmpf .ogt : (⟨S_, .f32⟩ : BufTy).Contents (Elt F) → (⟨S_, .f32⟩ : BufTy).Contents (Elt F) → (⟨S_, .i1⟩ : BufTy).Contents (Elt F)),
    StableHlo.nullary main_call2_cst_4 (constant S_ .f32 0x7FC00000#32 : (⟨S_, .f32⟩ : BufTy).Contents (Elt F)),
    StableHlo.unary main_call2_cst_4 main_call2_call0_v0 (id : (⟨S_, .f32⟩ : BufTy).Contents (Elt F) → (⟨S_, .f32⟩ : BufTy).Contents (Elt F)),
    StableHlo.unary main_call2_call0_v0 main_call2_call0_v1 (broadcastInDim S256 ![] bcast_S_S256 : (⟨S_, .f32⟩ : BufTy).Contents (Elt F) → (⟨S256, .f32⟩ : BufTy).Contents (Elt F)),
    StableHlo.ternary main_call2_v12 main_call2_v11 main_call2_call0_v1 main_v27 (fun p a b => select (broadcastInDim S256 ![] bcast_S_S256 p) a b : (⟨S_, .i1⟩ : BufTy).Contents (Elt F) → (⟨S256, .f32⟩ : BufTy).Contents (Elt F) → (⟨S256, .f32⟩ : BufTy).Contents (Elt F) → (⟨S256, .f32⟩ : BufTy).Contents (Elt F)),
    StableHlo.unary main_v26 main_v28 (broadcastInDim S1x256 ![1] bcast_S256_S1x256_1 : (⟨S256, .f32⟩ : BufTy).Contents (Elt F) → (⟨S1x256, .f32⟩ : BufTy).Contents (Elt F)),
    StableHlo.unary main_v28 main_v29 (broadcastInDim S100000x256 ![0, 1] bcast_S1x256_S100000x256_0_1 : (⟨S1x256, .f32⟩ : BufTy).Contents (Elt F) → (⟨S100000x256, .f32⟩ : BufTy).Contents (Elt F)),
    StableHlo.binary main_v23 main_v29 main_v30 (subf : (⟨S100000x256, .f32⟩ : BufTy).Contents (Elt F) → (⟨S100000x256, .f32⟩ : BufTy).Contents (Elt F) → (⟨S100000x256, .f32⟩ : BufTy).Contents (Elt F)),
    StableHlo.nullary main_cst_4 (constant S_ .f32 0x3727C5AC#32),
    StableHlo.unary main_cst_4 main_v31 (broadcastInDim S256 ![] bcast_S_S256 : (⟨S_, .f32⟩ : BufTy).Contents (Elt F) → (⟨S256, .f32⟩ : BufTy).Contents (Elt F)),
    StableHlo.binary main_v27 main_v31 main_v32 (addf : (⟨S256, .f32⟩ : BufTy).Contents (Elt F) → (⟨S256, .f32⟩ : BufTy).Contents (Elt F) → (⟨S256, .f32⟩ : BufTy).Contents (Elt F)),
    StableHlo.unary main_v32 main_v33 (Host.rsqrt : (⟨S256, .f32⟩ : BufTy).Contents (Elt F) → (⟨S256, .f32⟩ : BufTy).Contents (Elt F)),
    StableHlo.unary main_v33 main_v34 (broadcastInDim S1x256 ![1] bcast_S256_S1x256_1 : (⟨S256, .f32⟩ : BufTy).Contents (Elt F) → (⟨S1x256, .f32⟩ : BufTy).Contents (Elt F)),
    StableHlo.unary main_v34 main_v35 (broadcastInDim S100000x256 ![0, 1] bcast_S1x256_S100000x256_0_1 : (⟨S1x256, .f32⟩ : BufTy).Contents (Elt F) → (⟨S100000x256, .f32⟩ : BufTy).Contents (Elt F)),
    StableHlo.binary main_v30 main_v35 main_v36 (mulf : (⟨S100000x256, .f32⟩ : BufTy).Contents (Elt F) → (⟨S100000x256, .f32⟩ : BufTy).Contents (Elt F) → (⟨S100000x256, .f32⟩ : BufTy).Contents (Elt F)),
    StableHlo.unary main_arg6 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S100000x256 ![0, 1] bcast_S1x256_S100000x256_0_1 : (⟨S1x256, .f32⟩ : BufTy).Contents (Elt F) → (⟨S100000x256, .f32⟩ : BufTy).Contents (Elt F)),
    StableHlo.binary main_v36 main_v38 main_v39 (mulf : (⟨S100000x256, .f32⟩ : BufTy).Contents (Elt F) → (⟨S100000x256, .f32⟩ : BufTy).Contents (Elt F) → (⟨S100000x256, .f32⟩ : BufTy).Contents (Elt F)),
    StableHlo.unary main_arg7 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S100000x256 ![0, 1] bcast_S1x256_S100000x256_0_1 : (⟨S1x256, .f32⟩ : BufTy).Contents (Elt F) → (⟨S100000x256, .f32⟩ : BufTy).Contents (Elt F)),
    StableHlo.binary main_v39 main_v41 main_v42 (addf : (⟨S100000x256, .f32⟩ : BufTy).Contents (Elt F) → (⟨S100000x256, .f32⟩ : BufTy).Contents (Elt F) → (⟨S100000x256, .f32⟩ : BufTy).Contents (Elt F)) ]

/-- Stretch 1 of the program's operations. -/
abbrev seg1 : List (HloOp τ sig (Elt F)) :=
  [
    StableHlo.unary main_arg1 main_v0 (broadcastInDim S800000x1 ![0] bcast_S800000_S800000x1_0 : (⟨S800000, .f32⟩ : BufTy).Contents (Elt F) → (⟨S800000x1, .f32⟩ : BufTy).Contents (Elt F)),
    StableHlo.nullary main_c (constantI S_ 32 0#32),
    StableHlo.unary main_c main_v1 (broadcastInDim S800000 ![] bcast_S_S800000 : (⟨S_, .i32⟩ : BufTy).Contents (Elt F) → (⟨S800000, .i32⟩ : BufTy).Contents (Elt F)),
    StableHlo.binary main_arg9 main_v1 main_v2 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 100000#32),
    StableHlo.unary main_c_0 main_v3 (broadcastInDim S800000 ![] bcast_S_S800000 : (⟨S_, .i32⟩ : BufTy).Contents (Elt F) → (⟨S800000, .i32⟩ : BufTy).Contents (Elt F)),
    StableHlo.binary main_arg9 main_v3 main_v4 (addi : (⟨S800000, .i32⟩ : BufTy).Contents (Elt F) → (⟨S800000, .i32⟩ : BufTy).Contents (Elt F) → (⟨S800000, .i32⟩ : BufTy).Contents (Elt F)),
    StableHlo.ternary main_v2 main_v4 main_arg9 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v5 main_v6 (broadcastInDim S800000x1 ![0] bcast_S800000_S800000x1_0 : (⟨S800000, .i32⟩ : BufTy).Contents (Elt F) → (⟨S800000x1, .i32⟩ : BufTy).Contents (Elt F)),
    StableHlo.binary main_arg0 main_v6 main_v7 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.unary main_v0 main_v8 (broadcastInDim S800000x128 ![0, 1] bcast_S800000x1_S800000x128_0_1 : (⟨S800000x1, .f32⟩ : BufTy).Contents (Elt F) → (⟨S800000x128, .f32⟩ : BufTy).Contents (Elt F)),
    StableHlo.binary main_v8 main_v7 main_v9 (mulf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.unary main_cst main_v10 (broadcastInDim S100000x128 ![] bcast_S_S100000x128 : (⟨S_, .f32⟩ : BufTy).Contents (Elt F) → (⟨S100000x128, .f32⟩ : BufTy).Contents (Elt F)),
    StableHlo.unary main_arg8 main_v11 (broadcastInDim S800000x1 ![0] bcast_S800000_S800000x1_0 : (⟨S800000, .i32⟩ : BufTy).Contents (Elt F) → (⟨S800000x1, .i32⟩ : BufTy).Contents (Elt F)),
    StableHlo.ternary main_v10 main_v11 main_v9 main_v12 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)) ]

/-- Stretch 2 of the program's operations. -/
abbrev seg2 : List (HloOp τ sig (Elt F)) :=
  [
    StableHlo.binary main_arg0 main_arg2 main_v13 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_call0_cst (constant S_ .f32 0x00000000#32 : (⟨S_, .f32⟩ : BufTy).Contents (Elt F)),
    StableHlo.unary main_call0_cst main_call0_v0 (broadcastInDim S100000x128 ![] bcast_S_S100000x128 : (⟨S_, .f32⟩ : BufTy).Contents (Elt F) → (⟨S100000x128, .f32⟩ : BufTy).Contents (Elt F)),
    StableHlo.binary main_v13 main_call0_v0 main_v14 (maximumf : (⟨S100000x128, .f32⟩ : BufTy).Contents (Elt F) → (⟨S100000x128, .f32⟩ : BufTy).Contents (Elt F) → (⟨S100000x128, .f32⟩ : BufTy).Contents (Elt F)),
    StableHlo.unary main_arg4 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S100000x128 ![0, 1] bcast_S1x128_S100000x128_0_1 : (⟨S1x128, .f32⟩ : BufTy).Contents (Elt F) → (⟨S100000x128, .f32⟩ : BufTy).Contents (Elt F)),
    StableHlo.binary main_v14 main_v16 main_v17 (addf : (⟨S100000x128, .f32⟩ : BufTy).Contents (Elt F) → (⟨S100000x128, .f32⟩ : BufTy).Contents (Elt F) → (⟨S100000x128, .f32⟩ : BufTy).Contents (Elt F)),
    StableHlo.binary main_v12 main_arg3 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_call1_cst (constant S_ .f32 0x00000000#32 : (⟨S_, .f32⟩ : BufTy).Contents (Elt F)),
    StableHlo.unary main_call1_cst main_call1_v0 (broadcastInDim S100000x128 ![] bcast_S_S100000x128 : (⟨S_, .f32⟩ : BufTy).Contents (Elt F) → (⟨S100000x128, .f32⟩ : BufTy).Contents (Elt F)),
    StableHlo.binary main_v18 main_call1_v0 main_v19 (maximumf : (⟨S100000x128, .f32⟩ : BufTy).Contents (Elt F) → (⟨S100000x128, .f32⟩ : BufTy).Contents (Elt F) → (⟨S100000x128, .f32⟩ : BufTy).Contents (Elt F)),
    StableHlo.unary main_arg5 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S100000x128 ![0, 1] bcast_S1x128_S100000x128_0_1 : (⟨S1x128, .f32⟩ : BufTy).Contents (Elt F) → (⟨S100000x128, .f32⟩ : BufTy).Contents (Elt F)),
    StableHlo.binary main_v19 main_v21 main_v22 (addf : (⟨S100000x128, .f32⟩ : BufTy).Contents (Elt F) → (⟨S100000x128, .f32⟩ : BufTy).Contents (Elt F) → (⟨S100000x128, .f32⟩ : BufTy).Contents (Elt F)),
    StableHlo.binary main_v17 main_v22 main_v23 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)) ]

/-- Stretch 3 of the program's operations. -/
abbrev seg3 : List (HloOp τ sig (Elt F)) :=
  [
    StableHlo.nullary main_cst_1 (constant S_ .f32 0x00000000#32),
    StableHlo.binary main_v23 main_cst_1 main_v24 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_2 (constant S_ .f32 0x47C35000#32),
    StableHlo.unary main_cst_2 main_v25 (broadcastInDim S256 ![] bcast_S_S256 : (⟨S_, .f32⟩ : BufTy).Contents (Elt F) → (⟨S256, .f32⟩ : BufTy).Contents (Elt F)),
    StableHlo.binary main_v24 main_v25 main_v26 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32),
    StableHlo.nullary main_call2_cst (constant S_ .f32 0x00000000#32 : (⟨S_, .f32⟩ : BufTy).Contents (Elt F)),
    StableHlo.binary main_v23 main_call2_cst main_call2_v0 (fun x v => Host.reduceAdd x v reducesTo_S100000x256_S256_d0 h_S_ : (⟨S100000x256, .f32⟩ : BufTy).Contents (Elt F) → (⟨S_, .f32⟩ : BufTy).Contents (Elt F) → (⟨S256, .f32⟩ : BufTy).Contents (Elt F)),
    StableHlo.unary main_call2_v0 main_call2_v1 (broadcastInDim S1x256 ![1] bcast_S256_S1x256_1 : (⟨S256, .f32⟩ : BufTy).Contents (Elt F) → (⟨S1x256, .f32⟩ : BufTy).Contents (Elt F)),
    StableHlo.nullary main_call2_cst_0 (constant S_ .f32 0x47C35000#32 : (⟨S_, .f32⟩ : BufTy).Contents (Elt F)),
    StableHlo.unary main_call2_cst_0 main_call2_v2 (broadcastInDim S1x256 ![] bcast_S_S1x256 : (⟨S_, .f32⟩ : BufTy).Contents (Elt F) → (⟨S1x256, .f32⟩ : BufTy).Contents (Elt F)),
    StableHlo.binary main_call2_v1 main_call2_v2 main_call2_v3 (Host.divf : (⟨S1x256, .f32⟩ : BufTy).Contents (Elt F) → (⟨S1x256, .f32⟩ : BufTy).Contents (Elt F) → (⟨S1x256, .f32⟩ : BufTy).Contents (Elt F)),
    StableHlo.unary main_call2_v3 main_call2_v4 (broadcastInDim S100000x256 ![0, 1] bcast_S1x256_S100000x256_0_1 : (⟨S1x256, .f32⟩ : BufTy).Contents (Elt F) → (⟨S100000x256, .f32⟩ : BufTy).Contents (Elt F)),
    StableHlo.binary main_v23 main_call2_v4 main_call2_v5 (subf : (⟨S100000x256, .f32⟩ : BufTy).Contents (Elt F) → (⟨S100000x256, .f32⟩ : BufTy).Contents (Elt F) → (⟨S100000x256, .f32⟩ : BufTy).Contents (Elt F)),
    StableHlo.binary main_call2_v5 main_call2_v5 main_call2_v6 (mulf : (⟨S100000x256, .f32⟩ : BufTy).Contents (Elt F) → (⟨S100000x256, .f32⟩ : BufTy).Contents (Elt F) → (⟨S100000x256, .f32⟩ : BufTy).Contents (Elt F)),
    StableHlo.unary main_c_3 main_call2_v7 (sitofp .f32 : (⟨S_, .i32⟩ : BufTy).Contents (Elt F) → (⟨S_, .f32⟩ : BufTy).Contents (Elt F)),
    StableHlo.nullary main_call2_cst_1 (constant S_ .f32 0x47C35000#32 : (⟨S_, .f32⟩ : BufTy).Contents (Elt F)),
    StableHlo.binary main_call2_cst_1 main_call2_v7 main_call2_v8 (subf : (⟨S_, .f32⟩ : BufTy).Contents (Elt F) → (⟨S_, .f32⟩ : BufTy).Contents (Elt F) → (⟨S_, .f32⟩ : BufTy).Contents (Elt F)),
    StableHlo.nullary main_call2_cst_2 (constant S_ .f32 0x00000000#32 : (⟨S_, .f32⟩ : BufTy).Contents (Elt F)),
    StableHlo.binary main_call2_v6 main_call2_cst_2 main_call2_v9 (fun x v => Host.reduceAdd x v reducesTo_S100000x256_S256_d0 h_S_ : (⟨S100000x256, .f32⟩ : BufTy).Contents (Elt F) → (⟨S_, .f32⟩ : BufTy).Contents (Elt F) → (⟨S256, .f32⟩ : BufTy).Contents (Elt F)),
    StableHlo.unary main_call2_v8 main_call2_v10 (broadcastInDim S256 ![] bcast_S_S256 : (⟨S_, .f32⟩ : BufTy).Contents (Elt F) → (⟨S256, .f32⟩ : BufTy).Contents (Elt F)),
    StableHlo.binary main_call2_v9 main_call2_v10 main_call2_v11 (Host.divf : (⟨S256, .f32⟩ : BufTy).Contents (Elt F) → (⟨S256, .f32⟩ : BufTy).Contents (Elt F) → (⟨S256, .f32⟩ : BufTy).Contents (Elt F)),
    StableHlo.nullary main_call2_cst_3 (constant S_ .f32 0x00000000#32 : (⟨S_, .f32⟩ : BufTy).Contents (Elt F)),
    StableHlo.binary main_call2_v8 main_call2_cst_3 main_call2_v12 (cmpf .ogt : (⟨S_, .f32⟩ : BufTy).Contents (Elt F) → (⟨S_, .f32⟩ : BufTy).Contents (Elt F) → (⟨S_, .i1⟩ : BufTy).Contents (Elt F)),
    StableHlo.nullary main_call2_cst_4 (constant S_ .f32 0x7FC00000#32 : (⟨S_, .f32⟩ : BufTy).Contents (Elt F)),
    StableHlo.unary main_call2_cst_4 main_call2_call0_v0 (id : (⟨S_, .f32⟩ : BufTy).Contents (Elt F) → (⟨S_, .f32⟩ : BufTy).Contents (Elt F)),
    StableHlo.unary main_call2_call0_v0 main_call2_call0_v1 (broadcastInDim S256 ![] bcast_S_S256 : (⟨S_, .f32⟩ : BufTy).Contents (Elt F) → (⟨S256, .f32⟩ : BufTy).Contents (Elt F)),
    StableHlo.ternary main_call2_v12 main_call2_v11 main_call2_call0_v1 main_v27 (fun p a b => select (broadcastInDim S256 ![] bcast_S_S256 p) a b : (⟨S_, .i1⟩ : BufTy).Contents (Elt F) → (⟨S256, .f32⟩ : BufTy).Contents (Elt F) → (⟨S256, .f32⟩ : BufTy).Contents (Elt F) → (⟨S256, .f32⟩ : BufTy).Contents (Elt F)) ]

/-- Stretch 4 of the program's operations. -/
abbrev seg4 : List (HloOp τ sig (Elt F)) :=
  [
    StableHlo.unary main_v26 main_v28 (broadcastInDim S1x256 ![1] bcast_S256_S1x256_1 : (⟨S256, .f32⟩ : BufTy).Contents (Elt F) → (⟨S1x256, .f32⟩ : BufTy).Contents (Elt F)),
    StableHlo.unary main_v28 main_v29 (broadcastInDim S100000x256 ![0, 1] bcast_S1x256_S100000x256_0_1 : (⟨S1x256, .f32⟩ : BufTy).Contents (Elt F) → (⟨S100000x256, .f32⟩ : BufTy).Contents (Elt F)),
    StableHlo.binary main_v23 main_v29 main_v30 (subf : (⟨S100000x256, .f32⟩ : BufTy).Contents (Elt F) → (⟨S100000x256, .f32⟩ : BufTy).Contents (Elt F) → (⟨S100000x256, .f32⟩ : BufTy).Contents (Elt F)),
    StableHlo.nullary main_cst_4 (constant S_ .f32 0x3727C5AC#32),
    StableHlo.unary main_cst_4 main_v31 (broadcastInDim S256 ![] bcast_S_S256 : (⟨S_, .f32⟩ : BufTy).Contents (Elt F) → (⟨S256, .f32⟩ : BufTy).Contents (Elt F)),
    StableHlo.binary main_v27 main_v31 main_v32 (addf : (⟨S256, .f32⟩ : BufTy).Contents (Elt F) → (⟨S256, .f32⟩ : BufTy).Contents (Elt F) → (⟨S256, .f32⟩ : BufTy).Contents (Elt F)),
    StableHlo.unary main_v32 main_v33 (Host.rsqrt : (⟨S256, .f32⟩ : BufTy).Contents (Elt F) → (⟨S256, .f32⟩ : BufTy).Contents (Elt F)),
    StableHlo.unary main_v33 main_v34 (broadcastInDim S1x256 ![1] bcast_S256_S1x256_1 : (⟨S256, .f32⟩ : BufTy).Contents (Elt F) → (⟨S1x256, .f32⟩ : BufTy).Contents (Elt F)),
    StableHlo.unary main_v34 main_v35 (broadcastInDim S100000x256 ![0, 1] bcast_S1x256_S100000x256_0_1 : (⟨S1x256, .f32⟩ : BufTy).Contents (Elt F) → (⟨S100000x256, .f32⟩ : BufTy).Contents (Elt F)),
    StableHlo.binary main_v30 main_v35 main_v36 (mulf : (⟨S100000x256, .f32⟩ : BufTy).Contents (Elt F) → (⟨S100000x256, .f32⟩ : BufTy).Contents (Elt F) → (⟨S100000x256, .f32⟩ : BufTy).Contents (Elt F)),
    StableHlo.unary main_arg6 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S100000x256 ![0, 1] bcast_S1x256_S100000x256_0_1 : (⟨S1x256, .f32⟩ : BufTy).Contents (Elt F) → (⟨S100000x256, .f32⟩ : BufTy).Contents (Elt F)),
    StableHlo.binary main_v36 main_v38 main_v39 (mulf : (⟨S100000x256, .f32⟩ : BufTy).Contents (Elt F) → (⟨S100000x256, .f32⟩ : BufTy).Contents (Elt F) → (⟨S100000x256, .f32⟩ : BufTy).Contents (Elt F)),
    StableHlo.unary main_arg7 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S100000x256 ![0, 1] bcast_S1x256_S100000x256_0_1 : (⟨S1x256, .f32⟩ : BufTy).Contents (Elt F) → (⟨S100000x256, .f32⟩ : BufTy).Contents (Elt F)),
    StableHlo.binary main_v39 main_v41 main_v42 (addf : (⟨S100000x256, .f32⟩ : BufTy).Contents (Elt F) → (⟨S100000x256, .f32⟩ : BufTy).Contents (Elt F) → (⟨S100000x256, .f32⟩ : BufTy).Contents (Elt F)) ]

/-- The 75 operations are the four stretches one after the other. -/
theorem ops_eq : (ops : List (HloOp τ sig (Elt F))) = seg1 ++ (seg2 ++ (seg3 ++ seg4)) := rfl

/-- The fold of a list made of two parts is the second part's fold after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The fold of the 75 operations, stretch by stretch. -/
theorem after_ops (V : Valuation τ sig (Elt F)) :
    after ops V = after seg4 (after seg3 (after seg2 (after seg1 V))) := by
  rw [ops_eq, after_append, after_append, after_append]

/-- The program is that straight line: the callees' definitions unfold at their calls and the sequencing
    reassociates, both by computation. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-- From any memory with zero counters every weakly fair execution terminates, and every buffer ends at the fold of
    the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefFrame.lean ====
/-
  The reference program writes none of its ten argument buffers: after its 75 operations each holds what it held.
-/
import proofs.«124260_j60301340836383_2_alg».proof.Proof.RefRun

noncomputable section

namespace Cert.ReferenceIdeal.RefFrame

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

set_option maxHeartbeats 1000000 in
theorem kept_arg0 (V : Valuation τ sig (Elt F)) : after (ops (F := F)) V (main_arg0 : DevRef τ sig) = V (main_arg0 : DevRef τ sig) := by
  after_results_simp
set_option maxHeartbeats 1000000 in
theorem kept_arg1 (V : Valuation τ sig (Elt F)) : after (ops (F := F)) V (main_arg1 : DevRef τ sig) = V (main_arg1 : DevRef τ sig) := by
  after_results_simp
set_option maxHeartbeats 1000000 in
theorem kept_arg2 (V : Valuation τ sig (Elt F)) : after (ops (F := F)) V (main_arg2 : DevRef τ sig) = V (main_arg2 : DevRef τ sig) := by
  after_results_simp
set_option maxHeartbeats 1000000 in
theorem kept_arg3 (V : Valuation τ sig (Elt F)) : after (ops (F := F)) V (main_arg3 : DevRef τ sig) = V (main_arg3 : DevRef τ sig) := by
  after_results_simp
set_option maxHeartbeats 1000000 in
theorem kept_arg4 (V : Valuation τ sig (Elt F)) : after (ops (F := F)) V (main_arg4 : DevRef τ sig) = V (main_arg4 : DevRef τ sig) := by
  after_results_simp
set_option maxHeartbeats 1000000 in
theorem kept_arg5 (V : Valuation τ sig (Elt F)) : after (ops (F := F)) V (main_arg5 : DevRef τ sig) = V (main_arg5 : DevRef τ sig) := by
  after_results_simp
set_option maxHeartbeats 1000000 in
theorem kept_arg6 (V : Valuation τ sig (Elt F)) : after (ops (F := F)) V (main_arg6 : DevRef τ sig) = V (main_arg6 : DevRef τ sig) := by
  after_results_simp
set_option maxHeartbeats 1000000 in
theorem kept_arg7 (V : Valuation τ sig (Elt F)) : after (ops (F := F)) V (main_arg7 : DevRef τ sig) = V (main_arg7 : DevRef τ sig) := by
  after_results_simp
set_option maxHeartbeats 1000000 in
theorem kept_arg8 (V : Valuation τ sig (Elt F)) : after (ops (F := F)) V (main_arg8 : DevRef τ sig) = V (main_arg8 : DevRef τ sig) := by
  after_results_simp
set_option maxHeartbeats 1000000 in
theorem kept_arg9 (V : Valuation τ sig (Elt F)) : after (ops (F := F)) V (main_arg9 : DevRef τ sig) = V (main_arg9 : DevRef τ sig) := by
  after_results_simp

end Cert.ReferenceIdeal.RefFrame

end
-- ==== Proof.RefValue.lean ====
/-
  The reference program's result as a function of its argument arrays, in stages.

  hop     the neighbour aggregation: row r is the sum, over the edges whose row index is r, of the edge's weight times
          the feature row its column index names (negative column indices wrap once, then the gather clamps);
  outR    the two layers' activations side by side: relu(feat·W0) + b0 in columns 0–127, relu(hop·W1) + b1 in 128–255;
  meanR, varR   the column means and variances over the 100000 rows, the variance as the mean of the squared
          deviations (the means recomputed), selected where the row count is positive;
  normR   ((out − mean)·rsqrt(var + ε))·gamma + beta, the four vectors repeated down the rows.

  The run of the program's 75 operations ends with the result buffer at normR of these.
-/
import proofs.«124260_j60301340836383_2_alg».proof.Proof.RefRun
import Idealize.ShloMosaic.PureOps.Ideal

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

/-- The column indices with the negative ones wrapped once. -/
def wrapCols (cols : IVec S800000 32) : IVec S800000 32 :=
  select (cmpi .slt cols (broadcastInDim S800000 ![] bcast_S_S800000 (constantI S_ 32 0#32)))
    (addi cols (broadcastInDim S800000 ![] bcast_S_S800000 (constantI S_ 32 100000#32))) cols

/-- The neighbour aggregation. -/
def hop (feat : FVec Ideal S100000x128 .f32) (vals : FVec Ideal S800000 .f32) (rows cols : IVec S800000 32) : FVec Ideal S100000x128 .f32 :=
  Host.scatterAdd (F := Ideal) scatter_S100000x128_S800000x1_S800000x128_1_0_0_1
    (broadcastInDim S100000x128 ![] bcast_S_S100000x128 (constant (F := Ideal) S_ .f32 0x00000000#32))
    (broadcastInDim S800000x1 ![0] bcast_S800000_S800000x1_0 rows)
    (mulf (F := Ideal) (broadcastInDim S800000x128 ![0, 1] bcast_S800000x1_S800000x128_0_1
        (broadcastInDim S800000x1 ![0] bcast_S800000_S800000x1_0 vals))
      (Host.gather gather_S100000x128_S800000x1_S800000x128_1_0_n_n_0_1_1128 feat
        (broadcastInDim S800000x1 ![0] bcast_S800000_S800000x1_0 (wrapCols cols))))

/-- One layer: relu(x·w) + b, the bias repeated down the rows. -/
def layer (x : FVec Ideal S100000x128 .f32) (w : FVec Ideal S128x128 .f32) (b : FVec Ideal S128 .f32) : FVec Ideal S100000x128 .f32 :=
  addf (F := Ideal) (maximumf (F := Ideal) (Host.dotGeneral (F := Ideal) dot_S100000x128_S128x128_S100000x128_1_0_0_1_n_n none x w)
      (broadcastInDim S100000x128 ![] bcast_S_S100000x128 (constant (F := Ideal) S_ .f32 0x00000000#32)))
    (broadcastInDim S100000x128 ![0, 1] bcast_S1x128_S100000x128_0_1 (broadcastInDim S1x128 ![1] bcast_S128_S1x128_1 b))

/-- The two layers side by side. -/
def outR (feat hopv : FVec Ideal S100000x128 .f32) (W0 W1 : FVec Ideal S128x128 .f32) (b0 b1 : FVec Ideal S128 .f32) : FVec Ideal S100000x256 .f32 :=
  concatenate S100000x256 1 [⟨S100000x128, layer feat W0 b0⟩, ⟨S100000x128, layer hopv W1 b1⟩]
    concatenates_S100000x128_S100000x128_S100000x256_d1

/-- The column sums of a [100000,256] array, from zero. -/
def colSum (x : FVec Ideal S100000x256 .f32) : FVec Ideal S256 .f32 :=
  Host.reduceAdd (F := Ideal) x (constant (F := Ideal) S_ .f32 0x00000000#32) reducesTo_S100000x256_S256_d0 h_S_

/-- The column means. -/
def meanR (out : FVec Ideal S100000x256 .f32) : FVec Ideal S256 .f32 :=
  Host.divf (F := Ideal) (colSum out) (broadcastInDim S256 ![] bcast_S_S256 (constant (F := Ideal) S_ .f32 0x47C35000#32))

/-- The number of rows less the degrees of freedom removed (none). -/
def countR : FVec Ideal S_ .f32 :=
  subf (F := Ideal) (constant (F := Ideal) S_ .f32 0x47C35000#32) (sitofp (F := Ideal) .f32 (constantI S_ 32 0#32))

/-- The deviations from the column means, the means recomputed as a [1,256] row. -/
def devR (out : FVec Ideal S100000x256 .f32) : FVec Ideal S100000x256 .f32 :=
  subf (F := Ideal) out (broadcastInDim S100000x256 ![0, 1] bcast_S1x256_S100000x256_0_1
    (Host.divf (F := Ideal) (broadcastInDim S1x256 ![1] bcast_S256_S1x256_1 (colSum out))
      (broadcastInDim S1x256 ![] bcast_S_S1x256 (constant (F := Ideal) S_ .f32 0x47C35000#32))))

/-- The column variances: the mean of the squared deviations where the count is positive, else the not-a-number word. -/
def varR (out : FVec Ideal S100000x256 .f32) : FVec Ideal S256 .f32 :=
  select (broadcastInDim S256 ![] bcast_S_S256 (cmpf (F := Ideal) .ogt countR (constant (F := Ideal) S_ .f32 0x00000000#32)))
    (Host.divf (F := Ideal) (colSum (mulf (F := Ideal) (devR out) (devR out))) (broadcastInDim S256 ![] bcast_S_S256 countR))
    (broadcastInDim S256 ![] bcast_S_S256 (id (constant (F := Ideal) S_ .f32 0x7FC00000#32)))

/-- A vector of 256 repeated down the 100000 rows. -/
def rowsOf (v : FVec Ideal S256 .f32) : FVec Ideal S100000x256 .f32 :=
  broadcastInDim S100000x256 ![0, 1] bcast_S1x256_S100000x256_0_1 (broadcastInDim S1x256 ![1] bcast_S256_S1x256_1 v)

/-- The normalisation, from the columns' means and variances. -/
def normR (out : FVec Ideal S100000x256 .f32) (mean var gamma beta : FVec Ideal S256 .f32) : FVec Ideal S100000x256 .f32 :=
  addf (F := Ideal) (mulf (F := Ideal) (mulf (F := Ideal) (subf (F := Ideal) out (rowsOf mean))
      (rowsOf (Host.rsqrt (F := Ideal) (addf (F := Ideal) var
        (broadcastInDim S256 ![] bcast_S_S256 (constant (F := Ideal) S_ .f32 0x3727C5AC#32))))))
    (rowsOf gamma)) (rowsOf beta)

/-! ## Each stretch, read at the buffers the later ones use -/

set_option maxHeartbeats 1000000 in
theorem seg1_v12 (V : Valuation τ sig (Elt Ideal)) :
    after (seg1 (F := Ideal)) V (main_v12 : DevRef τ sig)
      = hop (V (main_arg0 : DevRef τ sig)) (V (main_arg1 : DevRef τ sig)) (V (main_arg8 : DevRef τ sig)) (V (main_arg9 : DevRef τ sig)) := by
  after_results
  rfl
theorem seg1_main_arg0 (V : Valuation τ sig (Elt Ideal)) : after (seg1 (F := Ideal)) V (main_arg0 : DevRef τ sig) = V (main_arg0 : DevRef τ sig) := by
  after_results
theorem seg1_main_arg2 (V : Valuation τ sig (Elt Ideal)) : after (seg1 (F := Ideal)) V (main_arg2 : DevRef τ sig) = V (main_arg2 : DevRef τ sig) := by
  after_results
theorem seg1_main_arg3 (V : Valuation τ sig (Elt Ideal)) : after (seg1 (F := Ideal)) V (main_arg3 : DevRef τ sig) = V (main_arg3 : DevRef τ sig) := by
  after_results
theorem seg1_main_arg4 (V : Valuation τ sig (Elt Ideal)) : after (seg1 (F := Ideal)) V (main_arg4 : DevRef τ sig) = V (main_arg4 : DevRef τ sig) := by
  after_results
theorem seg1_main_arg5 (V : Valuation τ sig (Elt Ideal)) : after (seg1 (F := Ideal)) V (main_arg5 : DevRef τ sig) = V (main_arg5 : DevRef τ sig) := by
  after_results
theorem seg1_main_arg6 (V : Valuation τ sig (Elt Ideal)) : after (seg1 (F := Ideal)) V (main_arg6 : DevRef τ sig) = V (main_arg6 : DevRef τ sig) := by
  after_results
theorem seg1_main_arg7 (V : Valuation τ sig (Elt Ideal)) : after (seg1 (F := Ideal)) V (main_arg7 : DevRef τ sig) = V (main_arg7 : DevRef τ sig) := by
  after_results

set_option maxHeartbeats 1000000 in
theorem seg2_v23 (V : Valuation τ sig (Elt Ideal)) :
    after (seg2 (F := Ideal)) V (main_v23 : DevRef τ sig)
      = outR (V (main_arg0 : DevRef τ sig)) (V (main_v12 : DevRef τ sig)) (V (main_arg2 : DevRef τ sig)) (V (main_arg3 : DevRef τ sig))
          (V (main_arg4 : DevRef τ sig)) (V (main_arg5 : DevRef τ sig)) := by
  after_results
  rfl
theorem seg2_main_arg6 (V : Valuation τ sig (Elt Ideal)) : after (seg2 (F := Ideal)) V (main_arg6 : DevRef τ sig) = V (main_arg6 : DevRef τ sig) := by
  after_results
theorem seg2_main_arg7 (V : Valuation τ sig (Elt Ideal)) : after (seg2 (F := Ideal)) V (main_arg7 : DevRef τ sig) = V (main_arg7 : DevRef τ sig) := by
  after_results

set_option maxHeartbeats 2000000 in
theorem seg3_v26 (V : Valuation τ sig (Elt Ideal)) :
    after (seg3 (F := Ideal)) V (main_v26 : DevRef τ sig) = meanR (V (main_v23 : DevRef τ sig)) := by
  after_results
  rfl
set_option maxHeartbeats 2000000 in
theorem seg3_v27 (V : Valuation τ sig (Elt Ideal)) :
    after (seg3 (F := Ideal)) V (main_v27 : DevRef τ sig) = varR (V (main_v23 : DevRef τ sig)) := by
  after_results
  rfl
theorem seg3_main_v23 (V : Valuation τ sig (Elt Ideal)) : after (seg3 (F := Ideal)) V (main_v23 : DevRef τ sig) = V (main_v23 : DevRef τ sig) := by
  after_results
theorem seg3_main_arg6 (V : Valuation τ sig (Elt Ideal)) : after (seg3 (F := Ideal)) V (main_arg6 : DevRef τ sig) = V (main_arg6 : DevRef τ sig) := by
  after_results
theorem seg3_main_arg7 (V : Valuation τ sig (Elt Ideal)) : after (seg3 (F := Ideal)) V (main_arg7 : DevRef τ sig) = V (main_arg7 : DevRef τ sig) := by
  after_results

set_option maxHeartbeats 1000000 in
theorem seg4_v42 (V : Valuation τ sig (Elt Ideal)) :
    after (seg4 (F := Ideal)) V (main_v42 : DevRef τ sig)
      = normR (V (main_v23 : DevRef τ sig)) (V (main_v26 : DevRef τ sig)) (V (main_v27 : DevRef τ sig)) (V (main_arg6 : DevRef τ sig)) (V (main_arg7 : DevRef τ sig)) := by
  after_results
  rfl

/-- The result buffer after the 75 operations. -/
theorem result_eq (V : Valuation τ sig (Elt Ideal)) :
    after (ops (F := Ideal)) V (main_v42 : DevRef τ sig)
      = normR
          (outR (V (main_arg0 : DevRef τ sig))
            (hop (V (main_arg0 : DevRef τ sig)) (V (main_arg1 : DevRef τ sig)) (V (main_arg8 : DevRef τ sig)) (V (main_arg9 : DevRef τ sig)))
            (V (main_arg2 : DevRef τ sig)) (V (main_arg3 : DevRef τ sig)) (V (main_arg4 : DevRef τ sig)) (V (main_arg5 : DevRef τ sig)))
          (meanR (outR (V (main_arg0 : DevRef τ sig))
            (hop (V (main_arg0 : DevRef τ sig)) (V (main_arg1 : DevRef τ sig)) (V (main_arg8 : DevRef τ sig)) (V (main_arg9 : DevRef τ sig)))
            (V (main_arg2 : DevRef τ sig)) (V (main_arg3 : DevRef τ sig)) (V (main_arg4 : DevRef τ sig)) (V (main_arg5 : DevRef τ sig))))
          (varR (outR (V (main_arg0 : DevRef τ sig))
            (hop (V (main_arg0 : DevRef τ sig)) (V (main_arg1 : DevRef τ sig)) (V (main_arg8 : DevRef τ sig)) (V (main_arg9 : DevRef τ sig)))
            (V (main_arg2 : DevRef τ sig)) (V (main_arg3 : DevRef τ sig)) (V (main_arg4 : DevRef τ sig)) (V (main_arg5 : DevRef τ sig))))
          (V (main_arg6 : DevRef τ sig)) (V (main_arg7 : DevRef τ sig)) := by
  rw [after_ops, seg4_v42, seg3_v26, seg3_v27, seg3_main_v23, seg3_main_arg6, seg3_main_arg7, seg2_v23, seg2_main_arg6,
    seg2_main_arg7, seg1_v12, seg1_main_arg0, seg1_main_arg2, seg1_main_arg3, seg1_main_arg4, seg1_main_arg5,
    seg1_main_arg6, seg1_main_arg7]

end Cert.ReferenceIdeal.RefValue

end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.Finite.lean ====
/-
  From the precondition to real entries.

  The precondition says, of each of the eight float argument arrays, that every entry's absolute value compares below
  +∞, the eight facts joined by "and". Taken apart, each says its array is the image of its real parts: no entry is
  an infinity. The six arrays the activations are computed from are the ones used later.
-/
import proofs.«124260_j60301340836383_2_alg».proof.Defs
import Idealize.ShloMosaic.Lib.Affine
import Idealize.ShloMosaic.Lib.ValueIdx
import proofs.«124260_j60301340836383_2_alg».proof.Proof.Gen.Pre_finite_inputs
import proofs.«124260_j60301340836383_2_alg».proof.Proof.Gen.KernelIdeal
import proofs.«124260_j60301340836383_2_alg».proof.Proof.LibFiniteEntries
import proofs.«124260_j60301340836383_2_alg».proof.Proof.LibIdealFinite

noncomputable section

namespace Cert.Finite

open Idealize.ShloMosaic Idealize.SL.Sem LibERealMatrix LibIdealFinite LibFiniteEntries

/-- An array that is the image of its real parts has real entries. -/
theorem allFin_of_real {s : Shape} {x : s.Idx → EReal} (h : x = fun i => (((x i).toReal : ℝ) : EReal)) : AllFin x :=
  fun i => by have hi := congrFun h i; rw [hi]; exact Fin'.coe _

/-- Under the precondition the six arrays the activations read have real entries, on every core. -/
theorem of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    AllFin (m ((c.tc : Thread Cert.KernelIdeal.nD Cert.KernelIdeal.τ).loc Cert.KernelIdeal.main_arg0))
    ∧ AllFin (m ((c.tc : Thread Cert.KernelIdeal.nD Cert.KernelIdeal.τ).loc Cert.KernelIdeal.main_arg1))
    ∧ AllFin (m ((c.tc : Thread Cert.KernelIdeal.nD Cert.KernelIdeal.τ).loc Cert.KernelIdeal.main_arg2))
    ∧ AllFin (m ((c.tc : Thread Cert.KernelIdeal.nD Cert.KernelIdeal.τ).loc Cert.KernelIdeal.main_arg3))
    ∧ AllFin (m ((c.tc : Thread Cert.KernelIdeal.nD Cert.KernelIdeal.τ).loc Cert.KernelIdeal.main_arg4))
    ∧ AllFin (m ((c.tc : Thread Cert.KernelIdeal.nD Cert.KernelIdeal.τ).loc Cert.KernelIdeal.main_arg5)) := by
  have e := congrFun (h c) Idealize.ShloMosaic.ValueIdx.ix0
  dsimp only [Cert.Pre_finite_inputs.fn, Cert.Pre_finite_inputs.fn_part1, Cert.Pre_finite_inputs.fn_part2] at e
  obtain ⟨e33, -⟩ := IntOp.andi_eq_one.mp e
  obtain ⟨e28, -⟩ := IntOp.andi_eq_one.mp e33
  obtain ⟨e23, e27⟩ := IntOp.andi_eq_one.mp e28
  obtain ⟨e18, e22⟩ := IntOp.andi_eq_one.mp e23
  obtain ⟨e13, e17⟩ := IntOp.andi_eq_one.mp e18
  obtain ⟨e8, e12⟩ := IntOp.andi_eq_one.mp e13
  obtain ⟨e3, e7⟩ := IntOp.andi_eq_one.mp e8
  exact ⟨allFin_of_real (real_of_all_abs_lt _ _ (fun _ => rfl) _ _ _ _ e3),
    allFin_of_real (real_of_all_abs_lt _ _ (fun _ => rfl) _ _ _ _ e7),
    allFin_of_real (real_of_all_abs_lt _ _ (fun _ => rfl) _ _ _ _ e12),
    allFin_of_real (real_of_all_abs_lt _ _ (fun _ => rfl) _ _ _ _ e17),
    allFin_of_real (real_of_all_abs_lt _ _ (fun _ => rfl) _ _ _ _ e22),
    allFin_of_real (real_of_all_abs_lt _ _ (fun _ => rfl) _ _ _ _ e27)⟩

end Cert.Finite

end
-- ==== Proof.Activations.lean ====
/-
  The activations of the two layers side by side, and one column's statistics computed two ways.

  X[r, j] is the first layer's activation in column j for j < 128 and the second layer's in column j − 128 otherwise.
  For one column h = X[·, j] of real numbers: a table holding the 25 block sums of h at its rows 8t (zero elsewhere)
  has the column sum of h as its sum, the same for h², and so the mean of the squares less the squared mean, taken
  from the two tables, is the mean of the squared deviations of h from its mean.
-/
import proofs.«124260_j60301340836383_2_alg».proof.Proof.Spec

noncomputable section

namespace BatchSpec

open Idealize.ShloMosaic Idealize.ShloMosaic.ValueIdx LibERealMatrix LibIdealFinite

/-- The common activation at (r, j). -/
def X (feat H : (⟨2, ![100000, 128]⟩ : Shape).Idx → EReal) (W0 W1 : (⟨2, ![128, 128]⟩ : Shape).Idx → EReal)
    (b0 b1 : (⟨1, ![128]⟩ : Shape).Idx → EReal) (r : Fin 100000) (j : Fin 256) : EReal :=
  if h : 128 ≤ j.val then act H W1 (fun q => b1 (ix1 q)) r ⟨j.val - 128, by have := j.isLt; omega⟩
  else act feat W0 (fun q => b0 (ix1 q)) r ⟨j.val, by omega⟩

/-- It is a real number when the six arrays' entries are. -/
theorem fin_X {feat H : (⟨2, ![100000, 128]⟩ : Shape).Idx → EReal} {W0 W1 : (⟨2, ![128, 128]⟩ : Shape).Idx → EReal}
    {b0 b1 : (⟨1, ![128]⟩ : Shape).Idx → EReal}
    (hf : ∀ i, Fin' (feat i)) (hH : ∀ i, Fin' (H i)) (h0 : ∀ i, Fin' (W0 i)) (h1 : ∀ i, Fin' (W1 i))
    (hb0 : ∀ i, Fin' (b0 i)) (hb1 : ∀ i, Fin' (b1 i)) (r : Fin 100000) (j : Fin 256) :
    Fin' (X feat H W0 W1 b0 b1 r j) := by
  unfold X
  split
  · exact fin_act hH h1 (fun q => hb1 _) _ _
  · exact fin_act hf h0 (fun q => hb0 _) _ _

/-- One column's mean and variance from the two tables of block sums are its mean and the mean of its squared
    deviations. -/
theorem column_stats (h : Fin 100000 → EReal) (hh : ∀ r, Fin' (h r)) (T T2 : Fin 200 → EReal)
    (hT8 : ∀ t : Fin 25, T ⟨8 * t.val, by have := t.isLt; omega⟩
      = ∑ y : Fin 4000, h ⟨4000 * t.val + y.val, by have := t.isLt; have := y.isLt; omega⟩)
    (hTz : ∀ ρ : Fin 200, ρ.val % 8 ≠ 0 → T ρ = 0)
    (hT28 : ∀ t : Fin 25, T2 ⟨8 * t.val, by have := t.isLt; omega⟩
      = ∑ y : Fin 4000, h ⟨4000 * t.val + y.val, by have := t.isLt; have := y.isLt; omega⟩
          * h ⟨4000 * t.val + y.val, by have := t.isLt; have := y.isLt; omega⟩)
    (hT2z : ∀ ρ : Fin 200, ρ.val % 8 ≠ 0 → T2 ρ = 0) :
    Ideal.div (0 + ∑ ρ, T ρ) ((100000 : ℝ) : EReal) = Ideal.div (0 + ∑ r, h r) ((100000 : ℝ) : EReal)
    ∧ Ideal.div (0 + ∑ ρ, T2 ρ) ((100000 : ℝ) : EReal)
          - Ideal.div (0 + ∑ ρ, T ρ) ((100000 : ℝ) : EReal) * Ideal.div (0 + ∑ ρ, T ρ) ((100000 : ℝ) : EReal)
        = Ideal.div (0 + ∑ r, (h r - Ideal.div (0 + ∑ r, h r) ((100000 : ℝ) : EReal))
            * (h r - Ideal.div (0 + ∑ r, h r) ((100000 : ℝ) : EReal))) ((100000 : ℝ) : EReal) := by
  rw [table_sum h T hT8 hTz, table_sum (fun r => h r * h r) T2 hT28 hT2z]
  exact ⟨rfl, (var_two_ways h hh rfl rfl).symm⟩

end BatchSpec

end
-- ==== Proof.KernelReads.lean ====
/-
  The kernel's stages read at an entry.

  A table's column sum is zero plus the sum over its 200 rows; its mean divides by 100000; the reciprocal standard
  deviation is the reciprocal square root of (mean of the squares table − squared mean of the sums table + ε).
  Row 8t of a table holds the sum over rows 4000t … 4000t+3999 of g of the common activation, the other rows zero.
  The result at (r, j) is ((X[r,j] − mean[j])·inv[j])·gamma[j] + beta[j].
-/
import proofs.«124260_j60301340836383_2_alg».proof.Proof.KernelValue
import proofs.«124260_j60301340836383_2_alg».proof.Proof.Activations
import proofs.«124260_j60301340836383_2_alg».proof.Proof.LibRowOps
import proofs.«124260_j60301340836383_2_alg».proof.Proof.LibBatchMoments

set_option maxRecDepth 8192

noncomputable section

namespace Cert.KernelIdeal.KReads

open Cert.KernelIdeal Cert.KernelIdeal.Gen Cert.KernelIdeal.KValue Cert.KernelIdeal.Region0 Cert.KernelIdeal.Region1
open Idealize.ShloMosaic Idealize.ShloMosaic.ValueIdx BatchSpec LibERealMatrix LibIdealFinite

theorem bcast_count {t : Shape} (dims : Fin S_.rank → Fin t.rank) (h : S_.BroadcastsInDim t dims) (j : t.Idx) :
    broadcastInDim t dims h (constant (F := Ideal) S_ .f32 0x47C35000#32) j = ((100000 : ℝ) : EReal) :=
  broadcastInDim_eq_const t dims h (fun _ => ofBits_100000) j

/-- A vector as a row, at (0, q). -/
theorem row128_apply (b : FVec Ideal S128 .f32) (q : Fin 128) : row128 b (ix2 (0 : Fin 1) q) = b (ix1 q) :=
  LibRowOps.shapeCast_row_apply b _ (0 : Fin 1) q
theorem row256_apply (v : FVec Ideal S256 .f32) (j : Fin 256) : row256 v (ix2 (0 : Fin 1) j) = v (ix1 j) :=
  LibRowOps.shapeCast_row_apply v _ (0 : Fin 1) j

theorem reduces_tab : S200x256.Reduces [0] S256 := by decide

/-- A table's column sum: zero plus the sum over its 200 rows. -/
theorem sumK_apply (T : FVec Ideal S200x256 .f32) (j : Fin 256) : sumK T (ix1 j) = 0 + ∑ ρ : Fin 200, T (ix2 ρ j) := by
  unfold sumK
  rw [LibBatchMoments.reduceAdd_single_apply T _ reducesTo_S200x256_S256_d0 reduces_tab h_S_ (ix1 j)]
  refine congrArg₂ (· + ·) ofBits_zero (Finset.sum_congr rfl fun k _ => congrArg T ?_)
  funext d
  match d with
  | ⟨0, _⟩ => exact Fin.ext rfl
  | ⟨1, _⟩ => exact Fin.ext rfl

theorem meanK_apply (T : FVec Ideal S200x256 .f32) (j : Fin 256) :
    meanK T (ix1 j) = Ideal.div (0 + ∑ ρ : Fin 200, T (ix2 ρ j)) ((100000 : ℝ) : EReal) := by
  show Ideal.div (sumK T (ix1 j)) (broadcastInDim S256 ![] bcast_S_S256 (constant (F := Ideal) S_ .f32 0x47C35000#32) (ix1 j)) = _
  rw [sumK_apply, bcast_count]

theorem invK_apply (T T2 : FVec Ideal S200x256 .f32) (j : Fin 256) :
    invK T T2 (ix1 j)
      = Ideal.rsqrt ((meanK T2 (ix1 j) - meanK T (ix1 j) * meanK T (ix1 j)) + Ideal.ofBits .f32 0x3727C5AC#32) := by
  show Ideal.rsqrt ((meanK T2 (ix1 j) - meanK T (ix1 j) * meanK T (ix1 j))
    + broadcastInDim S256 ![] bcast_S_S256 (constant (F := Ideal) S_ .f32 0x3727C5AC#32) (ix1 j)) = _
  have e : broadcastInDim S256 ![] bcast_S_S256 (constant (F := Ideal) S_ .f32 0x3727C5AC#32) (ix1 j)
      = Ideal.ofBits .f32 0x3727C5AC#32 :=
    broadcastInDim_eq_const (s := S_) S256 ![] bcast_S_S256 (fun _ => rfl) (ix1 j)
  rw [e]

/-- A table's entry, with the bias rows read as the bias vectors: the block sum of g of the common activation. -/
theorem tableEntry_rows (g : EReal → EReal) (feat H : FVec Ideal S100000x128 .f32) (W0 W1 : FVec Ideal S128x128 .f32)
    (b0 b1 : FVec Ideal S128 .f32) (R : Fin 200) (j : Fin 256) :
    tableEntry g feat H W0 W1 (row128 b0) (row128 b1) R j
      = if R.val % 8 = 0 then
          ∑ y : Fin 4000, g (X feat H W0 W1 b0 b1
            ⟨4000 * (R.val / 8) + y.val, by have := R.isLt; have := y.isLt; omega⟩ j)
        else 0 := by
  unfold tableEntry X
  simp only [row128_apply]
  by_cases hR : R.val % 8 = 0
  · rw [if_pos hR, if_pos hR]
    by_cases h : 128 ≤ j.val
    · rw [dif_pos h]; exact Finset.sum_congr rfl fun y _ => by rw [dif_pos h]
    · rw [dif_neg h]; exact Finset.sum_congr rfl fun y _ => by rw [dif_neg h]
  · rw [if_neg hR, if_neg hR]

/-- Row 8t of a table. -/
theorem tab_at8 (g : EReal → EReal) (feat H : FVec Ideal S100000x128 .f32) (W0 W1 : FVec Ideal S128x128 .f32)
    (b0 b1 : FVec Ideal S128 .f32) (j : Fin 256) (t : Fin 25) :
    tableAll g feat H W0 W1 (row128 b0) (row128 b1) (ix2 (⟨8 * t.val, by have := t.isLt; omega⟩ : Fin 200) j)
      = ∑ y : Fin 4000, g (X feat H W0 W1 b0 b1
          ⟨4000 * t.val + y.val, by have := t.isLt; have := y.isLt; omega⟩ j) := by
  show tableEntry g feat H W0 W1 (row128 b0) (row128 b1) (⟨8 * t.val, by have := t.isLt; omega⟩ : Fin 200) j = _
  rw [tableEntry_rows]
  have h8 : (8 * t.val) % 8 = 0 := Nat.mul_mod_right 8 t.val
  have hq : 8 * t.val / 8 = t.val := Nat.mul_div_cancel_left t.val (by norm_num)
  rw [if_pos (show ((⟨8 * t.val, by have := t.isLt; omega⟩ : Fin 200)).val % 8 = 0 from h8)]
  refine Finset.sum_congr rfl fun y _ => congrArg g (congrArg (fun r => X feat H W0 W1 b0 b1 r j) (Fin.ext ?_))
  show 4000 * (8 * t.val / 8) + y.val = 4000 * t.val + y.val
  rw [hq]

/-- The other rows of a table. -/
theorem tab_off (g : EReal → EReal) (feat H : FVec Ideal S100000x128 .f32) (W0 W1 : FVec Ideal S128x128 .f32)
    (b0 b1 : FVec Ideal S128 .f32) (j : Fin 256) (ρ : Fin 200) (h : ρ.val % 8 ≠ 0) :
    tableAll g feat H W0 W1 (row128 b0) (row128 b1) (ix2 ρ j) = 0 := by
  show tableEntry g feat H W0 W1 (row128 b0) (row128 b1) ρ j = _
  rw [tableEntry_rows, if_neg h]

/-- The result at (r, j). -/
theorem resultK_apply (feat : FVec Ideal S100000x128 .f32) (vals : FVec Ideal S800000 .f32) (W0 W1 : FVec Ideal S128x128 .f32)
    (b0 b1 : FVec Ideal S128 .f32) (gamma beta : FVec Ideal S256 .f32) (rows cols : IVec S800000 32)
    (r : Fin 100000) (j : Fin 256) :
    resultK feat vals W0 W1 b0 b1 gamma beta rows cols (ix2 r j)
      = ((X feat (hop feat vals rows cols) W0 W1 b0 b1 r j
            - meanK (tabK (fun a => a) feat vals W0 W1 b0 b1 rows cols) (ix1 j))
          * invK (tabK (fun a => a) feat vals W0 W1 b0 b1 rows cols) (tabK (fun a => a * a) feat vals W0 W1 b0 b1 rows cols) (ix1 j))
        * gamma (ix1 j) + beta (ix1 j) := by
  show normEntry (M := 100000) feat (hop feat vals rows cols) W0 W1 (row128 b0) (row128 b1)
    (row256 (meanK (tabK (fun a => a) feat vals W0 W1 b0 b1 rows cols)))
    (row256 (invK (tabK (fun a => a) feat vals W0 W1 b0 b1 rows cols) (tabK (fun a => a * a) feat vals W0 W1 b0 b1 rows cols)))
    (row256 gamma) (row256 beta) r j = _
  unfold normEntry X
  simp only [row128_apply, row256_apply]
  by_cases h : 128 ≤ j.val
  · rw [dif_pos h, dif_pos h]
  · rw [dif_neg h, dif_neg h]

end Cert.KernelIdeal.KReads

end
-- ==== Proof.LibMatIdx.lean ====
/-
  A host product of two matrices at exact arithmetic, read at an entry: the sum over the contracted axis of the
  products of the left factor's row entries with the right factor's column entries. Stated for any contraction
  record between two-axis shapes whose operand indices are "row of the result, contracted position" and "contracted
  position, column of the result" — facts that hold by computation for the records a product of two matrices prints.
-/
import Idealize.ShloMosaic.Lib.ValueIdx
import Idealize.ShloMosaic.PureOps.Ideal.Laws

noncomputable section

namespace LibMatIdx

open Idealize.ShloMosaic Idealize.ShloMosaic.ValueIdx

theorem dot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j = ∑ k : Fin K, l (ix2 (n0 := M) (n1 := K) (j 0) k) * r (ix2 (n0 := K) (n1 := N) k (j 1)) := by
  show FloatOps.dotGeneral (F := Ideal) D prec .single l r j = _
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatIdx

end
-- ==== Proof.RefReads.lean ====
/-
  The reference's stages read at an entry.

  A layer at (r, q) is max(Σ_k x[r,k]·w[k,q], 0) + b[q]. The two layers side by side read, at column j, the first
  layer's column j or the second's column j − 128. A column sum is zero plus the sum over the 100000 rows; the mean
  divides it by 100000. In the variance the divisor is 100000 minus the integer zero read as a float, which is
  100000 and positive, so the selection takes the quotient: the mean of the squared deviations.
-/
import proofs.«124260_j60301340836383_2_alg».proof.Proof.RefValue
import Idealize.ShloMosaic.Lib.Pipeline.Value
import proofs.«124260_j60301340836383_2_alg».proof.Proof.LibMatIdx
import proofs.«124260_j60301340836383_2_alg».proof.Proof.LibIdealFinite
import proofs.«124260_j60301340836383_2_alg».proof.Proof.LibBatchMoments
import proofs.«124260_j60301340836383_2_alg».proof.Proof.Activations

set_option maxRecDepth 8192

noncomputable section

namespace Cert.ReferenceIdeal.RefReads

open Cert.ReferenceIdeal Cert.ReferenceIdeal.Gen Cert.ReferenceIdeal.RefValue Idealize.ShloMosaic Idealize.ShloMosaic.ValueIdx
open BatchSpec LibERealMatrix LibIdealFinite

/-- The 100000.0 literal repeated over any shape reads 100000 everywhere; the zero literal reads zero. -/
theorem bcast_count {t : Shape} (dims : Fin S_.rank → Fin t.rank) (h : S_.BroadcastsInDim t dims) (j : t.Idx) :
    broadcastInDim t dims h (constant (F := Ideal) S_ .f32 0x47C35000#32) j = ((100000 : ℝ) : EReal) :=
  broadcastInDim_eq_const t dims h (fun _ => ofBits_100000) j
theorem bcast_zero {t : Shape} (dims : Fin S_.rank → Fin t.rank) (h : S_.BroadcastsInDim t dims) (j : t.Idx) :
    broadcastInDim t dims h (constant (F := Ideal) S_ .f32 0x00000000#32) j = 0 :=
  broadcastInDim_eq_const t dims h (fun _ => ofBits_zero) j

/-- A vector of 128 repeated down the rows, at (r, q). -/
theorem bias_apply (b : FVec Ideal S128 .f32) (r : Fin 100000) (q : Fin 128) :
    broadcastInDim S100000x128 ![0, 1] bcast_S1x128_S100000x128_0_1 (broadcastInDim S1x128 ![1] bcast_S128_S1x128_1 b) (ix2 r q)
      = b (ix1 q) := by
  refine (broadcastInDim_apply _ _ _ (ix2 r q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

/-- A layer at (r, q). -/
theorem layer_apply (x : FVec Ideal S100000x128 .f32) (w : FVec Ideal S128x128 .f32) (b : FVec Ideal S128 .f32)
    (r : Fin 100000) (q : Fin 128) : layer x w b (ix2 r q) = act x w (fun q => b (ix1 q)) r q := by
  have hd := LibMatIdx.dot2_apply (M := 100000) (K := 128) (N := 128) dot_S100000x128_S128x128_S100000x128_1_0_0_1_n_n rfl rfl
    (fun j k => rfl) (fun j k => DotDims.lhsIdx_val_of_single _ (cl := 1) rfl j k)
    (fun j k => DotDims.rhsIdx_val_of_single _ (cr := 0) rfl j k) (fun j k => rfl) none x w (ix2 r q)
  show max (Host.dotGeneral (F := Ideal) dot_S100000x128_S128x128_S100000x128_1_0_0_1_n_n none x w (ix2 r q))
      (broadcastInDim S100000x128 ![] bcast_S_S100000x128 (constant (F := Ideal) S_ .f32 0x00000000#32) (ix2 r q))
      + broadcastInDim S100000x128 ![0, 1] bcast_S1x128_S100000x128_0_1 (broadcastInDim S1x128 ![1] bcast_S128_S1x128_1 b) (ix2 r q)
    = max (∑ k : Fin 128, x (ix2 r k) * w (ix2 k q)) 0 + b (ix1 q)
  rw [hd, bcast_zero, bias_apply]

/-- The two layers side by side at (r, j). -/
theorem outR_apply (feat H : FVec Ideal S100000x128 .f32) (W0 W1 : FVec Ideal S128x128 .f32) (b0 b1 : FVec Ideal S128 .f32)
    (r : Fin 100000) (j : Fin 256) : outR feat H W0 W1 b0 b1 (ix2 r j) = X feat H W0 W1 b0 b1 r j := by
  unfold outR X
  by_cases h : 128 ≤ j.val
  · rw [dif_pos h]
    refine (concatenate_pair_apply_right (t := S100000x256) (s₁ := S100000x128) (s₂ := S100000x128) (1 : Fin 2)
      (layer feat W0 b0) (layer H W1 b1) concatenates_S100000x128_S100000x128_S100000x256_d1 (ix2 r j) rfl rfl
      (ix2 (n0 := 100000) (n1 := 128) r ⟨j.val - 128, by have := j.isLt; omega⟩) (fun b hb => ?_) ?_).trans
      (layer_apply H W1 b1 r _)
    · match b with
      | ⟨0, _⟩ => rfl
      | ⟨1, _⟩ => exact absurd rfl hb
    · show j.val - 128 + 128 = j.val; omega
  · rw [dif_neg h]
    refine (concatenate_pair_apply_left (t := S100000x256) (s₁ := S100000x128) (s₂ := S100000x128) (1 : Fin 2)
      (layer feat W0 b0) (layer H W1 b1) concatenates_S100000x128_S100000x128_S100000x256_d1 (ix2 r j) rfl
      (ix2 (n0 := 100000) (n1 := 128) r ⟨j.val, by omega⟩) (fun b => ?_)).trans (layer_apply feat W0 b0 r _)
    match b with
    | ⟨0, _⟩ => rfl
    | ⟨1, _⟩ => rfl

/-- A vector of 256 repeated down the rows, at (r, j). -/
theorem rowsOf_apply (v : FVec Ideal S256 .f32) (r : Fin 100000) (j : Fin 256) : rowsOf v (ix2 r j) = v (ix1 j) := by
  unfold rowsOf
  refine (broadcastInDim_apply _ _ _ (ix2 r j) (ix2 (0 : Fin 1) j) fun a => ?_).trans
    (broadcastInDim_apply _ _ v (ix2 (0 : Fin 1) j) (ix1 j) fun a => ?_)
  · match a with
    | ⟨0, _⟩ => rfl
    | ⟨1, _⟩ => rfl
  · match a with
    | ⟨0, _⟩ => rfl

theorem reduces_rows : S100000x256.Reduces [0] S256 := by decide

/-- A column sum: zero plus the sum over the 100000 rows. -/
theorem colSum_apply (x : FVec Ideal S100000x256 .f32) (j : Fin 256) :
    colSum x (ix1 j) = 0 + ∑ r : Fin 100000, x (ix2 r j) := by
  unfold colSum
  rw [LibBatchMoments.reduceAdd_single_apply x _ reducesTo_S100000x256_S256_d0 reduces_rows h_S_ (ix1 j)]
  refine congrArg₂ (· + ·) ofBits_zero (Finset.sum_congr rfl fun k _ => congrArg x ?_)
  funext d
  match d with
  | ⟨0, _⟩ => exact Fin.ext rfl
  | ⟨1, _⟩ => exact Fin.ext rfl

/-- The column means. -/
theorem meanR_apply (out : FVec Ideal S100000x256 .f32) (j : Fin 256) :
    meanR out (ix1 j) = Ideal.div (0 + ∑ r : Fin 100000, out (ix2 r j)) ((100000 : ℝ) : EReal) := by
  show Ideal.div (colSum out (ix1 j)) (broadcastInDim S256 ![] bcast_S_S256 (constant (F := Ideal) S_ .f32 0x47C35000#32) (ix1 j)) = _
  rw [colSum_apply, bcast_count]

/-- The count of the variance is 100000. -/
theorem countR_apply (i : S_.Idx) : countR i = ((100000 : ℝ) : EReal) :=
  subf_constant_sitofp_zero_apply S_ ofBits_100000 i

/-- The deviations from the column means at (r, j). -/
theorem devR_apply (out : FVec Ideal S100000x256 .f32) (r : Fin 100000) (j : Fin 256) :
    devR out (ix2 r j) = out (ix2 r j) - Ideal.div (0 + ∑ r : Fin 100000, out (ix2 r j)) ((100000 : ℝ) : EReal) := by
  show out (ix2 r j) - broadcastInDim S100000x256 ![0, 1] bcast_S1x256_S100000x256_0_1
      (Host.divf (F := Ideal) (broadcastInDim S1x256 ![1] bcast_S256_S1x256_1 (colSum out))
        (broadcastInDim S1x256 ![] bcast_S_S1x256 (constant (F := Ideal) S_ .f32 0x47C35000#32))) (ix2 r j) = _
  have e1 : broadcastInDim S100000x256 ![0, 1] bcast_S1x256_S100000x256_0_1
      (Host.divf (F := Ideal) (broadcastInDim S1x256 ![1] bcast_S256_S1x256_1 (colSum out))
        (broadcastInDim S1x256 ![] bcast_S_S1x256 (constant (F := Ideal) S_ .f32 0x47C35000#32))) (ix2 r j)
      = Ideal.div (colSum out (ix1 j)) ((100000 : ℝ) : EReal) := by
    refine (broadcastInDim_apply _ _ _ (ix2 r j) (ix2 (0 : Fin 1) j) fun a => ?_).trans ?_
    · match a with
      | ⟨0, _⟩ => rfl
      | ⟨1, _⟩ => rfl
    · show Ideal.div (broadcastInDim S1x256 ![1] bcast_S256_S1x256_1 (colSum out) (ix2 (0 : Fin 1) j))
        (broadcastInDim S1x256 ![] bcast_S_S1x256 (constant (F := Ideal) S_ .f32 0x47C35000#32) (ix2 (0 : Fin 1) j)) = _
      rw [bcast_count]
      refine congrArg (fun t => Ideal.div t ((100000 : ℝ) : EReal)) (broadcastInDim_apply _ _ _ (ix2 (0 : Fin 1) j) (ix1 j) fun a => ?_)
      match a with
      | ⟨0, _⟩ => rfl
  rw [e1, colSum_apply]

/-- The column variances: the mean of the squared deviations from the column means. -/
theorem varR_apply (out : FVec Ideal S100000x256 .f32) (j : Fin 256) :
    varR out (ix1 j)
      = Ideal.div (0 + ∑ r : Fin 100000,
          (out (ix2 r j) - Ideal.div (0 + ∑ r : Fin 100000, out (ix2 r j)) ((100000 : ℝ) : EReal))
          * (out (ix2 r j) - Ideal.div (0 + ∑ r : Fin 100000, out (ix2 r j)) ((100000 : ℝ) : EReal)))
        ((100000 : ℝ) : EReal) := by
  unfold varR
  have hpos : ∀ k : S_.Idx, cmpf (F := Ideal) .ogt countR (constant (F := Ideal) S_ .f32 0x00000000#32) k = 1#1 := fun k =>
    cmpf_ogt_eq_one _ _ k (by
      rw [countR_apply]
      show Ideal.ofBits .f32 0x00000000#32 < ((100000 : ℝ) : EReal)
      rw [ofBits_zero]; exact_mod_cast (by norm_num : (0 : ℝ) < 100000))
  have hc : ∀ i : S256.Idx, broadcastInDim S256 ![] bcast_S_S256
      (cmpf (F := Ideal) .ogt countR (constant (F := Ideal) S_ .f32 0x00000000#32)) i = 1 :=
    fun i => broadcastInDim_eq_const S256 ![] bcast_S_S256 hpos i
  rw [select_of_true (broadcastInDim S256 ![] bcast_S_S256
    (cmpf (F := Ideal) .ogt countR (constant (F := Ideal) S_ .f32 0x00000000#32))) _ _ hc]
  show Ideal.div (colSum (mulf (F := Ideal) (devR out) (devR out)) (ix1 j)) (broadcastInDim S256 ![] bcast_S_S256 countR (ix1 j)) = _
  rw [broadcastInDim_eq_const S256 ![] bcast_S_S256 (fun k => countR_apply k) (ix1 j), colSum_apply]
  refine congrArg (fun t => Ideal.div (0 + t) ((100000 : ℝ) : EReal)) (Finset.sum_congr rfl fun r _ => ?_)
  show devR out (ix2 r j) * devR out (ix2 r j) = _
  rw [devR_apply]

end Cert.ReferenceIdeal.RefReads

end
-- ==== Proof.LibGatherScatterFinite.lean ====
/-
  A gather and an accumulating scatter keep entries real, at exact arithmetic, whatever the indices are.

  A gather only moves entries: each entry of the result is the operand's entry at a position computed from the
  start indices (read as signed integers and clamped so that the slice fits the operand), so an out-of-range
  start index still reads an entry of the operand. Any property of single entries therefore passes from the
  operand to the result, being a real number in particular.

  An accumulating scatter gives each position of the operand the operand's entry there plus the sum of the
  updates that land on it; an update whose position falls outside the operand lands nowhere and contributes
  nothing. Each entry of the result is thus a finite sum of entries of the operand and of the updates, a real
  number when all of those are. No value other than the operand's and the updates' entries ever enters, so the
  indices play no part in the argument.
-/
import Idealize.ShloMosaic.PureOps.Ideal.Laws
import proofs.«124260_j60301340836383_2_alg».proof.Proof.LibERealMatrix
import proofs.«124260_j60301340836383_2_alg».proof.Proof.LibIdealFinite

noncomputable section

namespace LibGatherScatterFinite

open Idealize.ShloMosaic LibERealMatrix LibIdealFinite

/-! ### Gather -/

section Gather
variable {s si t : Shape} {w : Nat}

/-- An entry of a gather is the operand's entry at the position the dimension numbers compute. -/
theorem gather_apply {α : Type} (d : GatherDims s si t) (x : s.Idx → α) (idx : IVec si w) (j : t.Idx) :
    Host.gather d x idx j = x (d.operandIdx j idx) := rfl

/-- Every entry of a gather is an entry of the operand. -/
theorem entriesOf_gather {α : Type} (d : GatherDims s si t) (x : s.Idx → α) (idx : IVec si w) :
    EntriesOf (Host.gather d x idx) x := fun _ => ⟨_, rfl⟩

/-- A gather of real entries has real entries, for any indices. -/
theorem allFin_gather (d : GatherDims s si t) {x : s.Idx → EReal} (idx : IVec si w) (hx : AllFin x) :
    AllFin (Host.gather d x idx) := fun _ => hx _

/-- Non-negativity and positivity pass through a gather as well. -/
theorem gather_nonneg (d : GatherDims s si t) {x : s.Idx → EReal} (idx : IVec si w) (hx : ∀ i, 0 ≤ x i) (j : t.Idx) :
    0 ≤ Host.gather d x idx j := hx _

theorem gather_pos (d : GatherDims s si t) {x : s.Idx → EReal} (idx : IVec si w) (hx : ∀ i, 0 < x i) (j : t.Idx) :
    0 < Host.gather d x idx j := hx _

end Gather

/-! ### Accumulating scatter -/

section Scatter
variable {s si u : Shape} {φ : FTy} {w : Nat}

/-- An entry of an accumulating scatter: the operand's entry plus the sum of the updates landing there. -/
theorem scatterAdd_apply (d : ScatterDims s si u) (x : FVec Ideal s φ) (idx : IVec si w) (upd : FVec Ideal u φ)
    (i : s.Idx) :
    Host.scatterAdd (F := Ideal) d x idx upd i
      = x i + ∑ j ∈ Finset.univ.filter (fun j => d.resultIdx? j idx = some i), upd j := rfl

/-- An accumulating scatter of real updates onto real entries has real entries, for any indices. -/
theorem allFin_scatterAdd (d : ScatterDims s si u) {x : FVec Ideal s φ} (idx : IVec si w) {upd : FVec Ideal u φ}
    (hx : AllFin x) (hupd : AllFin upd) : AllFin (Host.scatterAdd (F := Ideal) d x idx upd) := by
  intro i
  rw [scatterAdd_apply]
  exact (hx i).add (Fin'.sum _ _ fun j => hupd j)

/-- The same at any schedule key: at exact arithmetic the key plays no part. -/
theorem scatterAddAt_eq (sched : HostSchedule) (d : ScatterDims s si u) (x : FVec Ideal s φ) (idx : IVec si w)
    (upd : FVec Ideal u φ) :
    Host.scatterAddAt (F := Ideal) sched d x idx upd = Host.scatterAdd (F := Ideal) d x idx upd := rfl

theorem allFin_scatterAddAt (sched : HostSchedule) (d : ScatterDims s si u) {x : FVec Ideal s φ} (idx : IVec si w)
    {upd : FVec Ideal u φ} (hx : AllFin x) (hupd : AllFin upd) :
    AllFin (Host.scatterAddAt (F := Ideal) sched d x idx upd) := by
  rw [scatterAddAt_eq]; exact allFin_scatterAdd d idx hx hupd

/-- An accumulating scatter of non-negative updates onto non-negative entries is non-negative. -/
theorem scatterAdd_nonneg (d : ScatterDims s si u) {x : FVec Ideal s φ} (idx : IVec si w) {upd : FVec Ideal u φ}
    (hx : ∀ i, 0 ≤ x i) (hupd : ∀ j, 0 ≤ upd j) (i : s.Idx) : 0 ≤ Host.scatterAdd (F := Ideal) d x idx upd i := by
  rw [scatterAdd_apply]
  exact add_nonneg (hx i) (Finset.sum_nonneg fun j _ => hupd j)

end Scatter

end LibGatherScatterFinite

end
-- ==== Proof.Bridge.lean ====
/-
  The two results are one function of the argument arrays.

  Both programs build the neighbour aggregation H with the same operations, and the two layers' activations X from
  it. At (r, j) the kernel's result is ((X[r,j] − μ)·rsqrt(q − μ² + ε))·gamma[j] + beta[j] with μ and q the means
  of the two tables' column j, and the reference's is ((X[r,j] − μ')·rsqrt(v + ε))·gamma[j] + beta[j] with μ' the
  mean of column j of X and v the mean of its squared deviations. The tables' column sums are the column's sum and
  sum of squares, so μ = μ'; and q − μ² = v because the column's entries are real numbers: the argument arrays'
  entries are real, a gather moves entries, an accumulating scatter adds finitely many products of them, and an
  activation is a finite sum of products, a maximum with zero and a sum.
-/
import proofs.«124260_j60301340836383_2_alg».proof.Proof.KernelReads
import proofs.«124260_j60301340836383_2_alg».proof.Proof.RefReads
import proofs.«124260_j60301340836383_2_alg».proof.Proof.LibGatherScatterFinite

set_option maxRecDepth 8192

noncomputable section

namespace Cert.Bridge

open Idealize.ShloMosaic Idealize.ShloMosaic.ValueIdx BatchSpec LibERealMatrix LibIdealFinite
open Cert.KernelIdeal (S100000x128 S800000 S128x128 S128 S256 S200x256 S100000x256)

variable (feat : FVec Ideal S100000x128 .f32) (vals : FVec Ideal S800000 .f32) (W0 W1 : FVec Ideal S128x128 .f32)
  (b0 b1 : FVec Ideal S128 .f32) (gamma beta : FVec Ideal S256 .f32) (rows cols : IVec S800000 32)

/-- The two programs spell the neighbour aggregation with the same operations. -/
theorem hop_eq : Cert.ReferenceIdeal.RefValue.hop feat vals rows cols = Cert.KernelIdeal.KValue.hop feat vals rows cols := rfl

/-- The aggregation of real entries has real entries, whatever the indices. -/
theorem allFin_hop (hf : AllFin feat) (hv : AllFin vals) : AllFin (Cert.KernelIdeal.KValue.hop feat vals rows cols) := by
  unfold Cert.KernelIdeal.KValue.hop
  exact LibGatherScatterFinite.allFin_scatterAdd _ _ (allFin_bcast_constant _ _ ofBits_zero_coe)
    (allFin_mulf (allFin_broadcastInDim _ _ _ (allFin_broadcastInDim _ _ _ hv))
      (LibGatherScatterFinite.allFin_gather _ _ hf))

set_option maxHeartbeats 1000000 in
/-- THE BRIDGE: the kernel's result array is the reference's. -/
theorem result_eq (hf : AllFin feat) (hv : AllFin vals) (h0 : AllFin W0) (h1 : AllFin W1) (hb0 : AllFin b0)
    (hb1 : AllFin b1) :
    Cert.KernelIdeal.KValue.resultK feat vals W0 W1 b0 b1 gamma beta rows cols
      = Cert.ReferenceIdeal.RefValue.normR (Cert.ReferenceIdeal.RefValue.outR feat (Cert.ReferenceIdeal.RefValue.hop feat vals rows cols) W0 W1 b0 b1)
          (Cert.ReferenceIdeal.RefValue.meanR (Cert.ReferenceIdeal.RefValue.outR feat (Cert.ReferenceIdeal.RefValue.hop feat vals rows cols) W0 W1 b0 b1)) (Cert.ReferenceIdeal.RefValue.varR (Cert.ReferenceIdeal.RefValue.outR feat (Cert.ReferenceIdeal.RefValue.hop feat vals rows cols) W0 W1 b0 b1)) gamma beta := by
  rw [hop_eq]
  have hH : AllFin (Cert.KernelIdeal.KValue.hop feat vals rows cols) := allFin_hop feat vals rows cols hf hv
  generalize hHdef : Cert.KernelIdeal.KValue.hop feat vals rows cols = H at hH
  funext i
  obtain ⟨r, j, rfl⟩ : ∃ (r : Fin 100000) (j : Fin 256), i = ix2 r j := ⟨i 0, i 1, eq_ix2 i⟩
  -- column j of the common activations, a column of real numbers
  have hh : ∀ r, Fin' (X feat H W0 W1 b0 b1 r j) := fun r => fin_X hf hH h0 h1 hb0 hb1 r j
  obtain ⟨em, ev⟩ := column_stats (fun r => X feat H W0 W1 b0 b1 r j) hh
    (fun ρ => Cert.KernelIdeal.Region0.tableAll (fun a => a) feat H W0 W1 (Cert.KernelIdeal.KValue.row128 b0)
      (Cert.KernelIdeal.KValue.row128 b1) (ix2 ρ j))
    (fun ρ => Cert.KernelIdeal.Region0.tableAll (fun a => a * a) feat H W0 W1 (Cert.KernelIdeal.KValue.row128 b0)
      (Cert.KernelIdeal.KValue.row128 b1) (ix2 ρ j))
    (fun t => Cert.KernelIdeal.KReads.tab_at8 (fun a => a) feat H W0 W1 b0 b1 j t)
    (fun ρ h => Cert.KernelIdeal.KReads.tab_off (fun a => a) feat H W0 W1 b0 b1 j ρ h)
    (fun t => Cert.KernelIdeal.KReads.tab_at8 (fun a => a * a) feat H W0 W1 b0 b1 j t)
    (fun ρ h => Cert.KernelIdeal.KReads.tab_off (fun a => a * a) feat H W0 W1 b0 b1 j ρ h)
  -- the kernel's entry
  have hK : Cert.KernelIdeal.KValue.resultK feat vals W0 W1 b0 b1 gamma beta rows cols (ix2 r j)
      = ((X feat H W0 W1 b0 b1 r j
            - Ideal.div (0 + ∑ ρ : Fin 200, Cert.KernelIdeal.Region0.tableAll (fun a => a) feat H W0 W1
                (Cert.KernelIdeal.KValue.row128 b0) (Cert.KernelIdeal.KValue.row128 b1) (ix2 ρ j)) ((100000 : ℝ) : EReal))
          * Ideal.rsqrt ((Ideal.div (0 + ∑ ρ : Fin 200, Cert.KernelIdeal.Region0.tableAll (fun a => a * a) feat H W0 W1
                (Cert.KernelIdeal.KValue.row128 b0) (Cert.KernelIdeal.KValue.row128 b1) (ix2 ρ j)) ((100000 : ℝ) : EReal)
              - Ideal.div (0 + ∑ ρ : Fin 200, Cert.KernelIdeal.Region0.tableAll (fun a => a) feat H W0 W1
                  (Cert.KernelIdeal.KValue.row128 b0) (Cert.KernelIdeal.KValue.row128 b1) (ix2 ρ j)) ((100000 : ℝ) : EReal)
                * Ideal.div (0 + ∑ ρ : Fin 200, Cert.KernelIdeal.Region0.tableAll (fun a => a) feat H W0 W1
                  (Cert.KernelIdeal.KValue.row128 b0) (Cert.KernelIdeal.KValue.row128 b1) (ix2 ρ j)) ((100000 : ℝ) : EReal))
            + Ideal.ofBits .f32 0x3727C5AC#32))
        * gamma (ix1 j) + beta (ix1 j) := by
    rw [Cert.KernelIdeal.KReads.resultK_apply, Cert.KernelIdeal.KReads.invK_apply, Cert.KernelIdeal.KReads.meanK_apply,
      Cert.KernelIdeal.KReads.meanK_apply]
    unfold Cert.KernelIdeal.KValue.tabK
    rw [hHdef]
  -- the reference's entry
  have hR : Cert.ReferenceIdeal.RefValue.normR (Cert.ReferenceIdeal.RefValue.outR feat H W0 W1 b0 b1)
        (Cert.ReferenceIdeal.RefValue.meanR (Cert.ReferenceIdeal.RefValue.outR feat H W0 W1 b0 b1))
        (Cert.ReferenceIdeal.RefValue.varR (Cert.ReferenceIdeal.RefValue.outR feat H W0 W1 b0 b1)) gamma beta (ix2 r j)
      = ((X feat H W0 W1 b0 b1 r j
            - Ideal.div (0 + ∑ r : Fin 100000, X feat H W0 W1 b0 b1 r j) ((100000 : ℝ) : EReal))
          * Ideal.rsqrt (Ideal.div (0 + ∑ r : Fin 100000,
                (X feat H W0 W1 b0 b1 r j - Ideal.div (0 + ∑ r : Fin 100000, X feat H W0 W1 b0 b1 r j) ((100000 : ℝ) : EReal))
                * (X feat H W0 W1 b0 b1 r j - Ideal.div (0 + ∑ r : Fin 100000, X feat H W0 W1 b0 b1 r j) ((100000 : ℝ) : EReal)))
              ((100000 : ℝ) : EReal)
            + Ideal.ofBits .f32 0x3727C5AC#32))
        * gamma (ix1 j) + beta (ix1 j) := by
    have eε : broadcastInDim Cert.ReferenceIdeal.S256 ![] Cert.ReferenceIdeal.Gen.bcast_S_S256
        (constant (F := Ideal) Cert.ReferenceIdeal.S_ .f32 0x3727C5AC#32) (ix1 j) = Ideal.ofBits .f32 0x3727C5AC#32 :=
      broadcastInDim_eq_const _ _ _ (fun _ => rfl) (ix1 j)
    show ((Cert.ReferenceIdeal.RefValue.outR feat H W0 W1 b0 b1 (ix2 r j)
          - Cert.ReferenceIdeal.RefValue.rowsOf (Cert.ReferenceIdeal.RefValue.meanR (Cert.ReferenceIdeal.RefValue.outR feat H W0 W1 b0 b1)) (ix2 r j))
        * Cert.ReferenceIdeal.RefValue.rowsOf (Host.rsqrt (F := Ideal) (addf (F := Ideal)
            (Cert.ReferenceIdeal.RefValue.varR (Cert.ReferenceIdeal.RefValue.outR feat H W0 W1 b0 b1))
            (broadcastInDim Cert.ReferenceIdeal.S256 ![] Cert.ReferenceIdeal.Gen.bcast_S_S256
              (constant (F := Ideal) Cert.ReferenceIdeal.S_ .f32 0x3727C5AC#32)))) (ix2 r j))
        * Cert.ReferenceIdeal.RefValue.rowsOf gamma (ix2 r j) + Cert.ReferenceIdeal.RefValue.rowsOf beta (ix2 r j) = _
    rw [Cert.ReferenceIdeal.RefReads.rowsOf_apply, Cert.ReferenceIdeal.RefReads.rowsOf_apply,
      Cert.ReferenceIdeal.RefReads.rowsOf_apply, Cert.ReferenceIdeal.RefReads.rowsOf_apply,
      Cert.ReferenceIdeal.RefReads.meanR_apply]
    show ((Cert.ReferenceIdeal.RefValue.outR feat H W0 W1 b0 b1 (ix2 r j) - _)
        * Ideal.rsqrt (Cert.ReferenceIdeal.RefValue.varR (Cert.ReferenceIdeal.RefValue.outR feat H W0 W1 b0 b1) (ix1 j)
            + broadcastInDim Cert.ReferenceIdeal.S256 ![] Cert.ReferenceIdeal.Gen.bcast_S_S256
              (constant (F := Ideal) Cert.ReferenceIdeal.S_ .f32 0x3727C5AC#32) (ix1 j)))
        * gamma (ix1 j) + beta (ix1 j) = _
    rw [Cert.ReferenceIdeal.RefReads.varR_apply, eε]
    simp only [Cert.ReferenceIdeal.RefReads.outR_apply]
  rw [hK, hR, ev, em]

end Cert.Bridge

end
-- ==== Proof.lean ====
/-
  The certificate of a two-layer graph convolution followed by a batch normalisation over 100000 nodes.

  Both programs aggregate each node's neighbours (an edge's weight times the feature row its column index names,
  summed at the edge's row index), apply two 128×128 layers with a rectifier and a bias — one to the features, one
  to the aggregation —, put the two results side by side in 256 columns, and normalise each column over the nodes:
  ((x − mean)·rsqrt(var + ε))·gamma + beta.

  The reference takes a column's variance as the mean of its squared deviations from its mean. The kernel makes two
  passes over blocks of 4000 nodes: the first leaves, per block, the column sums and the column sums of squares,
  from which the mean and "mean of squares − squared mean" are taken; the second recomputes the activations and
  normalises them. At exact arithmetic the two agree: regrouping a sum by blocks changes nothing, and the two forms
  of the variance are equal for a column of real numbers, which the columns are because every float input is finite.

  The kernel's idealization rewrites nothing, so the fourth claim is trivial; the three frame claims are the
  programs' runs with the results dropped.
-/
import proofs.«124260_j60301340836383_2_alg».proof.Defs
import proofs.«124260_j60301340836383_2_alg».proof.Proof.Gen.Kernel
import proofs.«124260_j60301340836383_2_alg».proof.Proof.Gen.Kernel.Skeleton
import proofs.«124260_j60301340836383_2_alg».proof.Proof.Gen.Kernel.Launch
import proofs.«124260_j60301340836383_2_alg».proof.Proof.Gen.Kernel.Points
import proofs.«124260_j60301340836383_2_alg».proof.Proof.Gen.Kernel.Frame
import proofs.«124260_j60301340836383_2_alg».proof.Proof.Gen.KernelIdeal
import proofs.«124260_j60301340836383_2_alg».proof.Proof.Gen.KernelIdeal.Skeleton
import proofs.«124260_j60301340836383_2_alg».proof.Proof.Gen.KernelIdeal.Launch
import proofs.«124260_j60301340836383_2_alg».proof.Proof.Gen.KernelIdeal.Points
import proofs.«124260_j60301340836383_2_alg».proof.Proof.Gen.KernelIdeal.Frame
import proofs.«124260_j60301340836383_2_alg».proof.Proof.Gen.ReferenceIdeal
import proofs.«124260_j60301340836383_2_alg».proof.Proof.Gen.Pre_finite_inputs
import proofs.«124260_j60301340836383_2_alg».proof.Proof.KernelRun
import proofs.«124260_j60301340836383_2_alg».proof.Proof.KernelValue
import proofs.«124260_j60301340836383_2_alg».proof.Proof.RefRun
import proofs.«124260_j60301340836383_2_alg».proof.Proof.RefFrame
import proofs.«124260_j60301340836383_2_alg».proof.Proof.RefValue
import proofs.«124260_j60301340836383_2_alg».proof.Proof.Finite
import proofs.«124260_j60301340836383_2_alg».proof.Proof.Bridge
import Idealize.ShloMosaic.Adequacy
import Idealize.ShloMosaic.Init

set_option maxRecDepth 8192

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, the ten argument buffers read back. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.RefFrame.kept_arg0 _),
     (h c Cert.ReferenceIdeal.main_arg1).trans (Cert.ReferenceIdeal.RefFrame.kept_arg1 _),
     (h c Cert.ReferenceIdeal.main_arg2).trans (Cert.ReferenceIdeal.RefFrame.kept_arg2 _),
     (h c Cert.ReferenceIdeal.main_arg3).trans (Cert.ReferenceIdeal.RefFrame.kept_arg3 _),
     (h c Cert.ReferenceIdeal.main_arg4).trans (Cert.ReferenceIdeal.RefFrame.kept_arg4 _),
     (h c Cert.ReferenceIdeal.main_arg5).trans (Cert.ReferenceIdeal.RefFrame.kept_arg5 _),
     (h c Cert.ReferenceIdeal.main_arg6).trans (Cert.ReferenceIdeal.RefFrame.kept_arg6 _),
     (h c Cert.ReferenceIdeal.main_arg7).trans (Cert.ReferenceIdeal.RefFrame.kept_arg7 _),
     (h c Cert.ReferenceIdeal.main_arg8).trans (Cert.ReferenceIdeal.RefFrame.kept_arg8 _),
     (h c Cert.ReferenceIdeal.main_arg9).trans (Cert.ReferenceIdeal.RefFrame.kept_arg9 _)⟩)
    (Cert.ReferenceIdeal.RefRun.run_all (F := Ideal) m ρ)

/-- The idealization rewrote no operation. -/
theorem preserves : Cert.preserves_Kernel_KernelIdeal := trivial

set_option maxHeartbeats 1000000 in
/-- From memories agreeing on the arguments, both idealized programs run, keep their arguments, and end with the same
    result array: the kernel's (its run, then its value as a function of the arguments), the reference's (its run, then
    its value), and the bridge between the two under the precondition's "every float input is finite". -/
theorem algebraic : Cert.algebraic_KernelIdeal_ReferenceIdeal := by
  intro m ρ m' ρ' hpre hagree
  refine ⟨fun c => Cert.KernelIdeal.KValue.resultK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KValue.result_value m ρ c), (h c).2⟩)
      (Cert.KernelIdeal.Result.run_result m ρ)
  · refine (θ_run Cert.ReferenceIdeal.defs _ _).mono (fun r h c =>
      ⟨?_, (h c Cert.ReferenceIdeal.main_arg0).trans (Cert.ReferenceIdeal.RefFrame.kept_arg0 _),
       (h c Cert.ReferenceIdeal.main_arg1).trans (Cert.ReferenceIdeal.RefFrame.kept_arg1 _),
       (h c Cert.ReferenceIdeal.main_arg2).trans (Cert.ReferenceIdeal.RefFrame.kept_arg2 _),
       (h c Cert.ReferenceIdeal.main_arg3).trans (Cert.ReferenceIdeal.RefFrame.kept_arg3 _),
       (h c Cert.ReferenceIdeal.main_arg4).trans (Cert.ReferenceIdeal.RefFrame.kept_arg4 _),
       (h c Cert.ReferenceIdeal.main_arg5).trans (Cert.ReferenceIdeal.RefFrame.kept_arg5 _),
       (h c Cert.ReferenceIdeal.main_arg6).trans (Cert.ReferenceIdeal.RefFrame.kept_arg6 _),
       (h c Cert.ReferenceIdeal.main_arg7).trans (Cert.ReferenceIdeal.RefFrame.kept_arg7 _),
       (h c Cert.ReferenceIdeal.main_arg8).trans (Cert.ReferenceIdeal.RefFrame.kept_arg8 _),
       (h c Cert.ReferenceIdeal.main_arg9).trans (Cert.ReferenceIdeal.RefFrame.kept_arg9 _)⟩)
      (Cert.ReferenceIdeal.RefRun.run_all (F := Ideal) m' ρ')
    obtain ⟨a0, a1, a2, a3, a4, a5, a6, a7, a8, a9⟩ := hagree c
    obtain ⟨f0, f1, f2, f3, f4, f5⟩ := Cert.Finite.of_pre m hpre c
    refine ((h c Cert.ReferenceIdeal.main_v42).trans (Cert.ReferenceIdeal.RefValue.result_eq _)).trans ?_
    show Cert.ReferenceIdeal.RefValue.normR
        (Cert.ReferenceIdeal.RefValue.outR (m' ((c.tc : Thread Cert.ReferenceIdeal.nD Cert.ReferenceIdeal.τ).loc Cert.ReferenceIdeal.main_arg0)) (Cert.ReferenceIdeal.RefValue.hop (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))
        (Cert.ReferenceIdeal.RefValue.meanR
          (Cert.ReferenceIdeal.RefValue.outR (m' ((c.tc : Thread Cert.ReferenceIdeal.nD Cert.ReferenceIdeal.τ).loc Cert.ReferenceIdeal.main_arg0)) (Cert.ReferenceIdeal.RefValue.hop (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)))
            (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))))
        (Cert.ReferenceIdeal.RefValue.varR
          (Cert.ReferenceIdeal.RefValue.outR (m' ((c.tc : Thread Cert.ReferenceIdeal.nD Cert.ReferenceIdeal.τ).loc Cert.ReferenceIdeal.main_arg0)) (Cert.ReferenceIdeal.RefValue.hop (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)))
            (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))))
        (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [a0, a1, a2, a3, a4, a5, a6, a7, a8, a9]
    exact (Cert.Bridge.result_eq _ _ _ _ _ _ _ _ _ _ f0 f1 f2 f3 f4 f5).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
